-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_v47) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192x8192 : Shape := ⟨2, ![8192, 8192]⟩
abbrev S8192 : Shape := ⟨1, ![8192]⟩
abbrev S64x16 : Shape := ⟨2, ![64, 16]⟩
abbrev S16 : Shape := ⟨1, ![16]⟩
abbrev S16x1024 : Shape := ⟨2, ![16, 1024]⟩
abbrev S1024 : Shape := ⟨1, ![1024]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x1024 : S_.BroadcastsInDim S16x1024 (![] : Fin 0 → Fin S16x1024.rank)
  reducesTo_S16x1024_S_d0_1 : S16x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S16x1024 .f32) (main_arg6 : FVec F S1024 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x1024 .f32 := Host.absf main_arg5
  let main_cst_6 : FVec F S_ .f32 := constant S_ .f32 0x7F800000#32
  let main_v20 : FVec F S16x1024 .f32 := broadcastInDim S16x1024 ![] bcast_S_S16x1024 main_cst_6
  let main_v21 : IVec S16x1024 1 := cmpf .olt main_v19 main_v20
  let main_c_7 : IVec S_ 1 := constantI S_ 1 1#1
  let main_v22 : IVec S_ 1 := (fun x v => Host.reduce IntOp.andi x v reducesTo_S16x1024_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8192x64 .f32) (main_arg1 : FVec F S8192x8192 .f32) (main_arg2 : IVec S8192 32) (main_arg3 : FVec F S64x16 .f32) (main_arg4 : FVec F S16 .f32) (main_arg5 : FVec F S16x1024 .f32) (main_arg6 : FVec F S1024 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S64x16 .f32 := Host.absf main_arg3
  let main_cst_2 : FVec F S_ .f32 := constant S_ .f32 0x7F800000#32
  let main_v10 : FVec F S64x16 .f32 := broadcastInDim S64x16 ![] bcast_S_S64x16 main_cst_2
  let main_v11 : IVec S64x16 1 := cmpf .olt main_v9 main_v10
  let main_c_3 : IVec S_ 1 := constantI S_ 1 1#1
  let main_v12 : IVec S_ 1 := (fun x v => Host.reduce IntOp.andi x v reducesTo_S64x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_v13 main_v16
-- ==== Kernel.lean ====
abbrev S8192x64 : Shape := ⟨2, ![8192, 64]⟩
abbrev S8192x8192 : Shape := ⟨2, ![8192, 8192]⟩
abbrev S8192 : Shape := ⟨1, ![8192]⟩
abbrev S64x16 : Shape := ⟨2, ![64, 16]⟩
abbrev S16 : Shape := ⟨1, ![16]⟩
abbrev S16x1024 : Shape := ⟨2, ![16, 1024]⟩
abbrev S1024 : Shape := ⟨1, ![1024]⟩
abbrev S8192x1024 : Shape := ⟨2, ![8192, 1024]⟩
abbrev S1024x1024 : Shape := ⟨2, ![1024, 1024]⟩
abbrev S1024x64 : Shape := ⟨2, ![1024, 64]⟩
abbrev S_ : Shape := ⟨0, ![]⟩
abbrev S1024x1 : Shape := ⟨2, ![1024, 1]⟩
abbrev S1x1024 : Shape := ⟨2, ![1, 1024]⟩
abbrev S1 : Shape := ⟨1, ![1]⟩
abbrev S8192x1 : Shape := ⟨2, ![8192, 1]⟩
abbrev S1024x16 : Shape := ⟨2, ![1024, 16]⟩
abbrev S1x16 : Shape := ⟨2, ![1, 16]⟩
abbrev S512x1024 : Shape := ⟨2, ![512, 1024]⟩
abbrev S512 : Shape := ⟨1, ![512]⟩
abbrev S512x64 : Shape := ⟨2, ![512, 64]⟩

abbrev nBuf : Space → Nat
  | .hbm => 97
  | .vmem => 26
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .hbm, ⟨2, _⟩ => ⟨S8192, .i32⟩
  | .hbm, ⟨3, _⟩ => ⟨S64x16, .f32⟩
  | .hbm, ⟨4, _⟩ => ⟨S16, .f32⟩
  | .hbm, ⟨5, _⟩ => ⟨S16x1024, .f32⟩
  | .hbm, ⟨6, _⟩ => ⟨S1024, .f32⟩
  | .hbm, ⟨7, _⟩ => ⟨S8192x1024, .bf16⟩
  | .hbm, ⟨8, _⟩ => ⟨S8192x1024, .f32⟩
  | .hbm, ⟨9, _⟩ => ⟨S8192, .f32⟩
  | .hbm, ⟨10, _⟩ => ⟨S1024x1024, .f32⟩
  | .hbm, ⟨11, _⟩ => ⟨S1024x1024, .f32⟩
  | .hbm, ⟨12, _⟩ => ⟨S1024x64, .f32⟩
  | .hbm, ⟨13, _⟩ => ⟨S8192, .f32⟩
  | .hbm, ⟨14, _⟩ => ⟨S1024x1024, .i32⟩
  | .hbm, ⟨15, _⟩ => ⟨S1024x1024, .i32⟩
  | .hbm, ⟨16, _⟩ => ⟨S_, .i32⟩
  | .hbm, ⟨17, _⟩ => ⟨S1024x1024, .i32⟩
  | .hbm, ⟨18, _⟩ => ⟨S1024x1024, .i32⟩
  | .hbm, ⟨19, _⟩ => ⟨S1024x1024, .i1⟩
  | .hbm, ⟨20, _⟩ => ⟨S_, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1024x1024, .i32⟩
  | .hbm, ⟨33, _⟩ => ⟨S1024x1024, .i32⟩
  | .hbm, ⟨34, _⟩ => ⟨S_, .i32⟩
  | .hbm, ⟨35, _⟩ => ⟨S1024x1024, .i32⟩
  | .hbm, ⟨36, _⟩ => ⟨S1024x1024, .i32⟩
  | .hbm, ⟨37, _⟩ => ⟨S1024x1024, .i1⟩
  | .hbm, ⟨38, _⟩ => ⟨S1024x1024, .f32⟩
  | .hbm, ⟨39, _⟩ => ⟨S1024x1024, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1024x1024, .f32⟩
  | .hbm, ⟨44, _⟩ => ⟨S1024x1024, .f32⟩
  | .hbm, ⟨45, _⟩ => ⟨S_, .f32⟩
  | .hbm, ⟨46, _⟩ => ⟨S_, .f32⟩
  | .hbm, ⟨47, _⟩ => ⟨S1024x1024, .f32⟩
  | .hbm, ⟨48, _⟩ => ⟨S1024x1024, .f32⟩
  | .hbm, ⟨49, _⟩ => ⟨S1024x1024, .f32⟩
  | .hbm, ⟨50, _⟩ => ⟨S1024x1024, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S1024x1024, .f32⟩
  | .hbm, ⟨56, _⟩ => ⟨S1024x1024, .f32⟩
  | .hbm, ⟨57, _⟩ => ⟨S1024x1024, .f32⟩
  | .hbm, ⟨58, _⟩ => ⟨S_, .f32⟩
  | .hbm, ⟨59, _⟩ => ⟨S1024, .f32⟩
  | .hbm, ⟨60, _⟩ => ⟨S_, .f32⟩
  | .hbm, ⟨61, _⟩ => ⟨S1024, .f32⟩
  | .hbm, ⟨62, _⟩ => ⟨S1024, .f32⟩
  | .hbm, ⟨63, _⟩ => ⟨S1024x1, .f32⟩
  | .hbm, ⟨64, _⟩ => ⟨S1024x1024, .f32⟩
  | .hbm, ⟨65, _⟩ => ⟨S1024x1024, .f32⟩
  | .hbm, ⟨66, _⟩ => ⟨S1x1024, .f32⟩
  | .hbm, ⟨67, _⟩ => ⟨S1024x1024, .f32⟩
  | .hbm, ⟨68, _⟩ => ⟨S1024x1024, .f32⟩
  | .hbm, ⟨69, _⟩ => ⟨S_, .i32⟩
  | .hbm, ⟨70, _⟩ => ⟨S8192, .i32⟩
  | .hbm, ⟨71, _⟩ => ⟨S_, .i32⟩
  | .hbm, ⟨72, _⟩ => ⟨S1, .i32⟩
  | .hbm, ⟨73, _⟩ => ⟨S8192x1, .i32⟩
  | .hbm, ⟨74, _⟩ => ⟨S1, .i32⟩
  | .hbm, ⟨75, _⟩ => ⟨S_, .i32⟩
  | .hbm, ⟨76, _⟩ => ⟨S1, .i32⟩
  | .hbm, ⟨77, _⟩ => ⟨S8192x1, .i32⟩
  | .hbm, ⟨78, _⟩ => ⟨S1, .i32⟩
  | .hbm, ⟨79, _⟩ => ⟨S_, .i32⟩
  | .hbm, ⟨80, _⟩ => ⟨S1, .i32⟩
  | .hbm, ⟨81, _⟩ => ⟨S1, .i32⟩
  | .hbm, ⟨82, _⟩ => ⟨S1, .i32⟩
  | .hbm, ⟨83, _⟩ => ⟨S1, .i32⟩
  | .hbm, ⟨84, _⟩ => ⟨S1, .i32⟩
  | .hbm, ⟨85, _⟩ => ⟨S1, .i1⟩
  | .hbm, ⟨86, _⟩ => ⟨S1, .i32⟩
  | .hbm, ⟨87, _⟩ => ⟨S_, .i32⟩
  | .hbm, ⟨88, _⟩ => ⟨S1, .i32⟩
  | .hbm, ⟨89, _⟩ => ⟨S1, .i1⟩
  | .hbm, ⟨90, _⟩ => ⟨S1, .i1⟩
  | .hbm, ⟨91, _⟩ => ⟨S_, .i32⟩
  | .hbm, ⟨92, _⟩ => ⟨S1, .i32⟩
  | .hbm, ⟨93, _⟩ => ⟨S1, .i32⟩
  | .hbm, ⟨94, _⟩ => ⟨S1, .i32⟩
  | .hbm, ⟨95, _⟩ => ⟨S1x1024, .i32⟩
  | .hbm, ⟨96, _⟩ => ⟨S1024, .i32⟩
  | .local _ .vmem, ⟨0, _⟩ => ⟨S1024x64, .f32⟩
  | .local _ .vmem, ⟨1, _⟩ => ⟨S1024x64, .f32⟩
  | .local _ .vmem, ⟨2, _⟩ => ⟨S64x16, .f32⟩
  | .local _ .vmem, ⟨3, _⟩ => ⟨S16, .f32⟩
  | .local _ .vmem, ⟨4, _⟩ => ⟨S16x1024, .f32⟩
  | .local _ .vmem, ⟨5, _⟩ => ⟨S1024, .f32⟩
  | .local _ .vmem, ⟨6, _⟩ => ⟨S1024x1024, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S8192x1024, .bf16⟩
  | .local _ .vmem, ⟨11, _⟩ => ⟨S512x1024, .f32⟩
  | .local _ .vmem, ⟨12, _⟩ => ⟨S512x1024, .f32⟩
  | .local _ .vmem, ⟨13, _⟩ => ⟨S512, .f32⟩
  | .local _ .vmem, ⟨14, _⟩ => ⟨S512, .f32⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | .local _ .vmem, ⟨19, _⟩ => ⟨S512x64, .f32⟩
  | .local _ .vmem, ⟨20, _⟩ => ⟨S512x64, .f32⟩
  | .local _ .vmem, ⟨21, _⟩ => ⟨S1024x1024, .f32⟩
  | .local _ .vmem, ⟨22, _⟩ => ⟨S1024x1024, .f32⟩
  | .local _ .vmem, ⟨23, _⟩ => ⟨S1024x64, .f32⟩
  | .local _ .vmem, ⟨24, _⟩ => ⟨S512, .f32⟩
  | .local _ .vmem, ⟨25, _⟩ => ⟨S512, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1_0 : Ref sig .tc := ⟨.hbm, 8, rfl⟩
abbrev main_call0_v1_1 : Ref sig .tc := ⟨.hbm, 9, rfl⟩
abbrev main_call0_v2_0 : Ref sig .tc := ⟨.hbm, 10, rfl⟩
abbrev main_call0_v2_1 : Ref sig .tc := ⟨.hbm, 11, rfl⟩
abbrev main_v0_0 : Ref sig .tc := ⟨.hbm, 12, rfl⟩
abbrev main_call0_v2_3 : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_c : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_cst : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_cst_0 : Ref sig .tc := ⟨.hbm, 23, rfl⟩
abbrev main_call0_v3 : Ref sig .tc := ⟨.hbm, 24, rfl⟩
abbrev main_call0_v4 : Ref sig .tc := ⟨.hbm, 25, rfl⟩
abbrev main_call0_cst : Ref sig .tc := ⟨.hbm, 26, rfl⟩
abbrev main_call0_v5 : Ref sig .tc := ⟨.hbm, 27, rfl⟩
abbrev main_call0_cst_0 : Ref sig .tc := ⟨.hbm, 28, rfl⟩
abbrev main_call0_v6 : Ref sig .tc := ⟨.hbm, 29, rfl⟩
abbrev main_call0_v7 : Ref sig .tc := ⟨.hbm, 30, rfl⟩
abbrev main_v0_3 : Ref sig .tc := ⟨.hbm, 31, rfl⟩
abbrev main_call0_v9 : Ref sig .tc := ⟨.hbm, 32, rfl⟩
abbrev main_call0_v10 : Ref sig .tc := ⟨.hbm, 33, rfl⟩
abbrev main_call0_c : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_call1_v0 : Ref sig .tc := ⟨.hbm, 39, rfl⟩
abbrev main_call0_call1_cst : Ref sig .tc := ⟨.hbm, 40, rfl⟩
abbrev main_call0_call1_v1 : Ref sig .tc := ⟨.hbm, 41, rfl⟩
abbrev main_call0_v15 : Ref sig .tc := ⟨.hbm, 42, rfl⟩
abbrev main_call0_v16 : Ref sig .tc := ⟨.hbm, 43, rfl⟩
abbrev main_call0_v17 : Ref sig .tc := ⟨.hbm, 44, rfl⟩
abbrev main_call0_cst_1 : Ref sig .tc := ⟨.hbm, 45, rfl⟩
abbrev main_call0_v18 : Ref sig .tc := ⟨.hbm, 46, rfl⟩
abbrev main_call0_v19 : Ref sig .tc := ⟨.hbm, 47, rfl⟩
abbrev main_call0_v20 : Ref sig .tc := ⟨.hbm, 48, rfl⟩
abbrev main_call0_v21 : Ref sig .tc := ⟨.hbm, 49, rfl⟩
abbrev main_call0_call2_v0 : Ref sig .tc := ⟨.hbm, 50, rfl⟩
abbrev main_call0_call2_cst : Ref sig .tc := ⟨.hbm, 51, rfl⟩
abbrev main_call0_call2_v1 : Ref sig .tc := ⟨.hbm, 52, rfl⟩
abbrev main_v0_4 : Ref sig .tc := ⟨.hbm, 53, rfl⟩
abbrev main_call0_cst_2 : Ref sig .tc := ⟨.hbm, 54, rfl⟩
abbrev main_call0_v23 : Ref sig .tc := ⟨.hbm, 55, rfl⟩
abbrev main_call0_v24 : Ref sig .tc := ⟨.hbm, 56, rfl⟩
abbrev main_call0_v25 : Ref sig .tc := ⟨.hbm, 57, rfl⟩
abbrev main_call0_cst_3 : Ref sig .tc := ⟨.hbm, 58, rfl⟩
abbrev main_call0_v26 : Ref sig .tc := ⟨.hbm, 59, rfl⟩
abbrev main_call0_cst_4 : Ref sig .tc := ⟨.hbm, 60, rfl⟩
abbrev main_call0_v27 : Ref sig .tc := ⟨.hbm, 61, rfl⟩
abbrev main_call0_v28 : Ref sig .tc := ⟨.hbm, 62, rfl⟩
abbrev main_call0_v29 : Ref sig .tc := ⟨.hbm, 63, rfl⟩
abbrev main_call0_v30 : Ref sig .tc := ⟨.hbm, 64, rfl⟩
abbrev main_call0_v31 : Ref sig .tc := ⟨.hbm, 65, rfl⟩
abbrev main_call0_v32 : Ref sig .tc := ⟨.hbm, 66, rfl⟩
abbrev main_call0_v33 : Ref sig .tc := ⟨.hbm, 67, rfl⟩
abbrev main_v0_1 : Ref sig .tc := ⟨.hbm, 68, rfl⟩
abbrev main_call0_c_5 : Ref sig .tc := ⟨.hbm, 69, rfl⟩
abbrev main_call0_v35 : Ref sig .tc := ⟨.hbm, 70, rfl⟩
abbrev main_call0_c_6 : Ref sig .tc := ⟨.hbm, 71, rfl⟩
abbrev main_call0_v36 : Ref sig .tc := ⟨.hbm, 72, rfl⟩
abbrev main_call0_v37 : Ref sig .tc := ⟨.hbm, 73, rfl⟩
abbrev main_call0_v38 : Ref sig .tc := ⟨.hbm, 74, rfl⟩
abbrev main_call0_c_7 : Ref sig .tc := ⟨.hbm, 75, rfl⟩
abbrev main_call0_v39 : Ref sig .tc := ⟨.hbm, 76, rfl⟩
abbrev main_call0_v40 : Ref sig .tc := ⟨.hbm, 77, rfl⟩
abbrev main_call0_v41 : Ref sig .tc := ⟨.hbm, 78, rfl⟩
abbrev main_call0_c_8 : Ref sig .tc := ⟨.hbm, 79, rfl⟩
abbrev main_call0_v42 : Ref sig .tc := ⟨.hbm, 80, rfl⟩
abbrev main_call0_v43 : Ref sig .tc := ⟨.hbm, 81, rfl⟩
abbrev main_call0_call3_v0 : Ref sig .tc := ⟨.hbm, 82, rfl⟩
abbrev main_call0_call3_v1 : Ref sig .tc := ⟨.hbm, 83, rfl⟩
abbrev main_call0_call3_v2 : Ref sig .tc := ⟨.hbm, 84, rfl⟩
abbrev main_call0_call3_v3 : Ref sig .tc := ⟨.hbm, 85, rfl⟩
abbrev main_call0_call3_v4 : Ref sig .tc := ⟨.hbm, 86, rfl⟩
abbrev main_call0_call3_c : Ref sig .tc := ⟨.hbm, 87, rfl⟩
abbrev main_call0_call3_v5 : Ref sig .tc := ⟨.hbm, 88, rfl⟩
abbrev main_call0_call3_v6 : Ref sig .tc := ⟨.hbm, 89, rfl⟩
abbrev main_call0_call3_v7 : Ref sig .tc := ⟨.hbm, 90, rfl⟩
abbrev main_call0_call3_c_0 : Ref sig .tc := ⟨.hbm, 91, rfl⟩
abbrev main_call0_call3_v8 : Ref sig .tc := ⟨.hbm, 92, rfl⟩
abbrev main_call0_call3_v9 : Ref sig .tc := ⟨.hbm, 93, rfl⟩
abbrev main_call0_v44 : Ref sig .tc := ⟨.hbm, 94, rfl⟩
abbrev main_call0_v45 : Ref sig .tc := ⟨.hbm, 95, rfl⟩
abbrev main_v0_2 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![16, 8], ![false, false]⟩

def k1_mult1 (i : grid1.Coords) : BitVec 32 :=
  let arg1 : BitVec 32 := BitVec.ofNat 32 (i 1).val
  let c1024_i32 : BitVec 32 := 1024#32
  let v5 : BitVec 32 := Scalar.muli arg1 c1024_i32
  v5
def k1_off1 (i : grid1.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1024x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  reducesTo_S8192_S_d0 : S8192.ReducesTo [0] S_
  reducesTo_S1024x1024_S1024_d1 : S1024x1024.ReducesTo [1] S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  bcast_S_S8192 : S_.BroadcastsInDim S8192 (![] : Fin 0 → Fin S8192.rank)
  bcast_S_S1 : S_.BroadcastsInDim S1 (![] : Fin 0 → Fin S1.rank)
  bcast_S8192_S8192x1_0 : S8192.BroadcastsInDim S8192x1 (![0] : Fin 1 → Fin S8192x1.rank)
  bcast_S1_S1x1024_0 : S1.BroadcastsInDim S1x1024 (![0] : Fin 1 → Fin S1x1024.rank)
  shapeCasts_S1x1024_S1024 : S1x1024.ShapeCasts S1024
  inb_S1024x64_S1024x64_0_0 : ∀ a, (![0, 0] : Fin 2 → Nat) a + S1024x64.size a ≤ S1024x64.size a
  h_S1024x64 : 0 < S1024x64.numel
  bitsLt_bf16_f32 : FTy.bits .bf16 < FTy.bits .f32
  inb_S64x16_S64x16_0_0 : ∀ a, (![0, 0] : Fin 2 → Nat) a + S64x16.size a ≤ S64x16.size a
  h_S64x16 : 0 < S64x16.numel
  inb_S16_S16_0 : ∀ a, (![0] : Fin 1 → Nat) a + S16.size a ≤ S16.size a
  h_S16 : 0 < S16.numel
  shapeCasts_S16_S1x16 : S16.ShapeCasts S1x16
  broadcasts_S1x16_S1024x16 : S1x16.Broadcasts S1024x16
  inb_S16x1024_S16x1024_0_0 : ∀ a, (![0, 0] : Fin 2 → Nat) a + S16x1024.size a ≤ S16x1024.size a
  h_S16x1024 : 0 < S16x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  inb_S512x1024_S512x1024_0_0 : ∀ a, (![0, 0] : Fin 2 → Nat) a + S512x1024.size a ≤ S512x1024.size a
  h_S512x1024 : 0 < S512x1024.numel
  inb_S512_S512_0 : ∀ a, (![0] : Fin 1 → Nat) a + S512.size a ≤ S512.size a
  h_S512 : 0 < S512.numel
  shapeCasts_S1024x1024_S1024x1024 : S1024x1024.ShapeCasts S1024x1024
  shapeCasts_S512x1024_S512x1024 : S512x1024.ShapeCasts S512x1024
  shapeCasts_S512_S512 : S512.ShapeCasts S512
  reduces_S512x1024_S512 : S512x1024.Reduces [1] S512
  inb_S512x64_S512x64_0_0 : ∀ a, (![0, 0] : Fin 2 → Nat) a + S512x64.size a ≤ S512x64.size a
  h_S512x64 : 0 < S512x64.numel
  shapeCasts_S1024x64_S1024x64 : S1024x64.ShapeCasts S1024x64
  scatter_S1_S8192x1_S8192_n_0_0_1_wf : ScatterDims.WF S1 S8192x1 S8192 [] [0] [0] 1
  dot_S1024x64_S64x16_S1024x16_1_0_0_1_n_n_wf : DotDims.WF S1024x64 S64x16 S1024x16 [1] [0] [0] [1] [] []
  dot_S1024x16_S16x1024_S1024x1024_1_0_0_1_n_n_wf : DotDims.WF S1024x16 S16x1024 S1024x1024 [1] [0] [0] [1] [] []
  dot_S512x1024_S1024x1024_S512x1024_1_0_0_1_n_n_wf : DotDims.WF S512x1024 S1024x1024 S512x1024 [1] [0] [0] [1] [] []
  dot_S512x1024_S512x1024_S1024x1024_0_0_1_1_n_n_wf : DotDims.WF S512x1024 S512x1024 S1024x1024 [0] [0] [1] [1] [] []
  dot_S512x1024_S512x64_S1024x64_0_0_1_1_n_n_wf : DotDims.WF S512x1024 S512x64 S1024x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x16.size a ≤ S64x16.size a
  hwx0_1 : ∀ i : grid0.Coords, EltTy.bits .f32 = 32 ∨ (Rect.block (s := S64x16) S64x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16.size a ≤ S16.size a
  hwx0_2 : ∀ i : grid0.Coords, EltTy.bits .f32 = 32 ∨ (Rect.block (s := S16) S16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x1024.size a
  hwx0_3 : ∀ i : grid0.Coords, EltTy.bits .f32 = 32 ∨ (Rect.block (s := S16x1024) S16x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x1024.size a
  hwx0_5 : ∀ i : grid0.Coords, EltTy.bits .bf16 = 32 ∨ (Rect.block (s := S8192x1024) S1024x1024.size (cc0_transform_5 i) (hinb0_5 i)).WholeWords (EltTy.packing .bf16)
  hrank1 : 0 < grid1.rank
  k1_mult1_dvd : ∀ i : grid1.Coords, 1024 ∣ (k1_mult1 i).toNat
  k1_off1_inb : ∀ i : grid1.Coords, ∀ a, (k1_off1 i) a + S1024x1024.size a ≤ S8192x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x8192.size a
  hwx1_0 : ∀ i : grid1.Coords, EltTy.bits .f32 = 32 ∨ (Rect.block (s := S8192x8192) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x1024.size a ≤ S8192x1024.size a
  hwx1_1 : ∀ i : grid1.Coords, EltTy.bits .bf16 = 32 ∨ (Rect.block (s := S8192x1024) S8192x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S8192x1024.size a
  hwx1_2 : ∀ i : grid1.Coords, EltTy.bits .f32 = 32 ∨ (Rect.block (s := S8192x1024) S512x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S8192.size a
  hwx1_3 : ∀ i : grid1.Coords, EltTy.bits .f32 = 32 ∨ (Rect.block (s := S8192) S512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S8192x1024.size a
  hwx2_1 : ∀ i : grid2.Coords, EltTy.bits .f32 = 32 ∨ (Rect.block (s := S8192x1024) S512x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x64.size a ≤ S8192x64.size a
  hwx2_2 : ∀ i : grid2.Coords, EltTy.bits .f32 = 32 ∨ (Rect.block (s := S8192x64) S512x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S1024x1024.size a
  hwx2_3 : ∀ i : grid2.Coords, EltTy.bits .f32 = 32 ∨ (Rect.block (s := S1024x1024) S1024x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024x1024.size a ≤ S1024x1024.size a
  hwx2_4 : ∀ i : grid2.Coords, EltTy.bits .f32 = 32 ∨ (Rect.block (s := S1024x1024) S1024x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024x64.size a ≤ S1024x64.size a
  hwx2_5 : ∀ i : grid2.Coords, EltTy.bits .f32 = 32 ∨ (Rect.block (s := S1024x64) S1024x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512.size a ≤ S8192.size a
  hwx2_6 : ∀ i : grid2.Coords, EltTy.bits .f32 = 32 ∨ (Rect.block (s := S8192) S512.size (cc2_transform_6 i) (hinb2_6 i)).WholeWords (EltTy.packing .f32)

variable [Facts₀]

def scatter_S1_S8192x1_S8192_n_0_0_1 : ScatterDims S1 S8192x1 S8192 where
  updateWindowDims := []
  insertedWindowDims := [0]
  scatterDimsToOperandDims := [0]
  indexVectorDim := 1
  wf := scatter_S1_S8192x1_S8192_n_0_0_1_wf
def dot_S1024x64_S64x16_S1024x16_1_0_0_1_n_n : DotDims S1024x64 S64x16 S1024x16 where
  lhsContracting := [1]
  rhsContracting := [0]
  lhsNonContracting := [0]
  rhsNonContracting := [1]
  lhsBatch := []
  rhsBatch := []
  wf := dot_S1024x64_S64x16_S1024x16_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S1024x1024_0_0_1_1_n_n : DotDims S512x1024 S512x1024 S1024x1024 where
  lhsContracting := [0]
  rhsContracting := [0]
  lhsNonContracting := [1]
  rhsNonContracting := [1]
  lhsBatch := []
  rhsBatch := []
  wf := dot_S512x1024_S512x1024_S1024x1024_0_0_1_1_n_n_wf
def dot_S512x1024_S512x64_S1024x64_0_0_1_1_n_n : DotDims S512x1024 S512x64 S1024x64 where
  lhsContracting := [0]
  rhsContracting := [0]
  lhsNonContracting := [1]
  rhsNonContracting := [1]
  lhsBatch := []
  rhsBatch := []
  wf := dot_S512x1024_S512x64_S1024x64_0_0_1_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S16x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v0) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v0) S8192x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v1_0) S512x1024.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v1_1) S512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_call0_v0) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v1_0) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S512x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v2_0) S1024x1024.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v2_1) S1024x1024.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v0_0) S1024x64.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_call0_v2_3) S512.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S8192x64 : Shape := ⟨2, ![8192, 64]⟩
abbrev S8192x8192 : Shape := ⟨2, ![8192, 8192]⟩
abbrev S8192 : Shape := ⟨1, ![8192]⟩
abbrev S64x16 : Shape := ⟨2, ![64, 16]⟩
abbrev S16 : Shape := ⟨1, ![16]⟩
abbrev S16x1024 : Shape := ⟨2, ![16, 1024]⟩
abbrev S1024 : Shape := ⟨1, ![1024]⟩
abbrev S8192x16 : Shape := ⟨2, ![8192, 16]⟩
abbrev S1x16 : Shape := ⟨2, ![1, 16]⟩
abbrev S_ : Shape := ⟨0, ![]⟩
abbrev S8192x1024 : Shape := ⟨2, ![8192, 1024]⟩
abbrev S1x1024 : Shape := ⟨2, ![1, 1024]⟩
abbrev S8192x1 : Shape := ⟨2, ![8192, 1]⟩
abbrev S1024x8192 : Shape := ⟨2, ![1024, 8192]⟩
abbrev S1024x1024 : Shape := ⟨2, ![1024, 1024]⟩
abbrev S1024x64 : Shape := ⟨2, ![1024, 64]⟩
abbrev S1024x1 : Shape := ⟨2, ![1024, 1]⟩
abbrev S1 : Shape := ⟨1, ![1]⟩

abbrev nBuf : Space → Nat
  | .hbm => 127
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .hbm, ⟨2, _⟩ => ⟨S8192, .i32⟩
  | .hbm, ⟨3, _⟩ => ⟨S64x16, .f32⟩
  | .hbm, ⟨4, _⟩ => ⟨S16, .f32⟩
  | .hbm, ⟨5, _⟩ => ⟨S16x1024, .f32⟩
  | .hbm, ⟨6, _⟩ => ⟨S1024, .f32⟩
  | .hbm, ⟨7, _⟩ => ⟨S8192x16, .f32⟩
  | .hbm, ⟨8, _⟩ => ⟨S1x16, .f32⟩
  | .hbm, ⟨9, _⟩ => ⟨S8192x16, .f32⟩
  | .hbm, ⟨10, _⟩ => ⟨S8192x16, .f32⟩
  | .hbm, ⟨11, _⟩ => ⟨S_, .f32⟩
  | .hbm, ⟨12, _⟩ => ⟨S8192x16, .f32⟩
  | .hbm, ⟨13, _⟩ => ⟨S8192x16, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S1024x8192, .f32⟩
  | .hbm, ⟨34, _⟩ => ⟨S1024x1024, .f32⟩
  | .hbm, ⟨35, _⟩ => ⟨S1024x1024, .i32⟩
  | .hbm, ⟨36, _⟩ => ⟨S1024x1024, .i32⟩
  | .hbm, ⟨37, _⟩ => ⟨S_, .i32⟩
  | .hbm, ⟨38, _⟩ => ⟨S1024x1024, .i32⟩
  | .hbm, ⟨39, _⟩ => ⟨S1024x1024, .i32⟩
  | .hbm, ⟨40, _⟩ => ⟨S1024x1024, .i1⟩
  | .hbm, ⟨41, _⟩ => ⟨S_, .f32⟩
  | .hbm, ⟨42, _⟩ => ⟨S1024x1024, .f32⟩
  | .hbm, ⟨43, _⟩ => ⟨S1024x1024, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S1024x8192, .f32⟩
  | .hbm, ⟨59, _⟩ => ⟨S1024x1024, .f32⟩
  | .hbm, ⟨60, _⟩ => ⟨S1024x1024, .i32⟩
  | .hbm, ⟨61, _⟩ => ⟨S1024x1024, .i32⟩
  | .hbm, ⟨62, _⟩ => ⟨S_, .i32⟩
  | .hbm, ⟨63, _⟩ => ⟨S1024x1024, .i32⟩
  | .hbm, ⟨64, _⟩ => ⟨S1024x1024, .i32⟩
  | .hbm, ⟨65, _⟩ => ⟨S1024x1024, .i1⟩
  | .hbm, ⟨66, _⟩ => ⟨S1024x1024, .f32⟩
  | .hbm, ⟨67, _⟩ => ⟨S1024x1024, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S1024x1024, .f32⟩
  | .hbm, ⟨72, _⟩ => ⟨S1024x1024, .f32⟩
  | .hbm, ⟨73, _⟩ => ⟨S_, .f32⟩
  | .hbm, ⟨74, _⟩ => ⟨S_, .f32⟩
  | .hbm, ⟨75, _⟩ => ⟨S1024x1024, .f32⟩
  | .hbm, ⟨76, _⟩ => ⟨S1024x1024, .f32⟩
  | .hbm, ⟨77, _⟩ => ⟨S1024x1024, .f32⟩
  | .hbm, ⟨78, _⟩ => ⟨S1024x1024, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S1024x8192, .f32⟩
  | .hbm, ⟨83, _⟩ => ⟨S1024x64, .f32⟩
  | .hbm, ⟨84, _⟩ => ⟨S_, .f32⟩
  | .hbm, ⟨85, _⟩ => ⟨S1024x1024, .f32⟩
  | .hbm, ⟨86, _⟩ => ⟨S1024x1024, .f32⟩
  | .hbm, ⟨87, _⟩ => ⟨S1024x1024, .f32⟩
  | .hbm, ⟨88, _⟩ => ⟨S_, .f32⟩
  | .hbm, ⟨89, _⟩ => ⟨S1024, .f32⟩
  | .hbm, ⟨90, _⟩ => ⟨S_, .f32⟩
  | .hbm, ⟨91, _⟩ => ⟨S1024, .f32⟩
  | .hbm, ⟨92, _⟩ => ⟨S1024, .f32⟩
  | .hbm, ⟨93, _⟩ => ⟨S1024x1, .f32⟩
  | .hbm, ⟨94, _⟩ => ⟨S1024x1024, .f32⟩
  | .hbm, ⟨95, _⟩ => ⟨S1024x1024, .f32⟩
  | .hbm, ⟨96, _⟩ => ⟨S1x1024, .f32⟩
  | .hbm, ⟨97, _⟩ => ⟨S1024x1024, .f32⟩
  | .hbm, ⟨98, _⟩ => ⟨S1024x1024, .f32⟩
  | .hbm, ⟨99, _⟩ => ⟨S_, .i32⟩
  | .hbm, ⟨100, _⟩ => ⟨S8192, .i32⟩
  | .hbm, ⟨101, _⟩ => ⟨S_, .i32⟩
  | .hbm, ⟨102, _⟩ => ⟨S1, .i32⟩
  | .hbm, ⟨103, _⟩ => ⟨S8192x1, .i32⟩
  | .hbm, ⟨104, _⟩ => ⟨S1, .i32⟩
  | .hbm, ⟨105, _⟩ => ⟨S_, .i32⟩
  | .hbm, ⟨106, _⟩ => ⟨S1, .i32⟩
  | .hbm, ⟨107, _⟩ => ⟨S8192x1, .i32⟩
  | .hbm, ⟨108, _⟩ => ⟨S1, .i32⟩
  | .hbm, ⟨109, _⟩ => ⟨S_, .i32⟩
  | .hbm, ⟨110, _⟩ => ⟨S1, .i32⟩
  | .hbm, ⟨111, _⟩ => ⟨S1, .i32⟩
  | .hbm, ⟨112, _⟩ => ⟨S1, .i32⟩
  | .hbm, ⟨113, _⟩ => ⟨S1, .i32⟩
  | .hbm, ⟨114, _⟩ => ⟨S1, .i32⟩
  | .hbm, ⟨115, _⟩ => ⟨S1, .i1⟩
  | .hbm, ⟨116, _⟩ => ⟨S1, .i32⟩
  | .hbm, ⟨117, _⟩ => ⟨S_, .i32⟩
  | .hbm, ⟨118, _⟩ => ⟨S1, .i32⟩
  | .hbm, ⟨119, _⟩ => ⟨S1, .i1⟩
  | .hbm, ⟨120, _⟩ => ⟨S1, .i1⟩
  | .hbm, ⟨121, _⟩ => ⟨S_, .i32⟩
  | .hbm, ⟨122, _⟩ => ⟨S1, .i32⟩
  | .hbm, ⟨123, _⟩ => ⟨S1, .i32⟩
  | .hbm, ⟨124, _⟩ => ⟨S1, .i32⟩
  | .hbm, ⟨125, _⟩ => ⟨S1x1024, .i32⟩
  | .hbm, ⟨126, _⟩ => ⟨S1024, .i32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call1_v0 : Ref sig .tc := ⟨.hbm, 35, rfl⟩
abbrev main_call1_v1 : Ref sig .tc := ⟨.hbm, 36, rfl⟩
abbrev main_call1_c : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_cst : Ref sig .tc := ⟨.hbm, 41, rfl⟩
abbrev main_call1_v5 : Ref sig .tc := ⟨.hbm, 42, rfl⟩
abbrev main_call1_v6 : Ref sig .tc := ⟨.hbm, 43, rfl⟩
abbrev main_call1_cst_0 : Ref sig .tc := ⟨.hbm, 44, rfl⟩
abbrev main_v23 : Ref sig .tc := ⟨.hbm, 45, rfl⟩
abbrev main_cst_2 : Ref sig .tc := ⟨.hbm, 46, rfl⟩
abbrev main_v24 : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_v27 : Ref sig .tc := ⟨.hbm, 51, rfl⟩
abbrev main_cst_4 : Ref sig .tc := ⟨.hbm, 52, rfl⟩
abbrev main_v28 : Ref sig .tc := ⟨.hbm, 53, rfl⟩
abbrev main_cst_5 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_call2_v0 : Ref sig .tc := ⟨.hbm, 67, rfl⟩
abbrev main_call2_cst : Ref sig .tc := ⟨.hbm, 68, rfl⟩
abbrev main_call2_v1 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_6 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_call3_v0 : Ref sig .tc := ⟨.hbm, 78, rfl⟩
abbrev main_call3_cst : Ref sig .tc := ⟨.hbm, 79, rfl⟩
abbrev main_call3_v1 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_7 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_8 : Ref sig .tc := ⟨.hbm, 88, rfl⟩
abbrev main_v53 : Ref sig .tc := ⟨.hbm, 89, rfl⟩
abbrev main_cst_9 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_c_10 : Ref sig .tc := ⟨.hbm, 99, rfl⟩
abbrev main_v62 : Ref sig .tc := ⟨.hbm, 100, rfl⟩
abbrev main_c_11 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_c_12 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_c_13 : Ref sig .tc := ⟨.hbm, 109, rfl⟩
abbrev main_v69 : Ref sig .tc := ⟨.hbm, 110, rfl⟩
abbrev main_v70 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_call4_v3 : Ref sig .tc := ⟨.hbm, 115, rfl⟩
abbrev main_call4_v4 : Ref sig .tc := ⟨.hbm, 116, rfl⟩
abbrev main_call4_c : Ref sig .tc := ⟨.hbm, 117, rfl⟩
abbrev main_call4_v5 : Ref sig .tc := ⟨.hbm, 118, rfl⟩
abbrev main_call4_v6 : Ref sig .tc := ⟨.hbm, 119, rfl⟩
abbrev main_call4_v7 : Ref sig .tc := ⟨.hbm, 120, rfl⟩
abbrev main_call4_c_0 : Ref sig .tc := ⟨.hbm, 121, rfl⟩
abbrev main_call4_v8 : Ref sig .tc := ⟨.hbm, 122, rfl⟩
abbrev main_call4_v9 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  bcast_S_S8192x16 : S_.BroadcastsInDim S8192x16 (![] : Fin 0 → Fin S8192x16.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  reducesTo_S8192x1024_S8192_d1 : S8192x1024.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  transposes_S8192x1024_S1024x8192_1_0 : S8192x1024.Transposes [1, 0] S1024x8192
  bcast_S_S1024x1024 : S_.BroadcastsInDim S1024x1024 (![] : Fin 0 → Fin S1024x1024.rank)
  reducesTo_S1024x1024_S_d0_1 : S1024x1024.ReducesTo [0, 1] S_
  reducesTo_S8192x8192_S8192_d1 : S8192x8192.ReducesTo [1] S8192
  reducesTo_S8192_S_d0 : S8192.ReducesTo [0] S_
  reducesTo_S1024x1024_S1024_d1 : S1024x1024.ReducesTo [1] S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  bcast_S_S1 : S_.BroadcastsInDim S1 (![] : Fin 0 → Fin S1.rank)
  bcast_S1_S1x1024_0 : S1.BroadcastsInDim S1x1024 (![0] : Fin 1 → Fin S1x1024.rank)
  shapeCasts_S1x1024_S1024 : S1x1024.ShapeCasts S1024
  dot_S8192x64_S64x16_S8192x16_1_0_0_1_n_n_wf : DotDims.WF S8192x64 S64x16 S8192x16 [1] [0] [0] [1] [] []
  dot_S8192x16_S16x1024_S8192x1024_1_0_0_1_n_n_wf : DotDims.WF S8192x16 S16x1024 S8192x1024 [1] [0] [0] [1] [] []
  dot_S8192x8192_S8192x1024_S8192x1024_1_0_0_1_n_n_wf : DotDims.WF S8192x8192 S8192x1024 S8192x1024 [1] [0] [0] [1] [] []
  dot_S1024x8192_S8192x1024_S1024x1024_1_0_0_1_n_n_wf : DotDims.WF S1024x8192 S8192x1024 S1024x1024 [1] [0] [0] [1] [] []
  dot_S1024x8192_S8192x64_S1024x64_1_0_0_1_n_n_wf : DotDims.WF S1024x8192 S8192x64 S1024x64 [1] [0] [0] [1] [] []
  scatter_S1_S8192x1_S8192_n_0_0_1_wf : ScatterDims.WF S1 S8192x1 S8192 [] [0] [0] 1

variable [Facts₀]

def dot_S8192x64_S64x16_S8192x16_1_0_0_1_n_n : DotDims S8192x64 S64x16 S8192x16 where
  lhsContracting := [1]
  rhsContracting := [0]
  lhsNonContracting := [0]
  rhsNonContracting := [1]
  lhsBatch := []
  rhsBatch := []
  wf := dot_S8192x64_S64x16_S8192x16_1_0_0_1_n_n_wf
def dot_S8192x16_S16x1024_S8192x1024_1_0_0_1_n_n : DotDims S8192x16 S16x1024 S8192x1024 where
  lhsContracting := [1]
  rhsContracting := [0]
  lhsNonContracting := [0]
  rhsNonContracting := [1]
  lhsBatch := []
  rhsBatch := []
  wf := dot_S8192x16_S16x1024_S8192x1024_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf
def dot_S1024x8192_S8192x1024_S1024x1024_1_0_0_1_n_n : DotDims S1024x8192 S8192x1024 S1024x1024 where
  lhsContracting := [1]
  rhsContracting := [0]
  lhsNonContracting := [0]
  rhsNonContracting := [1]
  lhsBatch := []
  rhsBatch := []
  wf := dot_S1024x8192_S8192x1024_S1024x1024_1_0_0_1_n_n_wf
def dot_S1024x8192_S8192x64_S1024x64_1_0_0_1_n_n : DotDims S1024x8192 S8192x64 S1024x64 where
  lhsContracting := [1]
  rhsContracting := [0]
  lhsNonContracting := [0]
  rhsNonContracting := [1]
  lhsBatch := []
  rhsBatch := []
  wf := dot_S1024x8192_S8192x64_S1024x64_1_0_0_1_n_n_wf
def scatter_S1_S8192x1_S8192_n_0_0_1 : ScatterDims S1 S8192x1 S8192 where
  updateWindowDims := []
  insertedWindowDims := [0]
  scatterDimsToOperandDims := [0]
  indexVectorDim := 1
  wf := scatter_S1_S8192x1_S8192_n_0_0_1_wf

class Facts : Prop extends Facts₀ where

variable [Facts]
-- ==== Proof.KRun.lean ====
/-
  The kernel's program run to its end with every buffer named.

  @main is three pallas_call regions followed by one stretch of host operations. The contents of the TensorCore's
  buffers at the four boundaries are a fold from the launch memory: after each region its arrays hold what the
  write-backs leave and every other buffer is as it was; after the host stretch every buffer holds what the
  operations leave. The run below says that every weakly fair execution ends, without a fault, with every buffer
  that outlives the program at the last of these contents.
-/
import proofs.«116769_j12343736009109_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every buffer that outlives the program at
    the contents the last boundary names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same at one buffer that outlives the program, named by its TensorCore reference. -/
theorem run_at : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W4 m ρ c (Proc.devRef .tc b)) :=
  (θ_run defs _ _).mono (fun _ h c b hb => h c _ (mem_uc b hb)) (run_all m ρ)

end Cert.KernelIdeal.KRun

end
-- ==== Proof.RefStages.lean ====
/-
  The reference's computation cut into named stages, each a function of whole arrays over the extended reals.

  The assignment matrix is `softmax (relu (x w1 + b1) w2 + b2)` along rows, spelt as the host spells it: the row
  maximum is a reduction from minus infinity, taken once more against minus infinity, spread back over the row and
  subtracted; the exponentials are divided by their row sum. From it come the products `a s`, `sᵀ y` (a transpose
  followed by a plain product), the row sums of `a` and of the squares of `s`. The last stages are shared with the
  kernel's program word for word: the trace (a sum over the entries the identity pattern selects), the cut loss
  `-(trace / (∑ d·r + ε))`, the Frobenius norm, the orthogonality loss, the degree normalisation
  `dis p · (a (1 - I)) (p, q) · dis q` with `dis = (row sums) ^ (-1/2)`, and the pooled index (an integer
  segment mean, spread over the clusters). Each stage is a definition, so that a later proof can compare two
  programs stage by stage without opening the stages they share.
-/
import proofs.«116769_j12343736009109_2_alg».proof.ReferenceIdeal
import Idealize.ShloMosaic.PureOps.Ideal

noncomputable section

namespace Cert.ReferenceIdeal.Stage

open Idealize.ShloMosaic Cert.ReferenceIdeal

variable [Facts]
open Facts₀ Facts

/-- `relu (x w1 + b1)`. -/
def hidden (x : FVec Ideal S8192x64 .f32) (w1 : FVec Ideal S64x16 .f32) (b1 : FVec Ideal S16 .f32) : FVec Ideal S8192x16 .f32 :=
  maximumf (F := Ideal)
    (addf (F := Ideal) (Host.dotGeneral (F := Ideal) dot_S8192x64_S64x16_S8192x16_1_0_0_1_n_n none x w1)
      (broadcastInDim S8192x16 ![0, 1] bcast_S1x16_S8192x16_0_1 (broadcastInDim S1x16 ![1] bcast_S16_S1x16_1 b1)))
    (broadcastInDim S8192x16 ![] bcast_S_S8192x16 (constant (F := Ideal) S_ .f32 0x00000000#32))

/-- `h w2 + b2`. -/
def logits (h : FVec Ideal S8192x16 .f32) (w2 : FVec Ideal S16x1024 .f32) (b2 : FVec Ideal S1024 .f32) : FVec Ideal S8192x1024 .f32 :=
  addf (F := Ideal) (Host.dotGeneral (F := Ideal) dot_S8192x16_S16x1024_S8192x1024_1_0_0_1_n_n none h w2)
    (broadcastInDim S8192x1024 ![0, 1] bcast_S1x1024_S8192x1024_0_1 (broadcastInDim S1x1024 ![1] bcast_S1024_S1x1024_1 b2))

/-- A vector of row values spread back over the rows. -/
def spreadRows (v : FVec Ideal S8192 .f32) : FVec Ideal S8192x1024 .f32 :=
  broadcastInDim S8192x1024 ![0, 1] bcast_S8192x1_S8192x1024_0_1 (broadcastInDim S8192x1 ![0] bcast_S8192_S8192x1_0 v)

/-- `exp (z - row maximum)`. -/
def shiftedExp (z : FVec Ideal S8192x1024 .f32) : FVec Ideal S8192x1024 .f32 :=
  Host.exp (F := Ideal) (subf (F := Ideal) z
    (spreadRows (maximumf (F := Ideal) (broadcastInDim S8192 ![] bcast_S_S8192 (constant (F := Ideal) S_ .f32 0xFF800000#32))
      (Host.reduce (FloatOps.maximumf (F := Ideal) (φ := .f32)) z (constant (F := Ideal) S_ .f32 0xFF800000#32) reducesTo_S8192x1024_S8192_d1 h_S_))))

/-- The softmax along rows. -/
def softmax (z : FVec Ideal S8192x1024 .f32) : FVec Ideal S8192x1024 .f32 :=
  Host.divf (F := Ideal) (shiftedExp z)
    (spreadRows (Host.reduceAdd (F := Ideal) (shiftedExp z) (constant (F := Ideal) S_ .f32 0x00000000#32) reducesTo_S8192x1024_S8192_d1 h_S_))

/-- The assignment matrix. -/
def assign (x : FVec Ideal S8192x64 .f32) (w1 : FVec Ideal S64x16 .f32) (b1 : FVec Ideal S16 .f32)
    (w2 : FVec Ideal S16x1024 .f32) (b2 : FVec Ideal S1024 .f32) : FVec Ideal S8192x1024 .f32 :=
  softmax (logits (hidden x w1 b1) w2 b2)

/-- `a s`. -/
def aTimes (a : FVec Ideal S8192x8192 .f32) (s : FVec Ideal S8192x1024 .f32) : FVec Ideal S8192x1024 .f32 :=
  Host.dotGeneral (F := Ideal) dot_S8192x8192_S8192x1024_S8192x1024_1_0_0_1_n_n none a s

/-- `sᵀ y` for a `[8192, 1024]` array `y`. -/
def gramWide (s y : FVec Ideal S8192x1024 .f32) : FVec Ideal S1024x1024 .f32 :=
  Host.dotGeneral (F := Ideal) dot_S1024x8192_S8192x1024_S1024x1024_1_0_0_1_n_n none
    (transpose S1024x8192 [1, 0] s transposes_S8192x1024_S1024x8192_1_0) y

/-- `sᵀ x` for a `[8192, 64]` array `x`. -/
def gramNarrow (s : FVec Ideal S8192x1024 .f32) (x : FVec Ideal S8192x64 .f32) : FVec Ideal S1024x64 .f32 :=
  Host.dotGeneral (F := Ideal) dot_S1024x8192_S8192x64_S1024x64_1_0_0_1_n_n none
    (transpose S1024x8192 [1, 0] s transposes_S8192x1024_S1024x8192_1_0) x

/-- The row sums of `a`. -/
def degrees (a : FVec Ideal S8192x8192 .f32) : FVec Ideal S8192 .f32 :=
  Host.reduceAdd (F := Ideal) a (constant (F := Ideal) S_ .f32 0x00000000#32) reducesTo_S8192x8192_S8192_d1 h_S_

/-- The row sums of the squares of `s`. -/
def rowSquares (s : FVec Ideal S8192x1024 .f32) : FVec Ideal S8192 .f32 :=
  Host.reduceAdd (F := Ideal) (mulf (F := Ideal) s s) (constant (F := Ideal) S_ .f32 0x00000000#32) reducesTo_S8192x1024_S8192_d1 h_S_

/-! ## The stages shared with the kernel's program -/

/-- The identity pattern as a mask: row number = column number. -/
def diagMask : IVec S1024x1024 1 :=
  cmpi .eq (addi (iotaInDim S1024x1024 32 0) (broadcastInDim S1024x1024 ![] bcast_S_S1024x1024 (constantI S_ 32 0#32)))
    (iotaInDim S1024x1024 32 1)

/-- The trace: the sum of the entries on the diagonal. -/
def trace (a : FVec Ideal S1024x1024 .f32) : FVec Ideal S_ .f32 :=
  Host.reduceAdd (F := Ideal)
    (select diagMask a (broadcastInDim S1024x1024 ![] bcast_S_S1024x1024 (constant (F := Ideal) S_ .f32 0x00000000#32)))
    (constant (F := Ideal) S_ .f32 0x00000000#32) reducesTo_S1024x1024_S_d0_1 h_S_

/-- The cut loss `-(trace a / (∑ d · r + ε))`. -/
def cutLoss (a : FVec Ideal S1024x1024 .f32) (d r : FVec Ideal S8192 .f32) : FVec Ideal S_ .f32 :=
  Host.negf (F := Ideal) (Host.divf (F := Ideal) (trace a)
    (addf (F := Ideal)
      (Host.reduceAdd (F := Ideal) (mulf (F := Ideal) d r) (constant (F := Ideal) S_ .f32 0x00000000#32) reducesTo_S8192_S_d0 h_S_)
      (constant (F := Ideal) S_ .f32 0x33D6BF95#32)))

/-- The Frobenius norm. -/
def norm (a : FVec Ideal S1024x1024 .f32) : FVec Ideal S_ .f32 :=
  Host.sqrt (F := Ideal) (Host.reduceAdd (F := Ideal) (mulf (F := Ideal) a a) (constant (F := Ideal) S_ .f32 0x00000000#32) reducesTo_S1024x1024_S_d0_1 h_S_)

/-- The identity matrix as floats. -/
def eye : FVec Ideal S1024x1024 .f32 := uitofp (F := Ideal) .f32 diagMask

/-- The orthogonality loss `‖ss / ‖ss‖ - I / √1024‖`. -/
def orthoLoss (ss : FVec Ideal S1024x1024 .f32) : FVec Ideal S_ .f32 :=
  norm (subf (F := Ideal)
    (Host.divf (F := Ideal) ss (broadcastInDim S1024x1024 ![] bcast_S_S1024x1024 (norm ss)))
    (Host.divf (F := Ideal) eye
      (broadcastInDim S1024x1024 ![] bcast_S_S1024x1024 (Host.sqrt (F := Ideal) (constant (F := Ideal) S_ .f32 0x44800000#32)))))

/-- `a` with its diagonal zeroed. -/
def offDiag (a : FVec Ideal S1024x1024 .f32) : FVec Ideal S1024x1024 .f32 :=
  mulf (F := Ideal) a (subf (F := Ideal) (broadcastInDim S1024x1024 ![] bcast_S_S1024x1024 (constant (F := Ideal) S_ .f32 0x3F800000#32)) eye)

/-- `(row sums) ^ (-1/2)`. -/
def invSqrtDeg (m : FVec Ideal S1024x1024 .f32) : FVec Ideal S1024 .f32 :=
  Host.powf (F := Ideal)
    (Host.reduceAdd (F := Ideal) m (constant (F := Ideal) S_ .f32 0x00000000#32) reducesTo_S1024x1024_S1024_d1 h_S_)
    (broadcastInDim S1024 ![] bcast_S_S1024 (constant (F := Ideal) S_ .f32 0xBF000000#32))

/-- The symmetric degree normalisation of `a` without its diagonal. -/
def normalized (a : FVec Ideal S1024x1024 .f32) : FVec Ideal S1024x1024 .f32 :=
  mulf (F := Ideal)
    (mulf (F := Ideal)
      (broadcastInDim S1024x1024 ![0, 1] bcast_S1024x1_S1024x1024_0_1 (broadcastInDim S1024x1 ![0] bcast_S1024_S1024x1_0 (invSqrtDeg (offDiag a))))
      (offDiag a))
    (broadcastInDim S1024x1024 ![0, 1] bcast_S1x1024_S1024x1024_0_1 (broadcastInDim S1x1024 ![1] bcast_S1024_S1x1024_1 (invSqrtDeg (offDiag a))))

/-- The segment sum of `u` by the segment numbers `i` into one segment. -/
def segSum (i u : IVec S8192 32) : IVec S1 32 :=
  Host.scatter scatter_S1_S8192x1_S8192_n_0_0_1 IntOp.addi (broadcastInDim S1 ![] bcast_S_S1 (constantI S_ 32 0#32))
    (broadcastInDim S8192x1 ![0] bcast_S8192_S8192x1_0 i) u

/-- The floor division of integers as the host spells it. -/
def floorDiv (a b : IVec S1 32) : IVec S1 32 :=
  select
    (andi (cmpi .ne (signi a) (signi b))
      (cmpi .ne (Host.remsi a b) (broadcastInDim S1 ![] bcast_S_S1 (constantI S_ 32 0#32))))
    (subi (Host.divsi a b) (broadcastInDim S1 ![] bcast_S_S1 (constantI S_ 32 1#32)))
    (Host.divsi a b)

/-- The pooled index: the segment mean of `i` by `i`, once per cluster. -/
def pooledIndex (i : IVec S8192 32) : IVec S1024 32 :=
  shapeCast S1024
    (broadcastInDim S1x1024 ![0] bcast_S1_S1x1024_0
      (floorDiv (segSum i i)
        (maxsi (segSum i (broadcastInDim S8192 ![] bcast_S_S8192 (constantI S_ 32 1#32)))
          (broadcastInDim S1 ![] bcast_S_S1 (constantI S_ 32 1#32)))))
    shapeCasts_S1x1024_S1024

end Cert.ReferenceIdeal.Stage

end
-- ==== Proof.LibJoinedPair.lean ====
/-
  Two arrays joined along an axis, with the pieces as plain arguments.

  `concatenate` takes its pieces as a list of (shape, array) pairs. A rewriting pass does not look inside such a pair
  (the array's type depends on the shape beside it), so what the pieces are stays unread. `joined` is the same array with
  the two pieces as ordinary arguments; `joined_eq` turns the one into the other (by definition), after which the pieces
  are rewritten like any other operand. `read_fold` is the library's one-pass reading of a fold of host operations with
  that equation added; `read_fold_casts` takes further rules.
-/
import Idealize.ShloMosaic.Lib.StableHlo.Run

noncomputable section

namespace Idealize.ShloMosaic.JoinedPair

open Idealize.ShloMosaic

/-- Two pieces joined along axis `d`. -/
def joined {α : Type} (S : Shape) (d : Fin S.rank) (S1 S2 : Shape) (h : Shape.Concatenates [S1, S2] S d) (a : S1.Idx → α) (b : S2.Idx → α) :
    S.Idx → α :=
  concatenate S d [⟨S1, a⟩, ⟨S2, b⟩] h

/-- A two-piece `concatenate` is `joined` of its pieces. -/
theorem joined_eq {α : Type} (S : Shape) (d : Fin S.rank) (S1 S2 : Shape) (h : Shape.Concatenates [S1, S2] S d) (a : S1.Idx → α) (b : S2.Idx → α) :
    concatenate S d [⟨S1, a⟩, ⟨S2, b⟩] h = joined S d S1 S2 h a b := rfl

end Idealize.ShloMosaic.JoinedPair

/-- What one buffer holds after a literal list of host operations, as the operations' functions of what the buffers held
    before: each operation's result at its own buffer is its function's value, at any other buffer what was there; the
    pieces of a two-piece concatenation are read too. -/
macro "read_fold" : tactic =>
  `(tactic| (simp (disch := decide) only [Idealize.ShloMosaic.JoinedPair.joined_eq,
      Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- The same reading with more rewrite rules added: the rules that make a typed reference's transport of contents (the
    identity, at a literal buffer of the stated type) disappear, stated with `↓` so that each is removed before its argument
    is read, while that argument is still a small term. -/
macro "read_fold_casts" "[" ls:Lean.Parser.Tactic.simpLemma,* "]" : tactic =>
  `(tactic| (simp (disch := decide) only [Idealize.ShloMosaic.JoinedPair.joined_eq,
      Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne', $ls,*]))

end
-- ==== Proof.LibTypedTransport.lean ====
/-
  A typed reference's transport of contents, there and back.

  A function called from a program names its arrays by typed references: a buffer together with the equation "this
  buffer's type is the value's type". Contents are moved into the buffer's own type along that equation when an operation
  writes them, and back along the same equation when a later operation reads them. The two moves cancel, whatever the
  equation's proof: so, reading a line of such operations, every value handed from one operation to the next arrives
  unchanged, and only the first reads and the last write keep a transport. (With this rule added to the one-pass reading
  of a line of operations, what is left to compare is the operations' own term.)
-/
import Idealize.ShloMosaic.Lib.StableHlo.Run

noncomputable section

namespace Idealize.ShloMosaic.StableHlo.TRef

variable {sig : RefSig} {Val : EltTy → Type} {T : BufTy}

/-- Contents moved to a buffer's own type and back along the same equation are themselves. -/
theorem ofBuf_toBuf (x : TRef sig T) (v : T.Contents Val) : x.ofBuf (x.toBuf v) = v := by
  unfold ofBuf toBuf
  simp

/-- Contents of the buffer's own type moved to the value's type and back are themselves. -/
theorem toBuf_ofBuf (x : TRef sig T) (v : x.ref.ty.Contents Val) : x.toBuf (x.ofBuf v) = v := by
  unfold ofBuf toBuf
  simp

end Idealize.ShloMosaic.StableHlo.TRef

end
-- ==== Proof.KTail.lean ====
/-
  The last stretch of the kernel's program, read at its results.

  After the three regions the program finishes with host operations on small arrays: the trace of `Sᵀ A S`, the cut
  loss, the orthogonality loss, the degree normalisation and the pooled index. Each result, read after the whole
  stretch, is the corresponding stage of the reference's computation applied to what the regions left: the two
  programs spell these stages with the same operations in the same order.
-/
import proofs.«116769_j12343736009109_2_alg».proof.Proof.Gen.KernelIdeal.Launch
import proofs.«116769_j12343736009109_2_alg».proof.Proof.Gen.ReferenceIdeal
import proofs.«116769_j12343736009109_2_alg».proof.Proof.RefStages
import proofs.«116769_j12343736009109_2_alg».proof.Proof.LibJoinedPair
import proofs.«116769_j12343736009109_2_alg».proof.Proof.LibTypedTransport
import Idealize.ShloMosaic.Lib.StableHlo.Run

set_option maxRecDepth 16384

noncomputable section

namespace Cert.KernelIdeal.KTail

open Cert.KernelIdeal Cert.KernelIdeal.Gen
open Idealize.ShloMosaic Idealize.ShloMosaic.StableHlo

variable (W : Valuation τ sig (Elt Ideal))

attribute [local irreducible] Host.reduce Host.reduceAdd Host.scatter Host.powf Host.divf Host.sqrt in
set_option maxHeartbeats 1000000 in
/-- The degree-normalised array is the reference's stage of what region 2 left in `Sᵀ A S`. -/
theorem normalized_eq :
    after (hostOps3 (F := Ideal)) W (Proc.devRef .tc main_v0_1)
      = Cert.ReferenceIdeal.Stage.normalized (W (Proc.devRef .tc main_call0_v2_0)) := by
  read_fold_casts [TRef.ofBuf_toBuf, TRef.toBuf_ofBuf]
  rfl

attribute [local irreducible] Host.reduce Host.reduceAdd Host.scatter Host.powf Host.divf Host.sqrt in
set_option maxHeartbeats 1000000 in
/-- The cut loss is the reference's stage of `Sᵀ A S`, the degrees and the row sums of squares. -/
theorem cutLoss_eq :
    after (hostOps3 (F := Ideal)) W (Proc.devRef .tc main_v0_3)
      = Cert.ReferenceIdeal.Stage.cutLoss (W (Proc.devRef .tc main_call0_v2_0)) (W (Proc.devRef .tc main_call0_v1_1))
          (W (Proc.devRef .tc main_call0_v2_3)) := by
  read_fold_casts [TRef.ofBuf_toBuf, TRef.toBuf_ofBuf]
  rfl

attribute [local irreducible] Host.reduce Host.reduceAdd Host.scatter Host.powf Host.divf Host.sqrt in
set_option maxHeartbeats 1000000 in
/-- The orthogonality loss is the reference's stage of `Sᵀ S`. -/
theorem orthoLoss_eq :
    after (hostOps3 (F := Ideal)) W (Proc.devRef .tc main_v0_4)
      = Cert.ReferenceIdeal.Stage.orthoLoss (W (Proc.devRef .tc main_call0_v2_1)) := by
  read_fold_casts [TRef.ofBuf_toBuf, TRef.toBuf_ofBuf]
  rfl

attribute [local irreducible] Host.reduce Host.reduceAdd Host.scatter Host.powf Host.divf Host.sqrt in
set_option maxHeartbeats 1000000 in
/-- The pooled index is the reference's stage of the index argument. -/
theorem pooledIndex_eq :
    after (hostOps3 (F := Ideal)) W (Proc.devRef .tc main_v0_2)
      = Cert.ReferenceIdeal.Stage.pooledIndex (W (Proc.devRef .tc main_arg2)) := by
  read_fold_casts [TRef.ofBuf_toBuf, TRef.toBuf_ofBuf]
  rfl

set_option maxHeartbeats 1000000 in
/-- No host operation writes `Sᵀ X`: it is as region 2 left it. -/
theorem xrec_eq :
    after (hostOps3 (F := Ideal)) W (Proc.devRef .tc main_v0_0) = W (Proc.devRef .tc main_v0_0) := by
  read_fold_casts [TRef.ofBuf_toBuf, TRef.toBuf_ofBuf]

end Cert.KernelIdeal.KTail

end
-- ==== Proof.LibDense.lean ====
/-
  Dense layers read at an index, over the extended reals.

  A bias vector `b : [N]` enters a dense layer as a row broadcast over `M` rows: in a kernel as a shape cast to
  `[1, N]` followed by a vector broadcast to `[M, N]`, on the host as two `broadcast_in_dim`s.  Either way the entry
  at `(p, q)` is `b q`.  With the plain matrix product read at an index this gives the three layers below as plain
  formulas, whatever the tiling of the rows:

    * `linRelu x w b (p, q) = max (∑ k, x (p, k) * w (k, q) + b q) 0`
    * `sageRelu agg h wl bl wr (p, q) = max ((∑ k, agg (p, k) * wl (k, q) + bl q) + ∑ k, h (p, k) * wr (k, q)) 0`
    * `mlpPre cat w1 b1 w2 b2 (p, u) = ∑ j, max (∑ k, cat (p, k) * w1 (k, j) + b1 j) 0 * w2 (j, u) + b2 u`
    * `mlpScore … = tanh (mlpPre …)`, entry by entry

  (`0` is kept as the float word `0x00000000` read at the ideal instance; it is the same word on every side and is
  never evaluated.)
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Idealize.ShloMosaic.DenseLayer

open Idealize.ShloMosaic Idealize.ShloMosaic.ValueIdx

variable {α : Type}

/-- A kernel's bias row: `b : [N]` cast to `[1, N]` and broadcast to `[M, N]` reads `b q` at `(p, q)`. -/
theorem castRow_apply {M N : ℕ} (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix1 q) := by
  rw [broadcastTo_1b_ab_apply, shapeCast_a_1a_apply]

/-- The host's bias row: `b : [N]` broadcast to `[1, N]` along axis 1, then to `[M, N]`, reads `b q` at `(p, q)`. -/
theorem inDimRow_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1])
    (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  exact broadcastInDim_apply ![1] h1 b (ix2 (0 : Fin 1) q) (ix1 q) (fun a => by
    match a with
    | ⟨0, _⟩ =>
      show q.val = if N = 1 then 0 else q.val
      split
      · have := q.isLt; omega
      · rfl)

/-- The float word zero, read at the ideal instance. -/
abbrev zeroWord : EReal := Ideal.ofBits .f32 0x00000000#32

/-- `relu (x · w + b)`, entry by entry. -/
def linRelu {M K N : ℕ} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal := fun i =>
  max (∑ k : Fin K, x (ix2 (i 0) k) * w (ix2 k (i 1)) + b (ix1 (i 1))) zeroWord

/-- `relu ((agg · wl + bl) + h · wr)`, entry by entry. -/
def sageRelu {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) :
    (⟨2, ![M, N]⟩ : Shape).Idx → EReal := fun i =>
  max ((∑ k : Fin K, agg (ix2 (i 0) k) * wl (ix2 k (i 1)) + bl (ix1 (i 1)))
    + ∑ k : Fin K, h (ix2 (i 0) k) * wr (ix2 k (i 1))) zeroWord

/-- `relu (cat · w1 + b1) · w2 + b2`, entry by entry: the score before its `tanh`. -/
def mlpPre {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  ∑ j : Fin H, linRelu cat w1 b1 (ix2 (i 0) j) * w2 (ix2 j (i 1)) + b2 (ix1 (i 1))

/-- The score: `tanh` of `mlpPre`, entry by entry. -/
def mlpScore {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  Ideal.tanh (mlpPre cat w1 b1 w2 b2 i)

theorem linRelu_apply {M K N : ℕ} (x : (⟨2, ![M, K]⟩ : Shape).Idx → EReal) (w : (⟨2, ![K, N]⟩ : Shape).Idx → EReal)
    (b : (⟨1, ![N]⟩ : Shape).Idx → EReal) (p : Fin M) (q : Fin N) :
    linRelu x w b (ix2 p q) = max (∑ k : Fin K, x (ix2 p k) * w (ix2 k q) + b (ix1 q)) zeroWord := rfl

theorem sageRelu_apply {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) (p : Fin M) (q : Fin N) :
    sageRelu agg h wl bl wr (ix2 p q)
      = max ((∑ k : Fin K, agg (ix2 p k) * wl (ix2 k q) + bl (ix1 q)) + ∑ k : Fin K, h (ix2 p k) * wr (ix2 k q)) zeroWord := rfl

theorem mlpPre_apply {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) (p : Fin M) (u : Fin N) :
    mlpPre cat w1 b1 w2 b2 (ix2 p u)
      = ∑ j : Fin H, max (∑ k : Fin K, cat (ix2 p k) * w1 (ix2 k j) + b1 (ix1 j)) zeroWord * w2 (ix2 j u) + b2 (ix1 u) := rfl

end Idealize.ShloMosaic.DenseLayer

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.LibMatProd.lean ====
/-
  The matrix product as one function of two arrays, over the extended reals.

  `matProd a w` at `(p, q)` is the sum over `k` of `a (p, k) * w (k, q)`. Addition of extended reals is commutative
  and associative, so the sum needs no order and no blocking: a product computed row block by row block and a product
  computed at once are the same array. Both a kernel's matmul into the zero accumulator and a host `dot_general`, with
  the plain dimension numbers, are this function; and a change of float format on the way in is the identity.
-/
import Idealize.ShloMosaic.PureOps.Ideal
import Idealize.ShloMosaic.PureOps.Ideal.Laws
import Idealize.ShloMosaic.Lib.ValueIdx
import proofs.«116769_j12343736009109_2_alg».proof.Proof.LibPlainDot

noncomputable section

namespace Idealize.ShloMosaic.MatProd

open Idealize.ShloMosaic Idealize.ShloMosaic.ValueIdx

/-- The product of an `M×K` array with a `K×N` array, entry by entry. -/
def matProd {M K N : ℕ} {φ₁ φ₂ : FTy} (a : FVec Ideal ⟨2, ![M, K]⟩ φ₁) (w : FVec Ideal ⟨2, ![K, N]⟩ φ₂) :
    FVec Ideal ⟨2, ![M, N]⟩ .f32 :=
  fun i => ∑ k : Fin K, a (ix2 (i 0) k) * w (ix2 k (i 1))

/-- A kernel's matmul into the zero accumulator, read at the entry `(p, q)`. -/
theorem matmul_zero_at {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂)
    (y : (⟨2, ![M, N]⟩ : Shape).Idx) (p : Fin M) (q : Fin N) (hy : y = ix2 p q) :
    FloatOps.matmul d prec lhs rhs (constant ⟨2, ![M, N]⟩ .f32 0x00000000#32) y
      = ∑ k : Fin K, lhs (ix2 p k) * rhs (ix2 k q) := by
  subst hy
  exact PlainDot.matmul_zero_apply d hd prec lhs rhs p q

/-- A host `dot_general` with the plain dimension numbers is the matrix product. -/
theorem dotGeneral_eq_matProd {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) :
    FloatOps.dotGeneral d prec sched lhs rhs = matProd lhs rhs := by
  funext j
  obtain ⟨p, q, rfl⟩ : ∃ (p : Fin M) (q : Fin N), j = ix2 p q := ⟨j 0, j 1, eq_ix2 j⟩
  exact PlainDot.dotGeneral_apply d hd prec sched lhs rhs p q

/-- Narrowing both operands' float format first changes nothing: at the ideal values a format change is the identity. -/
theorem matProd_truncf {M K N : ℕ} {φ₁ φ₂ ψ₁ ψ₂ : FTy} (a : FVec Ideal ⟨2, ![M, K]⟩ φ₁) (w : FVec Ideal ⟨2, ![K, N]⟩ φ₂)
    (h₁ : ψ₁.bits < φ₁.bits) (h₂ : ψ₂.bits < φ₂.bits) :
    matProd (truncf ψ₁ a h₁) (truncf ψ₂ w h₂) = matProd a w := rfl

end Idealize.ShloMosaic.MatProd

end
-- ==== Proof.Spec.lean ====
/-
  The pooled graph quantities as functions of whole arrays, over the extended reals.

  With `S = softmax (relu (X W1 + b1) W2 + b2)` along rows, the quantities are the products `A S`, `Sᵀ (A S)`,
  `Sᵀ S`, `Sᵀ X`, the row sums of `A` and the row sums of the squares of `S`. Each is stated entry by entry as a
  plain finite sum. Addition of extended reals is commutative and associative, so a sum over `B * T` positions is
  the sum over `B` blocks of the sums over the `T` positions of a block (`sum_blocks`): a product or a row sum
  accumulated block by block is the whole product or the whole row sum, with no finiteness needed.
  An entry of `S` depends on its own row of `X` only, so a block of rows of `X` gives the same rows of `S`
  (`assign_rows`).
-/
import Idealize.ShloMosaic.PureOps.Ideal
import Idealize.ShloMosaic.PureOps.Ideal.Laws
import Idealize.ShloMosaic.Lib.ValueIdx
import Mathlib.Algebra.BigOperators.Fin
import proofs.«116769_j12343736009109_2_alg».proof.Proof.LibDense
import proofs.«116769_j12343736009109_2_alg».proof.Proof.LibMatProd

noncomputable section

namespace Pool

open Idealize.ShloMosaic Idealize.ShloMosaic.ValueIdx

/-- An `m × n` array of extended reals. -/
abbrev Mat (m n : ℕ) := (⟨2, ![m, n]⟩ : Shape).Idx → EReal
/-- A vector of `n` extended reals. -/
abbrev Vect (n : ℕ) := (⟨1, ![n]⟩ : Shape).Idx → EReal

/-- The f32 word of minus infinity, read at the ideal values (it is the same word on every side and is never evaluated). -/
abbrev negInfWord : EReal := Ideal.ofBits .f32 0xFF800000#32

/-- The shift of row `p` of a softmax: the maximum of the row, taken from minus infinity, and once more against it. -/
def rowShift {M N : ℕ} (z : Mat M N) (p : Fin M) : EReal :=
  max negInfWord ((Finset.univ : Finset (Fin N)).fold max negInfWord (fun k => z (ix2 p k)))

/-- The softmax along rows as both programs spell it: `exp (z - shift)` over the row's sum of the same. -/
def softmaxRows {M N : ℕ} (z : Mat M N) : Mat M N := fun i =>
  Ideal.div (Ideal.exp (z (ix2 (i 0) (i 1)) - rowShift z (i 0)))
    (∑ k : Fin N, Ideal.exp (z (ix2 (i 0) k) - rowShift z (i 0)))

theorem softmaxRows_apply {M N : ℕ} (z : Mat M N) (p : Fin M) (q : Fin N) :
    softmaxRows z (ix2 p q)
      = Ideal.div (Ideal.exp (z (ix2 p q) - rowShift z p)) (∑ k : Fin N, Ideal.exp (z (ix2 p k) - rowShift z p)) := rfl

/-- The assignment matrix `S = softmax (relu (x w1 + b1) w2 + b2)`. -/
def assign {M K H N : ℕ} (x : Mat M K) (w1 : Mat K H) (b1 : Vect H) (w2 : Mat H N) (b2 : Vect N) : Mat M N :=
  softmaxRows (DenseLayer.mlpPre x w1 b1 w2 b2)

/-- `sᵀ y`: both arrays contracted on their rows. -/
def gram {R M N : ℕ} (s : Mat R M) (y : Mat R N) : Mat M N := fun i =>
  ∑ k : Fin R, s (ix2 k (i 0)) * y (ix2 k (i 1))

theorem gram_apply {R M N : ℕ} (s : Mat R M) (y : Mat R N) (p : Fin M) (q : Fin N) :
    gram s y (ix2 p q) = ∑ k : Fin R, s (ix2 k p) * y (ix2 k q) := rfl

/-- The row sums of an array. -/
def rowSum {M N : ℕ} (a : Mat M N) : Vect M := fun i => ∑ k : Fin N, a (ix2 (i 0) k)

theorem rowSum_apply {M N : ℕ} (a : Mat M N) (p : Fin M) : rowSum a (ix1 p) = ∑ k : Fin N, a (ix2 p k) := rfl

/-- The row sums of the squares of an array's entries. -/
def rowSq {M N : ℕ} (s : Mat M N) : Vect M := fun i => ∑ k : Fin N, s (ix2 (i 0) k) * s (ix2 (i 0) k)

theorem rowSq_apply {M N : ℕ} (s : Mat M N) (p : Fin M) :
    rowSq s (ix1 p) = ∑ k : Fin N, s (ix2 p k) * s (ix2 p k) := rfl

/-- A sum over `B * T` positions is the sum over the `B` blocks of the sums over the `T` positions of a block;
    position `j` of block `b` is `j + T * b`. -/
theorem sum_blocks {α : Type*} [AddCommMonoid α] (B T : ℕ) (f : Fin (B * T) → α) :
    ∑ k : Fin (B * T), f k = ∑ b : Fin B, ∑ j : Fin T, f (finProdFinEquiv (b, j)) := by
  rw [← finProdFinEquiv.sum_comp, Fintype.sum_prod_type]

/-- An entry of the hidden-to-logit map depends on its own row of `x` only. -/
theorem mlpPre_rows {M M' K H N : ℕ} (x : Mat M K) (x' : Mat M' K) (w1 : Mat K H) (b1 : Vect H) (w2 : Mat H N)
    (b2 : Vect N) (p : Fin M) (p' : Fin M') (hrow : ∀ k : Fin K, x' (ix2 p' k) = x (ix2 p k)) (q : Fin N) :
    DenseLayer.mlpPre x' w1 b1 w2 b2 (ix2 p' q) = DenseLayer.mlpPre x w1 b1 w2 b2 (ix2 p q) := by
  rw [DenseLayer.mlpPre_apply, DenseLayer.mlpPre_apply]
  simp only [hrow]

/-- An entry of `S` depends on its own row of `x` only: a block of rows of `x` gives the same rows of `S`. -/
theorem assign_rows {M M' K H N : ℕ} (x : Mat M K) (x' : Mat M' K) (w1 : Mat K H) (b1 : Vect H) (w2 : Mat H N)
    (b2 : Vect N) (p : Fin M) (p' : Fin M') (hrow : ∀ k : Fin K, x' (ix2 p' k) = x (ix2 p k)) (q : Fin N) :
    assign x' w1 b1 w2 b2 (ix2 p' q) = assign x w1 b1 w2 b2 (ix2 p q) := by
  have hz : ∀ k : Fin N, DenseLayer.mlpPre x' w1 b1 w2 b2 (ix2 p' k) = DenseLayer.mlpPre x w1 b1 w2 b2 (ix2 p k) :=
    fun k => mlpPre_rows x x' w1 b1 w2 b2 p p' hrow k
  unfold assign
  rw [softmaxRows_apply, softmaxRows_apply]
  have hs : rowShift (DenseLayer.mlpPre x' w1 b1 w2 b2) p' = rowShift (DenseLayer.mlpPre x w1 b1 w2 b2) p := by
    unfold rowShift
    simp only [hz]
  rw [hs]
  simp only [hz]

end Pool

end
-- ==== Proof.KValue.lean ====
/-
  The kernel's program run to its end, with its five results as functions of the arguments.

  Region 0 leaves the assignment matrix `S` of the whole `X`; region 1 reads `A` and that `S` and leaves `A S` and
  the row sums of `A`; region 2 reads `S`, `A S` and `X` and leaves `Sᵀ (A S)`, `Sᵀ S`, `Sᵀ X` and the row sums of
  the squares of `S`; a buffer no region writes is as it was. The last host stretch turns these into the five
  results. Each region's value is taken as a hypothesis here, at an arbitrary entry valuation, so that this chain
  can be read on its own; the regions' own modules prove them.
-/
import proofs.«116769_j12343736009109_2_alg».proof.Proof.KRun
import proofs.«116769_j12343736009109_2_alg».proof.Proof.KTail
import proofs.«116769_j12343736009109_2_alg».proof.Proof.Spec
import Idealize.ShloMosaic.Lib.Pipeline.Value

set_option maxRecDepth 16384

noncomputable section

namespace Cert.KernelIdeal.KValue

open Cert.KernelIdeal Cert.KernelIdeal.Gen
open Idealize.ShloMosaic Idealize.ShloMosaic.TcCoe Idealize.SL.Sem
open Idealize.ShloMosaic.Pipeline (Dat)

/-- An entry valuation: the TensorCore's buffer contents when a region is entered. -/
abbrev Entry := (c : Dev nD) → (b : Ref sig .tc) → Buf (Elt Ideal) ((c : Thread nD τ).loc b)

variable (m : (ℓ : Loc nD τ sig) → Buf (Elt Ideal) ℓ) (ρ : Dev nD → PrngReg)

/-- What the three regions leave, at an arbitrary entry valuation: the interface between this chain and the regions' own
    modules. -/
structure RegionValues : Prop where
  s : ∀ (V : Entry) (c : Dev nD), (dat0 (F := Ideal) V c).arrAt 5 cfg0.N
      = Pool.assign (V c main_arg0) (V c main_arg3) (V c main_arg4) (V c main_arg5) (V c main_arg6)
  prod : ∀ (V : Entry) (c : Dev nD), (dat1 (F := Ideal) V c).arrAt 2 cfg1.N
      = MatProd.matProd (φ₁ := .f32) (φ₂ := .bf16) (V c main_arg1) (V c main_call0_v0)
  deg : ∀ (V : Entry) (c : Dev nD), (dat1 (F := Ideal) V c).arrAt 3 cfg1.N = Pool.rowSum (V c main_arg1)
  arec : ∀ (V : Entry) (c : Dev nD), (dat2 (F := Ideal) V c).arrAt 3 cfg2.N
      = Pool.gram (V c main_call0_v0) (V c main_call0_v1_0)
  ss : ∀ (V : Entry) (c : Dev nD), (dat2 (F := Ideal) V c).arrAt 4 cfg2.N
      = Pool.gram (V c main_call0_v0) (V c main_call0_v0)
  xrec : ∀ (V : Entry) (c : Dev nD), (dat2 (F := Ideal) V c).arrAt 5 cfg2.N
      = Pool.gram (V c main_call0_v0) (V c main_arg0)
  ssrow : ∀ (V : Entry) (c : Dev nD), (dat2 (F := Ideal) V c).arrAt 6 cfg2.N = Pool.rowSq (V c main_call0_v0)

/-- The assignment matrix of the launch arguments. -/
def Sm (c : Dev nD) : Pool.Mat 8192 1024 :=
  Pool.assign (m ((c : Thread nD τ).loc main_arg0)) (m ((c : Thread nD τ).loc main_arg3)) (m ((c : Thread nD τ).loc main_arg4))
    (m ((c : Thread nD τ).loc main_arg5)) (m ((c : Thread nD τ).loc main_arg6))

/-- After region 0 the array `S` holds the assignment matrix. -/
theorem W1_S (H : RegionValues) (c : Dev nD) : W1 m ρ c (Proc.devRef .tc main_call0_v0) = Sm m c :=
  (W1_arr m ρ c 5).trans (H.s (V0 m ρ) c)

/-- Region 0 does not write `A`. -/
theorem W1_A (c : Dev nD) : W1 m ρ c (Proc.devRef .tc main_arg1) = m ((c : Thread nD τ).loc main_arg1) :=
  W1_of_ne m ρ c main_arg1 (by decide)

/-- Region 0 reads `X` and leaves it. -/
theorem W1_X (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))

/-- After region 1 the array `AS` holds `A S`. -/
theorem W2_AS (H : RegionValues) (c : Dev nD) :
    W2 m ρ c (Proc.devRef .tc main_call0_v1_0) = MatProd.matProd (φ₁ := .f32) (φ₂ := .bf16) (m ((c : Thread nD τ).loc main_arg1)) (Sm m c) := by
  refine (W2_arr m ρ c 2).trans ((H.prod (V1 m ρ) c).trans ?_)
  show MatProd.matProd (W1 m ρ c (Proc.devRef .tc main_arg1)) (W1 m ρ c (Proc.devRef .tc main_call0_v0)) = _
  rw [W1_S m ρ H c, W1_A m ρ c]

/-- After region 1 the array `d` holds the row sums of `A`. -/
theorem W2_d (H : RegionValues) (c : Dev nD) :
    W2 m ρ c (Proc.devRef .tc main_call0_v1_1) = Pool.rowSum (m ((c : Thread nD τ).loc main_arg1)) := by
  refine (W2_arr m ρ c 3).trans ((H.deg (V1 m ρ) c).trans ?_)
  show Pool.rowSum (W1 m ρ c (Proc.devRef .tc main_arg1)) = _
  rw [W1_A m ρ c]

/-- Region 1 reads `S` and leaves it. -/
theorem W2_S (H : RegionValues) (c : Dev nD) : W2 m ρ c (Proc.devRef .tc main_call0_v0) = Sm m c :=
  (W2_arr m ρ c 1).trans (((dat1 (V1 m ρ) c).arrAt_in 1 rfl _).trans ((A_eq1 (V1 m ρ) c 1).trans (W1_S m ρ H c)))

/-- Region 1 does not write `X`. -/
theorem W2_X (c : Dev nD) : W2 m ρ c (Proc.devRef .tc main_arg0) = m ((c : Thread nD τ).loc main_arg0) :=
  (W2_of_ne m ρ c main_arg0 (by decide)).trans (W1_X m ρ c)

/-- After region 2: `Sᵀ (A S)`. -/
theorem W3_arec (H : RegionValues) (c : Dev nD) :
    W3 m ρ c (Proc.devRef .tc main_call0_v2_0)
      = Pool.gram (Sm m c) (MatProd.matProd (φ₁ := .f32) (φ₂ := .bf16) (m ((c : Thread nD τ).loc main_arg1)) (Sm m c)) := by
  refine (W3_arr m ρ c 3).trans ((H.arec (V2 m ρ) c).trans ?_)
  show Pool.gram (W2 m ρ c (Proc.devRef .tc main_call0_v0)) (W2 m ρ c (Proc.devRef .tc main_call0_v1_0)) = _
  rw [W2_S m ρ H c, W2_AS m ρ H c]

/-- After region 2: `Sᵀ S`. -/
theorem W3_ss (H : RegionValues) (c : Dev nD) : W3 m ρ c (Proc.devRef .tc main_call0_v2_1) = Pool.gram (Sm m c) (Sm m c) := by
  refine (W3_arr m ρ c 4).trans ((H.ss (V2 m ρ) c).trans ?_)
  show Pool.gram (W2 m ρ c (Proc.devRef .tc main_call0_v0)) (W2 m ρ c (Proc.devRef .tc main_call0_v0)) = _
  rw [W2_S m ρ H c]

/-- After region 2: `Sᵀ X`. -/
theorem W3_xrec (H : RegionValues) (c : Dev nD) :
    W3 m ρ c (Proc.devRef .tc main_v0_0) = Pool.gram (Sm m c) (m ((c : Thread nD τ).loc main_arg0)) := by
  refine (W3_arr m ρ c 5).trans ((H.xrec (V2 m ρ) c).trans ?_)
  show Pool.gram (W2 m ρ c (Proc.devRef .tc main_call0_v0)) (W2 m ρ c (Proc.devRef .tc main_arg0)) = _
  rw [W2_S m ρ H c, W2_X m ρ c]

/-- After region 2: the row sums of the squares of `S`. -/
theorem W3_ssrow (H : RegionValues) (c : Dev nD) : W3 m ρ c (Proc.devRef .tc main_call0_v2_3) = Pool.rowSq (Sm m c) := by
  refine (W3_arr m ρ c 6).trans ((H.ssrow (V2 m ρ) c).trans ?_)
  show Pool.rowSq (W2 m ρ c (Proc.devRef .tc main_call0_v0)) = _
  rw [W2_S m ρ H c]

/-- Region 2 does not write `d`. -/
theorem W3_d (H : RegionValues) (c : Dev nD) :
    W3 m ρ c (Proc.devRef .tc main_call0_v1_1) = Pool.rowSum (m ((c : Thread nD τ).loc main_arg1)) :=
  (W3_of_ne m ρ c main_call0_v1_1 (by decide)).trans (W2_d m ρ H c)

/-- No region writes the index argument. -/
theorem W3_I (c : Dev nD) : W3 m ρ c (Proc.devRef .tc main_arg2) = m ((c : Thread nD τ).loc main_arg2) :=
  (W3_of_ne m ρ c main_arg2 (by decide)).trans ((W2_of_ne m ρ c main_arg2 (by decide)).trans (W1_of_ne m ρ c main_arg2 (by decide)))

/-- THE RUN: every weakly fair execution of the kernel's program terminates, nothing faulting, with the five results at
    these functions of the launch arguments, and the arguments unchanged. -/
theorem run (H : RegionValues) : θ_run (defs (F := Ideal)) (onTc (τ := τ) (main (F := Ideal))) ⟨m, fun _ => 0, ρ⟩ (fun r => ∀ c : Dev nD,
      r.2.mem ((c.tc : Thread nD τ).loc main_v0_0) = Pool.gram (Sm m c) (m ((c : Thread nD τ).loc main_arg0))
      ∧ r.2.mem ((c.tc : Thread nD τ).loc main_v0_1)
          = Cert.ReferenceIdeal.Stage.normalized (Pool.gram (Sm m c) (MatProd.matProd (φ₁ := .f32) (φ₂ := .bf16) (m ((c : Thread nD τ).loc main_arg1)) (Sm m c)))
      ∧ r.2.mem ((c.tc : Thread nD τ).loc main_v0_2) = Cert.ReferenceIdeal.Stage.pooledIndex (m ((c : Thread nD τ).loc main_arg2))
      ∧ r.2.mem ((c.tc : Thread nD τ).loc main_v0_3)
          = Cert.ReferenceIdeal.Stage.cutLoss (Pool.gram (Sm m c) (MatProd.matProd (φ₁ := .f32) (φ₂ := .bf16) (m ((c : Thread nD τ).loc main_arg1)) (Sm m c)))
              (Pool.rowSum (m ((c : Thread nD τ).loc main_arg1))) (Pool.rowSq (Sm m c))
      ∧ r.2.mem ((c.tc : Thread nD τ).loc main_v0_4) = Cert.ReferenceIdeal.Stage.orthoLoss (Pool.gram (Sm m c) (Sm m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run (defs (F := Ideal)) _ _).mono (fun r h c => ?_) (KRun.run_at (F := Ideal) m ρ)
  refine ⟨?_, ?_, ?_, ?_, ?_, (h c main_arg0 (by decide)).trans (W4_main_arg0 m ρ c), (h c main_arg1 (by decide)).trans (W4_main_arg1 m ρ c),
    (h c main_arg2 (by decide)).trans (W4_main_arg2 m ρ c), (h c main_arg3 (by decide)).trans (W4_main_arg3 m ρ c),
    (h c main_arg4 (by decide)).trans (W4_main_arg4 m ρ c), (h c main_arg5 (by decide)).trans (W4_main_arg5 m ρ c),
    (h c main_arg6 (by decide)).trans (W4_main_arg6 m ρ c)⟩
  · refine (h c main_v0_0 (by decide)).trans ((KTail.xrec_eq (W3 m ρ c)).trans (W3_xrec m ρ H c))
  · refine (h c main_v0_1 (by decide)).trans ((KTail.normalized_eq (W3 m ρ c)).trans ?_)
    rw [W3_arec m ρ H c]
  · refine (h c main_v0_2 (by decide)).trans ((KTail.pooledIndex_eq (W3 m ρ c)).trans ?_)
    rw [W3_I m ρ c]
  · refine (h c main_v0_3 (by decide)).trans ((KTail.cutLoss_eq (W3 m ρ c)).trans ?_)
    rw [W3_arec m ρ H c, W3_d m ρ H c, W3_ssrow m ρ H c]
  · refine (h c main_v0_4 (by decide)).trans ((KTail.orthoLoss_eq (W3 m ρ c)).trans ?_)
    rw [W3_ss m ρ H c]

end Cert.KernelIdeal.KValue

end
-- ==== Proof.LibRowReduce.lean ====
/-
  Row reductions of a matrix, read at an index.

  A reduction of an `[m, n]` array over its second axis leaves one value per row.  Read at row `p`, the source
  indices that reduce to it are `(p, k)` for `k : Fin n`, so

    * a kernel's row maximum is the fold of `max` from the accumulator's value over `k ↦ x (p, k)`,
    * a kernel's row sum is `∑ k, x (p, k)`,
    * the host's `reduce` with a maximum body is the same fold from the initial value, and the host's float sum is
      the initial value plus the same sum.

  The kernel keeps such a result as a column: an `[m]` vector cast to `[m, 1]` reads the vector at the row.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Idealize.ShloMosaic.RowReduce

open Idealize.ShloMosaic Idealize.ShloMosaic.ValueIdx

variable {α : Type}

/-- The source index over row `p` with coordinate `k` on the reduced second axis is `(p, k)`. -/
theorem lift_row {m n : ℕ} (h : (⟨2, ![m, n]⟩ : Shape).Reduces [1] ⟨1, ![m]⟩) (p : Fin m) (k : Fin n) :
    h.lift (ix1 p) k = ix2 p k := by
  funext c
  apply Fin.ext
  refine (h.lift_val (ix1 p) k c).trans ?_
  match c with
  | ⟨0, _⟩ => rfl
  | ⟨1, _⟩ => rfl

/-- An `[m]` vector cast to an `[m, 1]` column reads, at `(p, u)`, the vector at `p`. -/
theorem shapeCast_a_a1_apply {m : ℕ} (x : (⟨1, ![m]⟩ : Shape).Idx → α) (h : (⟨1, ![m]⟩ : Shape).ShapeCasts ⟨2, ![m, 1]⟩)
    (p : Fin m) (u : Fin 1) : shapeCast ⟨2, ![m, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A kernel's row maximum at row `p`: the fold of `max` from the accumulator's value over the row's entries. -/
theorem multiReduction_maximumf_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.maximumf.neutral φ hφ)
    (p : Fin m) :
    multiReduction .maximumf [1] ⟨1, ![m]⟩ x acc h hφ hacc (ix1 p)
      = (Finset.univ : Finset (Fin n)).fold max (Ideal.ofBits φ acc) (fun k => x (ix2 p k)) := by
  refine (Ideal.multiReduction_maximumf_single x acc h hφ hacc (ix1 p)).trans ?_
  exact congrArg (fun f => (Finset.univ : Finset (Fin n)).fold max (Ideal.ofBits φ acc) f)
    (funext fun k => congrArg x (lift_row h p k))

/-- A kernel's row sum at row `p`. -/
theorem multiReduction_add_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (p : Fin m) :
    multiReduction .add [1] ⟨1, ![m]⟩ x acc h hφ hacc (ix1 p) = ∑ k : Fin n, x (ix2 p k) := by
  refine (Ideal.multiReduction_add_single x acc h hφ hacc (ix1 p)).trans ?_
  exact Finset.sum_congr rfl fun k _ => congrArg x (lift_row h p k)

/-- The host's `reduce` with a maximum body over the second axis, at row `p`: the fold of `max` from the initial
    value over the row's entries. -/
theorem hostReduce_maximumf_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduce (FloatOps.maximumf (F := Ideal) (φ := φ)) x init h' hu (ix1 p)
      = (Finset.univ : Finset (Fin n)).fold max (init (Shape.Idx.first hu)) (fun k => x (ix2 p k)) := by
  refine (Host.reduce_eq_fold_single (FloatOps.maximumf (F := Ideal) (φ := φ)) x init h' h hu (ix1 p)).trans ?_
  exact congrArg (fun f => (Finset.univ : Finset (Fin n)).fold max (init (Shape.Idx.first hu)) f)
    (funext fun k => congrArg x (lift_row h p k))

/-- The host's float sum over the second axis, at row `p`: the initial value plus the sum of the row's entries. -/
theorem hostReduceAdd_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduceAdd x init h' hu (ix1 p) = init (Shape.Idx.first hu) + ∑ k : Fin n, x (ix2 p k) := by
  rw [hostReduceAdd_apply]
  refine (Ideal.hostReduceAdd_single h' h x (init (Shape.Idx.first hu)) (ix1 p)).trans ?_
  exact congrArg _ (Finset.sum_congr rfl fun k _ => congrArg x (lift_row h p k))

end Idealize.ShloMosaic.RowReduce

end
-- ==== Proof.LibColumns.lean ====
/-
  Two layout operations on a matrix with a short second axis, read at an index.

  A kernel that needs one column of a packed `[a, n]` array slices it out as an `[a, 1]` column and broadcasts that
  column along the rows of an `[a, b]` block. Read at row `p` and column `c`, the result is the packed array at
  `(p, col)`, whatever `c` is.
-/
import Idealize.ShloMosaic.Lib.ValueIdx
import Idealize.ShloMosaic.Lib.Pipeline.Value

noncomputable section

namespace Idealize.ShloMosaic.ValueIdx

open Idealize.ShloMosaic

variable {α : Type}

/-- A unit-stride slice taking column `col` of an `[a, n]` array as an `[a, 1]` column: at row `p` it reads `(p, col)`. -/
theorem extractStridedSlice_column_apply {a n : ℕ} (off : Fin 2 → ℕ) (col : Fin n) (h0 : off 0 = 0) (h1 : off 1 = col.val)
    (v : (⟨2, ![a, n]⟩ : Shape).Idx → α) (h : (⟨2, ![a, n]⟩ : Shape).Slices off ⟨2, ![a, 1]⟩) (p : Fin a) (z : Fin 1) :
    extractStridedSlice ⟨2, ![a, 1]⟩ off v h (ix2 p z) = v (ix2 p col) := by
  refine extractStridedSlice_apply off v h (ix2 p z) (ix2 p col) fun ax => ?_
  match ax with
  | ⟨0, _⟩ => show p.val = off 0 + p.val; omega
  | ⟨1, _⟩ => show col.val = off 1 + z.val; have := z.isLt; omega

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.LibColumnOfVector.lean ====
/-
  A vector laid out as one column.

  An array of shape `[a]` reshaped to `[a, 1]` keeps its entries in order: the entry at `(p, z)` (the unit coordinate
  `z` is `0`) is the vector's entry at `p`.
-/
import Idealize.ShloMosaic.Lib.Pipeline.Value
import Idealize.ShloMosaic.Lib.ValueIdx
import Idealize.ShloMosaic.Lib.ValueLayout

noncomputable section

namespace Idealize.ShloMosaic.ColumnOfVector

open Idealize.ShloMosaic Idealize.ShloMosaic.ValueIdx

/-- An `[a]` array cast to `[a, 1]` reads, at `(p, z)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

end Idealize.ShloMosaic.ColumnOfVector

end
-- ==== Proof.Region0.lean ====
/-
  The value of the first region: the assignment matrix `S = softmax (relu (X W1 + b1) W2 + b2)` along rows.

  The grid has eight points; point `t` reads rows `1024 t … 1024 t + 1023` of `X` and the whole of `W1`, `b1`,
  `W2`, `b2`, and writes back the same rows of `S`.  The stored block is, stage by stage: the product of the block
  of rows with `W1` into the zero block plus `b1` as a row, cut below at zero; its product with `W2` into the zero
  block plus `b2` as a row; each row's maximum taken from minus infinity (and once more against it) as a column
  spread along the row; the exponentials of the differences; and those over their row sums, again a column spread
  along the row.  Read at row `p` and column `q` of the block each stage is the plain formula of the same name, and
  an entry of `S` depends on its own row of `X` only; so the block point `t` writes back is block `t` of rows of
  the assignment matrix of the whole `X`.  Row `r` of `S` lies in the block of point `r / 1024`, so the eight
  blocks cover the array and it ends holding that matrix.
-/
import proofs.«116769_j12343736009109_2_alg».proof.Proof.Gen.KernelIdeal.Frame
import proofs.«116769_j12343736009109_2_alg».proof.Proof.Spec
import proofs.«116769_j12343736009109_2_alg».proof.Proof.LibPlainDot
import proofs.«116769_j12343736009109_2_alg».proof.Proof.LibDense
import proofs.«116769_j12343736009109_2_alg».proof.Proof.LibRowReduce
import proofs.«116769_j12343736009109_2_alg».proof.Proof.LibColumns
import proofs.«116769_j12343736009109_2_alg».proof.Proof.LibColumnOfVector
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

/-! ## The body's value, stage by stage, at an index -/

/-- The hidden block: the product of a block of rows with the first weight matrix into the zero block, plus the first
    bias as a row, cut below at zero. -/
def hiddenBlk (x0 : Vec Ideal S1024x64 .f32) (w1 : Vec Ideal S64x16 .f32) (b1 : Vec Ideal S16 .f32) :
    FVec Ideal S1024x16 .f32 :=
  maximumf
    (addf
      (matmul dot_S1024x64_S64x16_S1024x16_1_0_0_1_n_n none (truncf .bf16 x0 bitsLt_bf16_f32)
        (truncf .bf16 w1 bitsLt_bf16_f32) (constant S1024x16 .f32 0x00000000#32))
      (broadcastTo S1024x16 (shapeCast S1x16 b1 shapeCasts_S16_S1x16) broadcasts_S1x16_S1024x16))
    (broadcast S1024x16 (Scalar.ofBits .f32 0x00000000#32))

/-- The logits block: the product of the hidden block with the second weight matrix into the zero block, plus the
    second bias as a row. -/
def logitBlk (h : FVec Ideal S1024x16 .f32) (w2 : Vec Ideal S16x1024 .f32) (b2 : Vec Ideal S1024 .f32) :
    FVec Ideal S1024x1024 .f32 :=
  addf
    (matmul dot_S1024x16_S16x1024_S1024x1024_1_0_0_1_n_n none (truncf .bf16 h bitsLt_bf16_f32)
      (truncf .bf16 w2 bitsLt_bf16_f32) (constant S1024x1024 .f32 0x00000000#32))
    (broadcastTo S1024x1024 (shapeCast S1x1024 b2 shapeCasts_S1024_S1x1024) broadcasts_S1x1024_S1024x1024)

/-- The shift block: each row's maximum (taken from minus infinity, and once more against it), as a column spread
    along the row. -/
def shiftBlk (z : FVec Ideal S1024x1024 .f32) : FVec Ideal S1024x1024 .f32 :=
  broadcastTo S1024x1024
    (shapeCast S1024x1
      (maximumf (broadcast S1024 (Scalar.ofBits .f32 0xFF800000#32))
        (multiReduction .maximumf [1] S1024 z 0xFF800000#32 reduces_S1024x1024_S1024 (.inl rfl) rfl))
      shapeCasts_S1024_S1024x1)
    broadcasts_S1024x1_S1024x1024

/-- The exponentials of the shifted logits. -/
def expBlk (z : FVec Ideal S1024x1024 .f32) : FVec Ideal S1024x1024 .f32 := exp (subf z (shiftBlk z))

/-- The softmax block: the exponentials over their row sums (a column spread along the row). -/
def softBlk (z : FVec Ideal S1024x1024 .f32) : FVec Ideal S1024x1024 .bf16 :=
  truncf .bf16
    (divf (expBlk z)
      (broadcastTo S1024x1024
        (shapeCast S1024x1
          (multiReduction .add [1] S1024 (expBlk z) 0x00000000#32 reduces_S1024x1024_S1024 (.inl rfl) rfl)
          shapeCasts_S1024_S1024x1)
        broadcasts_S1024x1_S1024x1024))
    bitsLt_bf16_f32

/-- The stored value is the softmax block of the logits block of the hidden block. -/
theorem pay_stages (x0 : Vec Ideal S1024x64 .f32) (w1 : Vec Ideal S64x16 .f32) (b1 : Vec Ideal S16 .f32)
    (w2 : Vec Ideal S16x1024 .f32) (b2 : Vec Ideal S1024 .f32) :
    k0_pay1 x0 w1 b1 w2 b2 = softBlk (logitBlk (hiddenBlk x0 w1 b1) w2 b2) := rfl

/-- An entry of the hidden block is the dense layer's entry. -/
theorem hiddenBlk_apply (x0 : Vec Ideal S1024x64 .f32) (w1 : Vec Ideal S64x16 .f32) (b1 : Vec Ideal S16 .f32)
    (p : Fin 1024) (j : Fin 16) :
    hiddenBlk x0 w1 b1 (ix2 p j) = DenseLayer.linRelu x0 w1 b1 (ix2 p j) := by
  rw [DenseLayer.linRelu_apply]
  show max (_ + _) _ = max (_ + _) _
  refine congrArg₂ max (congrArg₂ (· + ·) ?_ ?_) rfl
  · exact PlainDot.matmul_zero_apply _ rfl none _ _ p j
  · exact DenseLayer.castRow_apply b1 _ _ p j

/-- An entry of the logits block over the dense hidden block is the two-layer map's entry. -/
theorem logitBlk_apply (x0 : Vec Ideal S1024x64 .f32) (w1 : Vec Ideal S64x16 .f32) (b1 : Vec Ideal S16 .f32)
    (w2 : Vec Ideal S16x1024 .f32) (b2 : Vec Ideal S1024 .f32) (p : Fin 1024) (u : Fin 1024) :
    logitBlk (hiddenBlk x0 w1 b1) w2 b2 (ix2 p u) = DenseLayer.mlpPre x0 w1 b1 w2 b2 (ix2 p u) := by
  rw [DenseLayer.mlpPre_apply]
  refine (addf_apply _ _ (ix2 p u)).trans ?_
  refine congrArg₂ (· + ·) ?_ (DenseLayer.castRow_apply b2 _ _ p u)
  refine (PlainDot.matmul_zero_apply _ rfl none _ _ p u).trans ?_
  refine Finset.sum_congr rfl fun j _ => ?_
  refine congrArg₂ (· * ·) ?_ (truncf_apply (ψ := .bf16) w2 bitsLt_bf16_f32 (ix2 j u))
  refine (truncf_apply (ψ := .bf16) _ bitsLt_bf16_f32 (ix2 p j)).trans ?_
  exact (hiddenBlk_apply x0 w1 b1 p j).trans (DenseLayer.linRelu_apply x0 w1 b1 p j)

/-- The logits block is the two-layer map of the block of rows. -/
theorem logitBlk_eq (x0 : Vec Ideal S1024x64 .f32) (w1 : Vec Ideal S64x16 .f32) (b1 : Vec Ideal S16 .f32)
    (w2 : Vec Ideal S16x1024 .f32) (b2 : Vec Ideal S1024 .f32) :
    logitBlk (hiddenBlk x0 w1 b1) w2 b2 = DenseLayer.mlpPre x0 w1 b1 w2 b2 := by
  funext i
  obtain ⟨p, u, rfl⟩ : ∃ (p : Fin 1024) (u : Fin 1024), i = ix2 p u := ⟨i 0, i 1, eq_ix2 i⟩
  exact logitBlk_apply x0 w1 b1 w2 b2 p u

/-- The minus-infinity word spread over the rows, at a row. -/
theorem negInf_apply (p : Fin 1024) :
    broadcast S1024 (Scalar.ofBits (F := Ideal) .f32 0xFF800000#32) (ix1 p) = Pool.negInfWord := rfl

/-- The row maxima at a row: the fold of the maximum from minus infinity over the row's entries. -/
theorem rowMax_apply (z : FVec Ideal S1024x1024 .f32) (p : Fin 1024) :
    multiReduction (F := Ideal) .maximumf [1] S1024 z 0xFF800000#32 reduces_S1024x1024_S1024 (.inl rfl) rfl (ix1 p)
      = (Finset.univ : Finset (Fin 1024)).fold max Pool.negInfWord (fun k => z (ix2 p k)) :=
  RowReduce.multiReduction_maximumf_row z _ _ _ _ p

/-- An entry of the shift block is its row's shift. -/
theorem shiftBlk_apply (z : FVec Ideal S1024x1024 .f32) (p q : Fin 1024) :
    shiftBlk z (ix2 p q) = Pool.rowShift z p := by
  refine (ValueIdx.broadcastTo_a1_ab_apply _ _ p q).trans ?_
  refine (RowReduce.shapeCast_a_a1_apply _ _ p (0 : Fin 1)).trans ?_
  refine (maximumf_apply _ _ (ix1 p)).trans ?_
  exact congrArg₂ max (negInf_apply p) (rowMax_apply z p)

/-- The exponential of a block, at an index. -/
theorem exp_apply {s : Shape} {φ : FTy} (a : FVec Ideal s φ) (i : s.Idx) : exp a i = Ideal.exp (a i) := rfl

/-- An entry of the exponentials. -/
theorem expBlk_apply (z : FVec Ideal S1024x1024 .f32) (p q : Fin 1024) :
    expBlk z (ix2 p q) = Ideal.exp (z (ix2 p q) - Pool.rowShift z p) := by
  refine (exp_apply _ (ix2 p q)).trans (congrArg Ideal.exp ?_)
  refine (subf_apply _ _ (ix2 p q)).trans ?_
  exact congrArg (z (ix2 p q) - ·) (shiftBlk_apply z p q)

/-- The row sums of the exponentials, at a row. -/
theorem rowSumExp_apply (z : FVec Ideal S1024x1024 .f32) (p : Fin 1024) :
    multiReduction (F := Ideal) .add [1] S1024 (expBlk z) 0x00000000#32 reduces_S1024x1024_S1024 (.inl rfl) rfl (ix1 p)
      = ∑ k : Fin 1024, Ideal.exp (z (ix2 p k) - Pool.rowShift z p) :=
  (RowReduce.multiReduction_add_row (expBlk z) _ _ _ _ p).trans
    (Finset.sum_congr rfl fun k _ => expBlk_apply z p k)

/-- An entry of the softmax block is the row softmax's entry. -/
theorem softBlk_apply (z : FVec Ideal S1024x1024 .f32) (p q : Fin 1024) :
    softBlk z (ix2 p q) = Pool.softmaxRows z (ix2 p q) := by
  rw [Pool.softmaxRows_apply]
  refine (truncf_apply (ψ := .bf16) _ bitsLt_bf16_f32 (ix2 p q)).trans ?_
  refine (divf_apply _ _ (ix2 p q)).trans ?_
  refine congrArg₂ Ideal.div (expBlk_apply z p q) ?_
  refine (ValueIdx.broadcastTo_a1_ab_apply _ _ p q).trans ?_
  refine (RowReduce.shapeCast_a_a1_apply _ _ p (0 : Fin 1)).trans ?_
  exact rowSumExp_apply z p

/-- The stored value at row `p`, column `q` of the block is the assignment matrix of the block of rows there. -/
theorem pay_apply (x0 : Vec Ideal S1024x64 .f32) (w1 : Vec Ideal S64x16 .f32) (b1 : Vec Ideal S16 .f32)
    (w2 : Vec Ideal S16x1024 .f32) (b2 : Vec Ideal S1024 .f32) (p q : Fin 1024) :
    k0_pay1 x0 w1 b1 w2 b2 (ix2 p q) = Pool.assign x0 w1 b1 w2 b2 (ix2 p q) := by
  rw [pay_stages, logitBlk_eq]
  exact softBlk_apply _ p q

/-! ## From the blocks to the array -/

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The index maps over the grid: the blocks of rows of `X` and of `S` move with the point, the weights and biases stay. -/
theorem idx_facts : ∀ t : Fin cfg0.N,
    win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0 :=
  (by decide +kernel : ∀ t : Fin grid0.N, _)

theorem point_lt (t : Fin cfg0.N) : t.val < 8 := by
  have hN : cfg0.N = 8 := N_0
  have := t.isLt
  omega

/-- The block of rows of `X` at point `t`: row `p` of the block is row `1024 t + p` of `X`. -/
theorem rows_apply (c : Dev nD) (t : Fin cfg0.N) (p : Fin 1024) (k : Fin 64) (r : Fin 8192)
    (hr : r.val = 1024 * t.val + p.val) :
    (iblk0 V c 0 t : Vec Ideal S1024x64 .f32) (ix2 p k) = (V c main_arg0 : Pool.Mat 8192 64) (ix2 r k) := by
  obtain ⟨e0, e1, -⟩ := idx_facts t
  unfold iblk0
  rw [View.read_apply]
  show V c main_arg0 _ = V c main_arg0 _
  refine congrArg (V c main_arg0) ?_
  funext a
  apply Fin.ext
  match a with
  | ⟨0, _⟩ => show win0_0.index t (0 : Fin 2) * 1024 + 1 * p.val = r.val; omega
  | ⟨1, _⟩ => show win0_0.index t (1 : Fin 2) * 64 + 1 * k.val = k.val; omega

/-- The first weight matrix is one block, the same at every point. -/
theorem w1_eq (c : Dev nD) (t : Fin cfg0.N) :
    (iblk0 V c 1 t : Vec Ideal S64x16 .f32) = (V c main_arg3 : Pool.Mat 64 16) := by
  obtain ⟨-, -, -, -, e0, e1, -⟩ := idx_facts t
  funext y
  unfold iblk0
  rw [View.read_apply]
  show V c main_arg3 _ = V c main_arg3 y
  refine congrArg (V c main_arg3) ?_
  funext a
  apply Fin.ext
  match a with
  | ⟨0, _⟩ => show win0_1.index t (0 : Fin 2) * 64 + 1 * (y 0).val = (y 0).val; omega
  | ⟨1, _⟩ => show win0_1.index t (1 : Fin 2) * 16 + 1 * (y 1).val = (y 1).val; omega

/-- The first bias is one block, the same at every point. -/
theorem b1_eq (c : Dev nD) (t : Fin cfg0.N) :
    (iblk0 V c 2 t : Vec Ideal S16 .f32) = (V c main_arg4 : Pool.Vect 16) := by
  obtain ⟨-, -, -, -, -, -, e0, -⟩ := idx_facts t
  funext y
  unfold iblk0
  rw [View.read_apply]
  show V c main_arg4 _ = V c main_arg4 y
  refine congrArg (V c main_arg4) ?_
  funext a
  apply Fin.ext
  match a with
  | ⟨0, _⟩ => show win0_2.index t (0 : Fin 1) * 16 + 1 * (y 0).val = (y 0).val; omega

/-- The second weight matrix is one block, the same at every point. -/
theorem w2_eq (c : Dev nD) (t : Fin cfg0.N) :
    (iblk0 V c 3 t : Vec Ideal S16x1024 .f32) = (V c main_arg5 : Pool.Mat 16 1024) := by
  obtain ⟨-, -, -, -, -, -, -, e0, e1, -⟩ := idx_facts t
  funext y
  unfold iblk0
  rw [View.read_apply]
  show V c main_arg5 _ = V c main_arg5 y
  refine congrArg (V c main_arg5) ?_
  funext a
  apply Fin.ext
  match a with
  | ⟨0, _⟩ => show win0_3.index t (0 : Fin 2) * 16 + 1 * (y 0).val = (y 0).val; omega
  | ⟨1, _⟩ => show win0_3.index t (1 : Fin 2) * 1024 + 1 * (y 1).val = (y 1).val; omega

/-- The second bias is one block, the same at every point. -/
theorem b2_eq (c : Dev nD) (t : Fin cfg0.N) :
    (iblk0 V c 4 t : Vec Ideal S1024 .f32) = (V c main_arg6 : Pool.Vect 1024) := by
  obtain ⟨-, -, -, -, -, -, -, -, -, e0⟩ := idx_facts t
  funext y
  unfold iblk0
  rw [View.read_apply]
  show V c main_arg6 _ = V c main_arg6 y
  refine congrArg (V c main_arg6) ?_
  funext a
  apply Fin.ext
  match a with
  | ⟨0, _⟩ => show win0_4.index t (0 : Fin 1) * 1024 + 1 * (y 0).val = (y 0).val; omega

/-- The assignment matrix of the whole `X` as the region finds the arrays. -/
abbrev wholeS (c : Dev nD) : Pool.Mat 8192 1024 :=
  Pool.assign (V c main_arg0 : Pool.Mat 8192 64) (V c main_arg3 : Pool.Mat 64 16) (V c main_arg4 : Pool.Vect 16)
    (V c main_arg5 : Pool.Mat 16 1024) (V c main_arg6 : Pool.Vect 1024)

/-- What point `t` writes back is block `t` of rows of the assignment matrix of the whole `X`. -/
theorem flushed_eq (c : Dev nD) (t : Fin cfg0.N) :
    (dat0 (F := Ideal) V c).flushed 5 t = ((cfg0.win 5).blk t).view.read (Elt Ideal) (wholeS V c) := by
  show (cfg0.win 5).cut (grid0.coords t) ((dat0 V c).after 5 t) = _
  rw [after0_5]
  unfold out0_5
  rw [View.canon_unit_zero zero2]
  simp only [View.ld_unit_zero (S := S1024x64) zero2, View.ld_unit_zero (S := S64x16) zero2,
    View.ld_unit_zero (S := S16) zero1, View.ld_unit_zero (S := S16x1024) zero2, View.ld_unit_zero (S := S1024) zero1]
  rw [w1_eq V c t, b1_eq V c t, w2_eq V c t, b2_eq V c t]
  obtain ⟨-, -, e0, e1, -⟩ := idx_facts t
  have ht := point_lt t
  refine funext fun (j : S1024x1024.Idx) => ?_
  obtain ⟨p, q, rfl⟩ : ∃ (p q : Fin 1024), j = ix2 p q := ⟨j 0, j 1, eq_ix2 j⟩
  have hr : 1024 * t.val + p.val < 8192 := by have := p.isLt; omega
  show k0_pay1 (iblk0 V c 0 t) (V c main_arg3) (V c main_arg4) (V c main_arg5) (V c main_arg6) (ix2 p q)
    = wholeS V c (((cfg0.win 5).blk t).view.emb (ix2 p q))
  refine (pay_apply (iblk0 V c 0 t) (V c main_arg3) (V c main_arg4) (V c main_arg5) (V c main_arg6) p q).trans ?_
  refine (Pool.assign_rows (V c main_arg0 : Pool.Mat 8192 64) (iblk0 V c 0 t : Vec Ideal S1024x64 .f32)
    (V c main_arg3 : Pool.Mat 64 16) (V c main_arg4 : Pool.Vect 16) (V c main_arg5 : Pool.Mat 16 1024)
    (V c main_arg6 : Pool.Vect 1024) (⟨1024 * t.val + p.val, hr⟩ : Fin 8192) p
    (fun k => rows_apply V c t p k ⟨1024 * t.val + p.val, hr⟩ rfl) q).trans ?_
  refine congrArg (wholeS V c) ?_
  funext a
  apply Fin.ext
  match a with
  | ⟨0, _⟩ => show 1024 * t.val + p.val = win0_5.index t (0 : Fin 2) * 1024 + 1 * p.val; omega
  | ⟨1, _⟩ => show q.val = win0_5.index t (1 : Fin 2) * 1024 + 1 * q.val; omega

/-- Every row of `S` lies in the block of rows written back at the point `row / 1024`. -/
theorem covered (c : Dev nD) (i : ((cfg0.win 5).arr.view.loc (c.tc : Thread nD τ)).2.ty.Idx) :
    ∃ t : Fin cfg0.N, (cfg0.win 5).flush t = true ∧ i ∈ ((cfg0.win 5).blk t).view.set := by
  have hi0 : (i 0).val < 8192 := (i 0).isLt
  have hi1 : (i 1).val < 1024 := (i 1).isLt
  have hN : cfg0.N = 8 := N_0
  obtain ⟨t, htv⟩ : ∃ t : Fin cfg0.N, t.val = (i 0).val / 1024 := ⟨⟨(i 0).val / 1024, by omega⟩, rfl⟩
  obtain ⟨-, -, e0, e1, -⟩ := idx_facts t
  refine ⟨t, flush0_5 t, ?_⟩
  show i ∈ ((View.whole main_call0_v0).slice (win0_5.rect t)).set
  rw [View.set_slice_whole, Rect.mem_set_unit]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 1024 ≤ (i 1).val ∧ (i 1).val < win0_5.index t (1 : Fin 2) * 1024 + 1024
    omega

/-- After the region the array S holds the assignment matrix of the whole X. -/
theorem s_value (c : Dev nD) :
    (dat0 (F := Ideal) V c).arrAt 5 cfg0.N
      = Pool.assign (V c main_arg0) (V c main_arg3) (V c main_arg4) (V c main_arg5) (V c main_arg6) :=
  (dat0 (F := Ideal) V c).arrAt_eq_of_cover 5 (wholeS V c) (fun t _ => flushed_eq V c t) (covered c)

end Cert.KernelIdeal.Region0

end
-- ==== Proof.LibRunningSum.lean ====
/-
  A running sum over the steps of a grid.

  An accumulator that is zeroed and given `T 0` at the first step, and given `T (n + 1)` more at every later step,
  holds after step `n` the sum of `T 0 … T n`; after the last of `N + 1` steps it holds the sum over `Fin (N + 1)`.
  Stated over any additive commutative monoid: nothing but associativity and `0 + x = x` is used, so it holds on
  the extended reals with their infinities.
-/
import Mathlib.Algebra.BigOperators.Fin

noncomputable section

namespace Idealize.ShloMosaic.RunningSum

variable {M : Type*} [AddCommMonoid M]

/-- The running sum after step `n`: `0 + T 0` first, then `+ T (n + 1)`. -/
def running (T : ℕ → M) : ℕ → M
  | 0 => 0 + T 0
  | n + 1 => running T n + T (n + 1)

/-- The running sum after step `n` is the sum of the first `n + 1` terms. -/
theorem running_eq_sum (T : ℕ → M) (n : ℕ) : running T n = ∑ t ∈ Finset.range (n + 1), T t := by
  induction n with
  | zero => simp [running]
  | succ n ih => rw [running, ih, Finset.sum_range_succ _ (n + 1)]

/-- After the last of `N + 1` steps it is the sum over `Fin (N + 1)`. -/
theorem running_last (T : ℕ → M) (N : ℕ) : running T N = ∑ b : Fin (N + 1), T b.val := by
  rw [running_eq_sum, Finset.sum_range]

end Idealize.ShloMosaic.RunningSum

end
-- ==== Proof.Region1.lean ====
/-
  The value of the second region: the product `A · S` and the row sums of `A`, accumulated over column blocks.

  The grid has 16 × 8 points; point `t = 8 i + j` works on row block `i` (512 rows) and column block `j` (1024
  columns) of the adjacency array `A`. The assignment array `S` is staged whole, and the body reads its rows
  `1024 j … 1024 j + 1023` itself. At `j = 0` the body stores zero blocks and adds the first terms to them; at
  `j > 0` it adds to what the point before left. So after point `8 i + j` the product's staging block holds, at
  `(p, q)`,
      ∑_{j' ≤ j} ∑_{k < 1024} A (512 i + p, 1024 j' + k) · S (1024 j' + k, q),
  and the row sums' block holds, at `p`, ∑_{j' ≤ j} ∑_{k < 1024} A (512 i + p, 1024 j' + k). Both blocks are written
  back at `j = 7`, where the double sums are the sums over all 8192 columns: a sum over `8 · 1024` positions is the
  sum over the 8 blocks of the sums over the 1024 positions of a block. Only commutativity and associativity of the
  addition of extended reals (and `0 + x = x`) are used; nothing needs to be finite.
-/
import proofs.«116769_j12343736009109_2_alg».proof.Proof.Gen.KernelIdeal.Frame
import proofs.«116769_j12343736009109_2_alg».proof.Proof.Spec
import proofs.«116769_j12343736009109_2_alg».proof.Proof.LibPlainDot
import proofs.«116769_j12343736009109_2_alg».proof.Proof.LibMatProd
import proofs.«116769_j12343736009109_2_alg».proof.Proof.LibRowReduce
import proofs.«116769_j12343736009109_2_alg».proof.Proof.LibRunningSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Region1
open Cert.KernelIdeal Cert.KernelIdeal.Gen

section Pieces
variable {F : FTy → Type} [FloatOps F]

/-- The zero offsets of a whole-block access, in both spellings. -/
theorem hz2 : (![0, 0] : Fin 2 → Nat) = fun _ => 0 := funext fun a => by fin_cases a <;> rfl
theorem hz1 : (![0] : Fin 1 → Nat) = fun _ => 0 := funext fun a => by fin_cases a <;> rfl

/-- The 1024 rows of the assignment array that the body reads at a point: rows `(k1_off1 i) 0 + k`. -/
abbrev sRows (i : grid1.Coords) (x1 : Vec F S8192x1024 .bf16) : Vec F S1024x1024 .bf16 :=
  View.ld x1 (Rect.unit (s := S8192x1024) (k1_off1 i) S1024x1024.size (k1_off1_inb i))

/-- At a later column block the product's block is the product step applied to the adjacency block, the 1024 rows of
    the assignment array and what the block held. -/
theorem out_B_2 (c : Dev nD) (i : grid1.Coords) (a2 : Memref sig .tc .vmem S512x1024 .f32) (h2 : a2.IsWhole)
    (a3 : Memref sig .tc .vmem S8192x1024 .bf16) (h3 : a3.IsWhole) (a4 : Memref sig .tc .vmem S512x1024 .f32) (h4 : a4.IsWhole)
    (a5 : Memref sig .tc .vmem S512 .f32) (h5 : a5.IsWhole) (hc : ¬cond1_0 i)
    (x0 : Vec F S512x1024 .f32) (x1 : Vec F S8192x1024 .bf16) (xo2 : Vec F S512x1024 .f32) (xo3 : Vec F S512 .f32) :
    out1_B_2 c i a2 h2 a3 h3 a4 h4 a5 h5 hc x0 x1 xo2 xo3 = k1_pay3 x0 (sRows i x1) xo2 := by
  unfold out1_B_2
  rw [View.read_writes_eq_canon _ _ _ (cover1_B_2 c i a2 h2 a3 h3 a4 h4 a5 h5 hc x0 x1 xo2 xo3)]
  unfold kernelRun1_B
  dsimp only
  rw [View.canon_unit_zero (S := S512x1024) hz2]
  simp only [View.readAt_eq_ld, h2.read_unread, h3.read_unread, h4.read_unread, View.ld_unit_zero (S := S512x1024) hz2]

/-- At a later column block the row sums' block is the row-sum step applied to the adjacency block and what the block
    held. -/
theorem out_B_3 (c : Dev nD) (i : grid1.Coords) (a2 : Memref sig .tc .vmem S512x1024 .f32) (h2 : a2.IsWhole)
    (a3 : Memref sig .tc .vmem S8192x1024 .bf16) (h3 : a3.IsWhole) (a4 : Memref sig .tc .vmem S512x1024 .f32) (h4 : a4.IsWhole)
    (a5 : Memref sig .tc .vmem S512 .f32) (h5 : a5.IsWhole) (hc : ¬cond1_0 i)
    (x0 : Vec F S512x1024 .f32) (x1 : Vec F S8192x1024 .bf16) (xo2 : Vec F S512x1024 .f32) (xo3 : Vec F S512 .f32) :
    out1_B_3 c i a2 h2 a3 h3 a4 h4 a5 h5 hc x0 x1 xo2 xo3 = k1_pay4 x0 xo3 := by
  unfold out1_B_3
  rw [View.read_writes_eq_canon _ _ _ (cover1_B_3 c i a2 h2 a3 h3 a4 h4 a5 h5 hc x0 x1 xo2 xo3)]
  unfold kernelRun1_B
  dsimp only
  rw [View.canon_unit_zero (S := S512) hz1]
  simp only [View.readAt_eq_ld, h2.read_unread, h5.read_unread, View.ld_unit_zero (S := S512x1024) hz2,
    View.ld_unit_zero (S := S512) hz1]

/-- At the first column block the zero block is stored first and read back: the product step applied to it. -/
theorem out_A_2 (c : Dev nD) (i : grid1.Coords) (a2 : Memref sig .tc .vmem S512x1024 .f32) (h2 : a2.IsWhole)
    (a3 : Memref sig .tc .vmem S8192x1024 .bf16) (h3 : a3.IsWhole) (a4 : Memref sig .tc .vmem S512x1024 .f32) (h4 : a4.IsWhole)
    (a5 : Memref sig .tc .vmem S512 .f32) (h5 : a5.IsWhole) (hc : cond1_0 i)
    (x0 : Vec F S512x1024 .f32) (x1 : Vec F S8192x1024 .bf16) :
    out1_A_2 c i a2 h2 a3 h3 a4 h4 a5 h5 hc x0 x1 = k1_pay3 x0 (sRows i x1) (k1_pay1 (F := F)) := by
  unfold out1_A_2
  rw [View.read_writes_eq_canon _ _ _ (cover1_A_2 c i a2 h2 a3 h3 a4 h4 a5 h5 hc x0 x1)]
  unfold kernelRun1_A
  dsimp only
  sl_unfold_run_names
  rw [View.canon_cons_unit_zero (S := S512x1024) hz2, View.readCov_unit_zero (S := S512x1024) _ hz2]
  simp only [View.readAt_eq_ld, h2.read_unread, h3.read_unread, View.ld_unit_zero (S := S512x1024) hz2]

/-- At the first column block the row-sum step is applied to the stored zero block. -/
theorem out_A_3 (c : Dev nD) (i : grid1.Coords) (a2 : Memref sig .tc .vmem S512x1024 .f32) (h2 : a2.IsWhole)
    (a3 : Memref sig .tc .vmem S8192x1024 .bf16) (h3 : a3.IsWhole) (a4 : Memref sig .tc .vmem S512x1024 .f32) (h4 : a4.IsWhole)
    (a5 : Memref sig .tc .vmem S512 .f32) (h5 : a5.IsWhole) (hc : cond1_0 i)
    (x0 : Vec F S512x1024 .f32) (x1 : Vec F S8192x1024 .bf16) :
    out1_A_3 c i a2 h2 a3 h3 a4 h4 a5 h5 hc x0 x1 = k1_pay4 x0 (k1_pay2 (F := F)) := by
  unfold out1_A_3
  rw [View.read_writes_eq_canon _ _ _ (cover1_A_3 c i a2 h2 a3 h3 a4 h4 a5 h5 hc x0 x1)]
  unfold kernelRun1_A
  dsimp only
  sl_unfold_run_names
  rw [View.canon_cons_unit_zero (S := S512) hz1, View.readCov_unit_zero (S := S512) _ hz1]
  simp only [View.readAt_eq_ld, h2.read_unread, View.ld_unit_zero (S := S512x1024) hz2]

end Pieces

section Payloads

/-- The dimension numbers of the body's product are the plain ones of a 512×1024 by 1024×1024 product. -/
theorem dot_plain : dot_S512x1024_S1024x1024_S512x1024_1_0_0_1_n_n = DotDims.plain 512 1024 1024 := rfl

/-- The product step at an entry: what the block held plus the sum over the block's 1024 columns. -/
theorem pay3_apply (x0 : Vec Ideal S512x1024 .f32) (v8 : Vec Ideal S1024x1024 .bf16) (acc : Vec Ideal S512x1024 .f32)
    (p : Fin 512) (q : Fin 1024) :
    k1_pay3 (F := Ideal) x0 v8 acc (ix2 p q) = acc (ix2 p q) + ∑ k : Fin 1024, x0 (ix2 p k) * v8 (ix2 k q) := by
  unfold k1_pay3
  refine (addf_apply _ _ _).trans ?_
  refine congrArg₂ (· + ·) (congrFun (shapeCast_self acc _) (ix2 p q)) ?_
  refine (PlainDot.matmul_zero_apply _ dot_plain none _ _ p q).trans ?_
  exact Finset.sum_congr rfl fun k _ => congrArg₂ (· * ·) rfl (congrFun (shapeCast_self v8 _) (ix2 k q))

/-- The row-sum step at a row: what the block held plus the sum of the row's 1024 entries. -/
theorem pay4_apply (x0 : Vec Ideal S512x1024 .f32) (acc : Vec Ideal S512 .f32) (p : Fin 512) :
    k1_pay4 (F := Ideal) x0 acc (ix1 p) = acc (ix1 p) + ∑ k : Fin 1024, x0 (ix2 p k) := by
  unfold k1_pay4
  refine (addf_apply _ _ _).trans ?_
  refine congrArg₂ (· + ·) (congrFun (shapeCast_self acc _) (ix1 p)) ?_
  exact RowReduce.multiReduction_add_row x0 _ _ _ _ p

/-- The zero block of the product, at an entry. -/
theorem pay1_apply (j : S512x1024.Idx) : k1_pay1 (F := Ideal) j = 0 := Ideal.ofBits_zero_f32

/-- The zero block of the row sums, at a row. -/
theorem pay2_apply (j : S512.Idx) : k1_pay2 (F := Ideal) j = 0 := Ideal.ofBits_zero_f32

end Payloads

section Blocks

variable (V : (c : Dev nD) → (b : Ref sig .tc) → Buf (Elt Ideal) ((c : Thread nD τ).loc b))

/-- The adjacency array and the assignment array as the region finds them. -/
abbrev arrA (c : Dev nD) : FVec Ideal S8192x8192 .f32 := V c main_arg1
abbrev arrS (c : Dev nD) : FVec Ideal S8192x1024 .bf16 := V c main_call0_v0

/-- Point `t` is row block `t / 8` and column block `t % 8` of the adjacency array. -/
theorem idxA : ∀ t : Fin cfg1.N, win1_0.index t 0 = t.val / 8 ∧ win1_0.index t 1 = t.val % 8 :=
  (by decide +kernel : ∀ t : Fin grid1.N, win1_0.index t 0 = t.val / 8 ∧ win1_0.index t 1 = t.val % 8)

/-- The assignment array is staged whole at every point. -/
theorem idxS : ∀ t : Fin cfg1.N, win1_1.index t 0 = 0 ∧ win1_1.index t 1 = 0 :=
  (by decide +kernel : ∀ t : Fin grid1.N, win1_1.index t 0 = 0 ∧ win1_1.index t 1 = 0)

/-- The rows of the assignment array the body reads at point `t` start at `1024 * (t % 8)`. -/
theorem offS : ∀ t : Fin cfg1.N, (k1_off1 (grid1.coords t)) 0 = 1024 * (t.val % 8) ∧ (k1_off1 (grid1.coords t)) 1 = 0 :=
  (by decide +kernel : ∀ t : Fin grid1.N, (k1_off1 (grid1.coords t)) 0 = 1024 * (t.val % 8) ∧ (k1_off1 (grid1.coords t)) 1 = 0)

/-- The two staged input blocks at point `t`. -/
abbrev blkA (c : Dev nD) (t : Fin cfg1.N) : Vec Ideal S512x1024 .f32 := iblk1 V c 0 t
abbrev blkS (c : Dev nD) (t : Fin cfg1.N) : Vec Ideal S8192x1024 .bf16 := iblk1 V c 1 t

/-- The adjacency block at point `t`, entry `(p, k)`: the array at row `512 (t / 8) + p`, column `1024 (t % 8) + k`
    (a block's coordinate is the block index times the block size plus the coordinate inside the block). -/
theorem blkA_apply (c : Dev nD) (t : Fin cfg1.N) (p : Fin 512) (k : Fin 1024) (r s : Fin 8192)
    (hr : r.val = 512 * (t.val / 8) + p.val) (hs : s.val = 1024 * (t.val % 8) + k.val) :
    blkA V c t (ix2 p k) = arrA V c (ix2 r s) := by
  have hi := idxA t
  unfold blkA iblk1
  rw [View.read_apply]
  show V c main_arg1 _ = V c main_arg1 _
  refine congrArg (V c main_arg1) ?_
  funext a
  apply Fin.ext
  match a with
  | ⟨0, _⟩ => show win1_0.index t 0 * 512 + 1 * p.val = r.val; rw [hi.1, hr]; omega
  | ⟨1, _⟩ => show win1_0.index t 1 * 1024 + 1 * k.val = s.val; rw [hi.2, hs]; omega

/-- The staged assignment block is the whole array. -/
theorem blkS_apply (c : Dev nD) (t : Fin cfg1.N) (r : Fin 8192) (q : Fin 1024) :
    blkS V c t (ix2 r q) = arrS V c (ix2 r q) := by
  have hi := idxS t
  unfold blkS iblk1
  rw [View.read_apply]
  show V c main_call0_v0 _ = V c main_call0_v0 _
  refine congrArg (V c main_call0_v0) ?_
  funext a
  apply Fin.ext
  match a with
  | ⟨0, _⟩ => show win1_1.index t 0 * 8192 + 1 * r.val = r.val; rw [hi.1]; omega
  | ⟨1, _⟩ => show win1_1.index t 1 * 1024 + 1 * q.val = q.val; rw [hi.2]; omega

/-- Row `k` of the 1024 rows the body reads is row `(k1_off1 i) 0 + k` of the staged array. -/
theorem sRows_apply (i : grid1.Coords) (x1 : Vec Ideal S8192x1024 .bf16) (k q : Fin 1024) (r : Fin 8192)
    (hr : r.val = (k1_off1 i) 0 + k.val) (h1 : (k1_off1 i) 1 = 0) :
    sRows i x1 (ix2 k q) = x1 (ix2 r q) := by
  show x1 _ = x1 _
  refine congrArg x1 ?_
  funext a
  apply Fin.ext
  match a with
  | ⟨0, _⟩ => show (k1_off1 i) 0 + 1 * k.val = r.val; omega
  | ⟨1, _⟩ => show (k1_off1 i) 1 + 1 * q.val = q.val; omega

end Blocks

section Invariant

variable (V : (c : Dev nD) → (b : Ref sig .tc) → Buf (Elt Ideal) ((c : Thread nD τ).loc b))

/-- Case A (the first column block of a row block): both outputs are the step applied to the zero blocks. -/
theorem outs_A (c : Dev nD) (t : Fin cfg1.N) (h0 : t.val % 8 = 0) :
    outsAt1 (F := Ideal) V c t.val t.isLt
      = (k1_pay3 (blkA V c t) (sRows (grid1.coords t) (blkS V c t)) (k1_pay1 (F := Ideal)),
         k1_pay4 (blkA V c t) (k1_pay2 (F := Ideal))) :=
  (outsAt1_A V c t h0).trans (congrArg₂ Prod.mk
    (out_A_2 (F := Ideal) c (grid1.coords t) (ms1_0 t) (hs1_0 t) (ms1_1 t) (hs1_1 t) (ms1_2 t) (hs1_2 t) (ms1_3 t) (hs1_3 t)
      ((hcond1_0 t).mpr h0) (iblk1 V c 0 t) (iblk1 V c 1 t))
    (out_A_3 (F := Ideal) c (grid1.coords t) (ms1_0 t) (hs1_0 t) (ms1_1 t) (hs1_1 t) (ms1_2 t) (hs1_2 t) (ms1_3 t) (hs1_3 t)
      ((hcond1_0 t).mpr h0) (iblk1 V c 0 t) (iblk1 V c 1 t)))

/-- Case B (a later column block): both outputs are the step applied to what the point before left. -/
theorem outs_B (c : Dev nD) (t : Fin cfg1.N) (h0 : ¬t.val % 8 = 0) :
    outsAt1 (F := Ideal) V c t.val t.isLt
      = (k1_pay3 (blkA V c t) (sRows (grid1.coords t) (blkS V c t))
           (outsAt1 (F := Ideal) V c (t.val - 1) (Nat.lt_of_le_of_lt (Nat.sub_le _ _) t.isLt)).1,
         k1_pay4 (blkA V c t) (outsAt1 (F := Ideal) V c (t.val - 1) (Nat.lt_of_le_of_lt (Nat.sub_le _ _) t.isLt)).2) :=
  (outsAt1_B V c t h0).trans (congrArg₂ Prod.mk
    (out_B_2 (F := Ideal) c (grid1.coords t) (ms1_0 t) (hs1_0 t) (ms1_1 t) (hs1_1 t) (ms1_2 t) (hs1_2 t) (ms1_3 t) (hs1_3 t)
      (fun h => h0 ((hcond1_0 t).mp h)) (iblk1 V c 0 t) (iblk1 V c 1 t)
      (outsAt1 (F := Ideal) V c (t.val - 1) (Nat.lt_of_le_of_lt (Nat.sub_le _ _) t.isLt)).1
      (outsAt1 (F := Ideal) V c (t.val - 1) (Nat.lt_of_le_of_lt (Nat.sub_le _ _) t.isLt)).2)
    (out_B_3 (F := Ideal) c (grid1.coords t) (ms1_0 t) (hs1_0 t) (ms1_1 t) (hs1_1 t) (ms1_2 t) (hs1_2 t) (ms1_3 t) (hs1_3 t)
      (fun h => h0 ((hcond1_0 t).mp h)) (iblk1 V c 0 t) (iblk1 V c 1 t)
      (outsAt1 (F := Ideal) V c (t.val - 1) (Nat.lt_of_le_of_lt (Nat.sub_le _ _) t.isLt)).1
      (outsAt1 (F := Ideal) V c (t.val - 1) (Nat.lt_of_le_of_lt (Nat.sub_le _ _) t.isLt)).2))

/-- An array read at natural coordinates, zero outside its extents (only coordinates inside are ever used). -/
def ext2 {M N : ℕ} (a : Pool.Mat M N) (r s : ℕ) : EReal :=
  if h : r < M ∧ s < N then a (ix2 ⟨r, h.1⟩ ⟨s, h.2⟩) else 0

/-- Inside the extents it is the array's entry. -/
theorem ext2_eq {M N : ℕ} (a : Pool.Mat M N) (r s : ℕ) (r' : Fin M) (s' : Fin N) (hr : r'.val = r) (hs : s'.val = s) :
    ext2 a r s = a (ix2 r' s') := by
  subst hr hs
  exact dif_pos ⟨r'.isLt, s'.isLt⟩

/-- The part of entry `(512 i + p, q)` of the product that column block `j` of the adjacency array contributes. -/
def prodTerm (c : Dev nD) (i : ℕ) (p : Fin 512) (q : Fin 1024) (j : ℕ) : EReal :=
  ∑ k : Fin 1024, ext2 (arrA V c) (512 * i + p.val) (1024 * j + k.val) * ext2 (arrS V c) (1024 * j + k.val) q.val

/-- The part of the sum of row `512 i + p` that column block `j` contributes. -/
def degTerm (c : Dev nD) (i : ℕ) (p : Fin 512) (j : ℕ) : EReal :=
  ∑ k : Fin 1024, ext2 (arrA V c) (512 * i + p.val) (1024 * j + k.val)

/-- The product of the two staged blocks at point `t` is the term of row block `t / 8`, column block `t % 8`. -/
theorem prod_step (c : Dev nD) (t : Fin cfg1.N) (p : Fin 512) (q : Fin 1024) :
    ∑ k : Fin 1024, blkA V c t (ix2 p k)
        * sRows (grid1.coords t) (blkS V c t) (ix2 k q)
      = prodTerm V c (t.val / 8) p q (t.val % 8) := by
  have hN : cfg1.N = 128 := N_1
  have ht := t.isLt
  have hp := p.isLt
  refine Finset.sum_congr rfl fun k _ => ?_
  have hk := k.isLt
  have hr : 512 * (t.val / 8) + p.val < 8192 := by omega
  have hs : 1024 * (t.val % 8) + k.val < 8192 := by omega
  exact congrArg₂ (· * ·)
    ((blkA_apply V c t p k ⟨_, hr⟩ ⟨_, hs⟩ rfl rfl).trans (ext2_eq (arrA V c) _ _ ⟨_, hr⟩ ⟨_, hs⟩ rfl rfl).symm)
    (((sRows_apply (grid1.coords t) (blkS V c t) k q ⟨_, hs⟩ (by rw [(offS t).1]) (offS t).2).trans
      (blkS_apply V c t ⟨_, hs⟩ q)).trans (ext2_eq (arrS V c) _ _ ⟨_, hs⟩ q rfl rfl).symm)

/-- The row sum of the staged adjacency block at point `t` is the term of row block `t / 8`, column block `t % 8`. -/
theorem deg_step (c : Dev nD) (t : Fin cfg1.N) (p : Fin 512) :
    ∑ k : Fin 1024, blkA V c t (ix2 p k) = degTerm V c (t.val / 8) p (t.val % 8) := by
  have hN : cfg1.N = 128 := N_1
  have ht := t.isLt
  have hp := p.isLt
  refine Finset.sum_congr rfl fun k _ => ?_
  have hk := k.isLt
  have hr : 512 * (t.val / 8) + p.val < 8192 := by omega
  have hs : 1024 * (t.val % 8) + k.val < 8192 := by omega
  exact (blkA_apply V c t p k ⟨_, hr⟩ ⟨_, hs⟩ rfl rfl).trans (ext2_eq (arrA V c) _ _ ⟨_, hr⟩ ⟨_, hs⟩ rfl rfl).symm

/-- The two staging blocks hold the running sums of row block `i` through column block `j`. -/
def Good (c : Dev nD) (i j : ℕ) (o : Vec Ideal S512x1024 .f32 × Vec Ideal S512 .f32) : Prop :=
  (∀ (p : Fin 512) (q : Fin 1024), o.1 (ix2 p q) = RunningSum.running (prodTerm V c i p q) j)
    ∧ ∀ p : Fin 512, o.2 (ix1 p) = RunningSum.running (degTerm V c i p) j

/-- The first column block of a row block: `0 +` the first term. -/
theorem good_A (c : Dev nD) (t : Fin cfg1.N) (h0 : t.val % 8 = 0) (i : ℕ) (hi : t.val / 8 = i) :
    Good V c i 0 (outsAt1 (F := Ideal) V c t.val t.isLt) := by
  rw [outs_A V c t h0]
  refine ⟨fun p q => ?_, fun p => ?_⟩
  · refine (pay3_apply _ _ _ p q).trans (congrArg₂ (· + ·) (pay1_apply _) ((prod_step V c t p q).trans ?_))
    rw [hi, h0]
  · refine (pay4_apply _ _ p).trans (congrArg₂ (· + ·) (pay2_apply _) ((deg_step V c t p).trans ?_))
    rw [hi, h0]

/-- A later column block: the running sum so far plus the next term. -/
theorem good_B (c : Dev nD) (t : Fin cfg1.N) (h0 : ¬t.val % 8 = 0) (i j : ℕ) (hi : t.val / 8 = i) (hj : t.val % 8 = j + 1)
    (ih : Good V c i j (outsAt1 (F := Ideal) V c (t.val - 1) (Nat.lt_of_le_of_lt (Nat.sub_le _ _) t.isLt))) :
    Good V c i (j + 1) (outsAt1 (F := Ideal) V c t.val t.isLt) := by
  rw [outs_B V c t h0]
  refine ⟨fun p q => ?_, fun p => ?_⟩
  · refine (pay3_apply _ _ _ p q).trans (congrArg₂ (· + ·) (ih.1 p q) ((prod_step V c t p q).trans ?_))
    rw [hi, hj]
  · refine (pay4_apply _ _ p).trans (congrArg₂ (· + ·) (ih.2 p) ((deg_step V c t p).trans ?_))
    rw [hi, hj]

/-- After every point the staging blocks hold the running sums: by induction on the point. -/
theorem good (c : Dev nD) : ∀ (n : ℕ) (hn : n < cfg1.N), Good V c (n / 8) (n % 8) (outsAt1 (F := Ideal) V c n hn)
  | 0, hn => good_A V c ⟨0, hn⟩ (Nat.zero_mod 8) 0 (Nat.zero_div 8)
  | n + 1, hn => by
    by_cases h0 : (n + 1) % 8 = 0
    · rw [h0]
      exact good_A V c ⟨n + 1, hn⟩ h0 _ rfl
    · have hi : (n + 1) / 8 = n / 8 := by omega
      have hj : (n + 1) % 8 = n % 8 + 1 := by omega
      rw [hi, hj]
      exact good_B V c ⟨n + 1, hn⟩ h0 (n / 8) (n % 8) hi hj (good c n (Nat.lt_of_succ_lt hn))

end Invariant

section Whole

variable (V : (c : Dev nD) → (b : Ref sig .tc) → Buf (Elt Ideal) ((c : Thread nD τ).loc b))

/-- Position `k` of column block `b` is column `1024 b + k`. -/
theorem blockPos (b : Fin 8) (k : Fin 1024) : (finProdFinEquiv (b, k)).val = 1024 * b.val + k.val := by
  rw [finProdFinEquiv_apply_val]
  exact Nat.add_comm _ _

/-- The eight column-block terms of a row add up to the whole entry of the product: a sum over 8192 positions is
    the sum over the 8 blocks of the sums over the 1024 positions of a block. -/
theorem prod_whole (c : Dev nD) (i : ℕ) (p : Fin 512) (q : Fin 1024) (r : Fin 8192) (hr : r.val = 512 * i + p.val) :
    ∑ b : Fin 8, prodTerm V c i p q b.val = MatProd.matProd (arrA V c) (arrS V c) (ix2 r q) := by
  show _ = ∑ kk : Fin (8 * 1024), arrA V c (ix2 r kk) * arrS V c (ix2 kk q)
  refine Eq.symm ((Pool.sum_blocks 8 1024 _).trans ?_)
  refine Finset.sum_congr rfl fun b _ => Finset.sum_congr rfl fun k _ => ?_
  exact (congrArg₂ (· * ·) (ext2_eq (arrA V c) _ _ r (finProdFinEquiv (b, k)) hr (blockPos b k))
    (ext2_eq (arrS V c) _ _ (finProdFinEquiv (b, k)) q (blockPos b k) rfl)).symm

/-- The eight column-block terms of a row add up to the whole row sum. -/
theorem deg_whole (c : Dev nD) (i : ℕ) (p : Fin 512) (r : Fin 8192) (hr : r.val = 512 * i + p.val) :
    ∑ b : Fin 8, degTerm V c i p b.val = Pool.rowSum (arrA V c) (ix1 r) := by
  show _ = ∑ kk : Fin (8 * 1024), arrA V c (ix2 r kk)
  refine Eq.symm ((Pool.sum_blocks 8 1024 _).trans ?_)
  refine Finset.sum_congr rfl fun b _ => Finset.sum_congr rfl fun k _ => ?_
  exact (ext2_eq (arrA V c) _ _ r (finProdFinEquiv (b, k)) hr (blockPos b k)).symm

/-- Output blocks: the product's block at point `t` is row block `t / 8`, and so is the row sums' block. -/
theorem idxO2 : ∀ t : Fin cfg1.N, win1_2.index t 0 = t.val / 8 ∧ win1_2.index t 1 = 0 :=
  (by decide +kernel : ∀ t : Fin grid1.N, win1_2.index t 0 = t.val / 8 ∧ win1_2.index t 1 = 0)
theorem idxO3 : ∀ t : Fin cfg1.N, win1_3.index t 0 = t.val / 8 :=
  (by decide +kernel : ∀ t : Fin grid1.N, win1_3.index t 0 = t.val / 8)

/-- What a writing-back point writes of the product: its block of the whole product. -/
theorem flushed_as (c : Dev nD) (t : Fin cfg1.N) (hf : (cfg1.win 2).flush t = true) :
    (dat1 (F := Ideal) V c).flushed 2 t
      = ((cfg1.win 2).blk t).view.read (Elt Ideal) (MatProd.matProd (arrA V c) (arrS V c)) := by
  have h7 : t.val % 8 = 7 := (flush1_2 t).mp hf
  have hN : cfg1.N = 128 := N_1
  have ht := t.isLt
  have hi := idxO2 t
  show (cfg1.win 2).cut (grid1.coords t) ((dat1 (F := Ideal) V c).after 2 t) = _
  rw [after1_2]
  funext j
  obtain ⟨p, q, rfl⟩ : ∃ (p : Fin 512) (q : Fin 1024), j = ix2 p q := ⟨j 0, j 1, eq_ix2 j⟩
  have hp := p.isLt
  have hr : 512 * (t.val / 8) + p.val < 8192 := by omega
  show (outsAt1 (F := Ideal) V c t.val t.isLt).1 (ix2 p q)
    = MatProd.matProd (arrA V c) (arrS V c) (((cfg1.win 2).blk t).view.emb (ix2 p q))
  have hemb : ((cfg1.win 2).blk t).view.emb (ix2 p q) = ix2 (⟨512 * (t.val / 8) + p.val, hr⟩ : Fin 8192) q := by
    funext a
    apply Fin.ext
    match a with
    | ⟨0, _⟩ => show win1_2.index t 0 * 512 + 1 * p.val = 512 * (t.val / 8) + p.val; rw [hi.1]; omega
    | ⟨1, _⟩ => show win1_2.index t 1 * 1024 + 1 * q.val = q.val; rw [hi.2]; omega
  rw [hemb, (good V c t.val t.isLt).1 p q, h7, RunningSum.running_last]
  exact prod_whole V c (t.val / 8) p q ⟨_, hr⟩ rfl

/-- Every row of the product lies in the block of the last point of its row block. -/
theorem cover_as (i : S8192x1024.Idx) :
    ∃ t : Fin cfg1.N, (cfg1.win 2).flush t = true ∧ i ∈ ((cfg1.win 2).blk t).view.set := by
  have hN : cfg1.N = 128 := N_1
  have h0 : (i 0).val < 8192 := (i 0).isLt
  have h1 : (i 1).val < 1024 := (i 1).isLt
  have htl : 8 * ((i 0).val / 512) + 7 < cfg1.N := by omega
  refine ⟨⟨8 * ((i 0).val / 512) + 7, htl⟩, (flush1_2 _).mpr (by show (8 * ((i 0).val / 512) + 7) % 8 = 7; omega), ?_⟩
  have hi := idxO2 ⟨8 * ((i 0).val / 512) + 7, htl⟩
  show i ∈ ((View.whole main_call0_v1_0).slice (win1_2.rect ⟨8 * ((i 0).val / 512) + 7, htl⟩)).set
  rw [View.set_slice_whole, Rect.mem_set_unit]
  intro a
  match a with
  | ⟨0, _⟩ =>
    show win1_2.index ⟨8 * ((i 0).val / 512) + 7, htl⟩ 0 * 512 ≤ (i 0).val
      ∧ (i 0).val < win1_2.index ⟨8 * ((i 0).val / 512) + 7, htl⟩ 0 * 512 + 512
    rw [hi.1]
    show (8 * ((i 0).val / 512) + 7) / 8 * 512 ≤ (i 0).val ∧ (i 0).val < (8 * ((i 0).val / 512) + 7) / 8 * 512 + 512
    omega
  | ⟨1, _⟩ =>
    show win1_2.index ⟨8 * ((i 0).val / 512) + 7, htl⟩ 1 * 1024 ≤ (i 1).val
      ∧ (i 1).val < win1_2.index ⟨8 * ((i 0).val / 512) + 7, htl⟩ 1 * 1024 + 1024
    rw [hi.2]
    omega

end Whole

section Final

variable (V : (c : Dev nD) → (b : Ref sig .tc) → Buf (Elt Ideal) ((c : Thread nD τ).loc b))

/-- What a writing-back point writes of the row sums: its block of the whole row sums. -/
theorem flushed_deg (c : Dev nD) (t : Fin cfg1.N) (hf : (cfg1.win 3).flush t = true) :
    (dat1 (F := Ideal) V c).flushed 3 t = ((cfg1.win 3).blk t).view.read (Elt Ideal) (Pool.rowSum (arrA V c)) := by
  have h7 : t.val % 8 = 7 := (flush1_3 t).mp hf
  have hN : cfg1.N = 128 := N_1
  have ht := t.isLt
  have hi := idxO3 t
  show (cfg1.win 3).cut (grid1.coords t) ((dat1 (F := Ideal) V c).after 3 t) = _
  rw [after1_3]
  funext j
  obtain ⟨p, rfl⟩ : ∃ p : Fin 512, j = ix1 p := ⟨j 0, eq_ix1 j⟩
  have hp := p.isLt
  have hr : 512 * (t.val / 8) + p.val < 8192 := by omega
  show (outsAt1 (F := Ideal) V c t.val t.isLt).2 (ix1 p)
    = Pool.rowSum (arrA V c) (((cfg1.win 3).blk t).view.emb (ix1 p))
  have hemb : ((cfg1.win 3).blk t).view.emb (ix1 p) = ix1 (⟨512 * (t.val / 8) + p.val, hr⟩ : Fin 8192) := by
    funext a
    apply Fin.ext
    match a with
    | ⟨0, _⟩ => show win1_3.index t 0 * 512 + 1 * p.val = 512 * (t.val / 8) + p.val; rw [hi]; omega
  rw [hemb, (good V c t.val t.isLt).2 p, h7, RunningSum.running_last]
  exact deg_whole V c (t.val / 8) p ⟨_, hr⟩ rfl

/-- Every row lies in the block of the last point of its row block. -/
theorem cover_deg (i : S8192.Idx) :
    ∃ t : Fin cfg1.N, (cfg1.win 3).flush t = true ∧ i ∈ ((cfg1.win 3).blk t).view.set := by
  have hN : cfg1.N = 128 := N_1
  have h0 : (i 0).val < 8192 := (i 0).isLt
  have htl : 8 * ((i 0).val / 512) + 7 < cfg1.N := by omega
  refine ⟨⟨8 * ((i 0).val / 512) + 7, htl⟩, (flush1_3 _).mpr (by show (8 * ((i 0).val / 512) + 7) % 8 = 7; omega), ?_⟩
  have hi := idxO3 ⟨8 * ((i 0).val / 512) + 7, htl⟩
  show i ∈ ((View.whole main_call0_v1_1).slice (win1_3.rect ⟨8 * ((i 0).val / 512) + 7, htl⟩)).set
  rw [View.set_slice_whole, Rect.mem_set_unit]
  intro a
  match a with
  | ⟨0, _⟩ =>
    show win1_3.index ⟨8 * ((i 0).val / 512) + 7, htl⟩ 0 * 512 ≤ (i 0).val
      ∧ (i 0).val < win1_3.index ⟨8 * ((i 0).val / 512) + 7, htl⟩ 0 * 512 + 512
    rw [hi]
    show (8 * ((i 0).val / 512) + 7) / 8 * 512 ≤ (i 0).val ∧ (i 0).val < (8 * ((i 0).val / 512) + 7) / 8 * 512 + 512
    omega

/-- After the region the array AS holds the whole product A · S. -/
theorem as_value (c : Dev nD) :
    (dat1 (F := Ideal) V c).arrAt 2 cfg1.N = MatProd.matProd (φ₁ := .f32) (φ₂ := .bf16) (V c main_arg1) (V c main_call0_v0) :=
  (dat1 (F := Ideal) V c).arrAt_eq_of_cover 2 (MatProd.matProd (arrA V c) (arrS V c)) (flushed_as V c) cover_as

/-- After the region the array d holds the row sums of A. -/
theorem deg_value (c : Dev nD) :
    (dat1 (F := Ideal) V c).arrAt 3 cfg1.N = Pool.rowSum (V c main_arg1) :=
  (dat1 (F := Ideal) V c).arrAt_eq_of_cover 3 (Pool.rowSum (arrA V c)) (flushed_deg V c) cover_deg

end Final

end Cert.KernelIdeal.Region1

end
-- ==== Proof.LibTransposedLhsDot.lean ====
/-
  A matrix product with BOTH operands contracted on their leading axis, read at an index, over the extended reals.

  For the dimension numbers of a `K×M` by `K×N` product (contract the left operand's axis 0 with the right operand's
  axis 0, no batch axis) — the product AᵀB of two blocks of rows — the contraction index is one coordinate `k < K`, the
  left operand is read at `(k, p)` and the right one at `(k, q)`. So a kernel's matmul into a zero accumulator is, at
  `(p, q)`, the sum over `k : Fin K` of `lhs (k, p) * rhs (k, q)`.
-/
import Idealize.ShloMosaic.PureOps.Ideal
import Idealize.ShloMosaic.PureOps.Ideal.Laws
import Idealize.ShloMosaic.Lib.ValueIdx

noncomputable section

namespace Idealize.ShloMosaic.TransposedLhsDot

open Idealize.ShloMosaic Idealize.ShloMosaic.ValueIdx

/-- The dimension numbers `<[0], [0], [1], [1]>`: `K×M` by `K×N`, both contracted on the leading axis. -/
def dims (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- The left operand's index at output `(p, q)` and contraction position `k` is `(k, p)`. -/
theorem lhsIdx_tl (K M N : ℕ) (p : Fin M) (q : Fin N) (k : Fin K) :
    (dims K M N).lhsIdx (ix2 p q) ((contrEquiv1 (dims K M N) K rfl rfl).symm k) = ix2 k p := by
  funext a
  apply Fin.ext
  match a with
  | ⟨0, _⟩ => rfl
  | ⟨1, _⟩ => rfl

/-- The right operand's index at output `(p, q)` and contraction position `k` is `(k, q)`. -/
theorem rhsIdx_tl (K M N : ℕ) (p : Fin M) (q : Fin N) (k : Fin K) :
    (dims K M N).rhsIdx (ix2 p q) ((contrEquiv1 (dims K M N) K rfl rfl).symm k) = ix2 k q := by
  funext a
  apply Fin.ext
  match a with
  | ⟨0, _⟩ => rfl
  | ⟨1, _⟩ => rfl

/-- The contraction sum, re-indexed by the one contracted coordinate. -/
theorem sum_tl (K M N : ℕ) (a : (⟨2, ![K, M]⟩ : Shape).Idx → EReal) (w : (⟨2, ![K, N]⟩ : Shape).Idx → EReal)
    (p : Fin M) (q : Fin N) :
    ∑ k : (dims K M N).contr.Idx,
        a ((dims K M N).lhsIdx (ix2 p q) k) * w ((dims K M N).rhsIdx (ix2 p q) k)
      = ∑ k : Fin K, a (ix2 k p) * w (ix2 k q) := by
  rw [← Equiv.sum_comp (contrEquiv1 (dims K M N) K rfl rfl).symm]
  exact Finset.sum_congr rfl fun k _ => by rw [lhsIdx_tl, rhsIdx_tl]

/-- A kernel's matmul into the zero accumulator, both operands contracted on the leading axis, read at `(p, q)`. -/
theorem matmul_zero_apply {K M N : ℕ} {φ₁ φ₂ : FTy} (d : DotDims ⟨2, ![K, M]⟩ ⟨2, ![K, N]⟩ ⟨2, ![M, N]⟩)
    (hd : d = dims K M N) (prec : Option ContractPrecision)
    (lhs : FVec Ideal ⟨2, ![K, M]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 k p) * rhs (ix2 k q) := by
  subst hd
  rw [Ideal.matmul_constant_zero_apply]
  exact sum_tl K M N lhs rhs p q

end Idealize.ShloMosaic.TransposedLhsDot

end
-- ==== Proof.Region2.lean ====
/-
  The value of the third region: the reduction over the 16 blocks of 512 rows.

  Write S (8192 × 1024), Y (8192 × 1024) and X (8192 × 64) for the three input arrays of the region as it finds
  them.  At grid point t the body reads block t of the rows of each (rows 512 t … 512 t + 511) and

    * adds to three accumulators, zeroed at the first point, the products of block t of S, contracted on its rows,
      with block t of Y, of S itself and of X; the accumulators are written back once, after the last point;
    * writes, for each row of the block, the sum of the squares of that row of S; this block of 512 sums is written
      back at every point.

  An entry (p, q) of an accumulator after point n is therefore the sum over the points t ≤ n of
  ∑_{k < 512} S(512 t + k, p) · Y(512 t + k, q).  Addition of extended reals is commutative and associative, and a
  sum over 8192 rows is the sum over the 16 blocks of the sums over the 512 rows of a block, so after the last point
  the accumulator holds ∑_{r < 8192} S(r, p) · Y(r, q): the whole product SᵀY, with no finiteness asked of anything.
  The format changes inside the body are the identity on extended reals.  Row r of the row-sum output is written by
  point r / 512 and is ∑_k S(r, k)².
-/
import proofs.«116769_j12343736009109_2_alg».proof.Proof.Gen.KernelIdeal.Frame
import proofs.«116769_j12343736009109_2_alg».proof.Proof.Spec
import proofs.«116769_j12343736009109_2_alg».proof.Proof.LibTransposedLhsDot
import proofs.«116769_j12343736009109_2_alg».proof.Proof.LibRowReduce
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Region2
open Cert.KernelIdeal Cert.KernelIdeal.Gen

/-! ## What each case of the body leaves in the outputs' buffers, for any float values -/

section Pieces
variable {F : FTy → Type} [FloatOps F]

/-- The zero offsets of a rank-2 block, as a function. -/
theorem hz2 : (![0, 0] : Fin 2 → Nat) = fun _ => 0 := funext fun a => by fin_cases a <;> rfl
/-- The zero offsets of a rank-1 block, as a function. -/
theorem hz1 : (![0] : Fin 1 → Nat) = fun _ => 0 := funext fun a => by fin_cases a <;> rfl

/-- At a later point the first accumulator's buffer, holding `xo3`, is left at the body's sum of `xo3` and the product
    of the two input blocks: its one store covers the buffer and its loads read whole buffers. -/
theorem out_B_3 (c : Dev nD) (i : grid2.Coords) (arg1 : Memref sig .tc .vmem S512x1024 .bf16) (harg1 : arg1.IsWhole) (arg2 : Memref sig .tc .vmem S512x1024 .f32) (harg2 : arg2.IsWhole) (arg3 : Memref sig .tc .vmem S512x64 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x64 .f32) (harg6 : arg6.IsWhole) (arg7 : Memref sig .tc .vmem S512 .f32) (harg7 : arg7.IsWhole) (hc0 : ¬cond2_0 i)
    (x0 : Vec F S512x1024 .bf16) (x1 : Vec F S512x1024 .f32) (x2 : Vec F S512x64 .f32) (xo3 : Vec F S1024x1024 .f32) (xo4 : Vec F S1024x1024 .f32) (xo5 : Vec F S1024x64 .f32) :
    out2_B_3 c i arg1 harg1 arg2 harg2 arg3 harg3 arg4 harg4 arg5 harg5 arg6 harg6 arg7 harg7 hc0 x0 x1 x2 xo3 xo4 xo5 = k2_pay5 x0 x1 xo3 := by
  unfold out2_B_3
  rw [View.read_writes_eq_canon _ _ _ (cover2_B_3 c i arg1 harg1 arg2 harg2 arg3 harg3 arg4 harg4 arg5 harg5 arg6 harg6 arg7 harg7 hc0 x0 x1 x2 xo3 xo4 xo5)]
  unfold kernelRun2_B
  dsimp only
  rw [View.canon_unit_zero hz2]
  simp only [View.readAt_eq_ld, harg1.read_unread, harg2.read_unread, harg4.read_unread, View.ld_unit_zero (S := S512x1024) hz2, View.ld_unit_zero (S := S1024x1024) hz2]

/-- Likewise the second accumulator's buffer, -/
theorem out_B_4 (c : Dev nD) (i : grid2.Coords) (arg1 : Memref sig .tc .vmem S512x1024 .bf16) (harg1 : arg1.IsWhole) (arg2 : Memref sig .tc .vmem S512x1024 .f32) (harg2 : arg2.IsWhole) (arg3 : Memref sig .tc .vmem S512x64 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x64 .f32) (harg6 : arg6.IsWhole) (arg7 : Memref sig .tc .vmem S512 .f32) (harg7 : arg7.IsWhole) (hc0 : ¬cond2_0 i)
    (x0 : Vec F S512x1024 .bf16) (x1 : Vec F S512x1024 .f32) (x2 : Vec F S512x64 .f32) (xo3 : Vec F S1024x1024 .f32) (xo4 : Vec F S1024x1024 .f32) (xo5 : Vec F S1024x64 .f32) :
    out2_B_4 c i arg1 harg1 arg2 harg2 arg3 harg3 arg4 harg4 arg5 harg5 arg6 harg6 arg7 harg7 hc0 x0 x1 x2 xo3 xo4 xo5 = k2_pay6 x0 xo4 := by
  unfold out2_B_4
  rw [View.read_writes_eq_canon _ _ _ (cover2_B_4 c i arg1 harg1 arg2 harg2 arg3 harg3 arg4 harg4 arg5 harg5 arg6 harg6 arg7 harg7 hc0 x0 x1 x2 xo3 xo4 xo5)]
  unfold kernelRun2_B
  dsimp only
  rw [View.canon_unit_zero hz2]
  simp only [View.readAt_eq_ld, harg1.read_unread, harg5.read_unread, View.ld_unit_zero (S := S512x1024) hz2, View.ld_unit_zero (S := S1024x1024) hz2]

/-- the third accumulator's buffer, -/
theorem out_B_5 (c : Dev nD) (i : grid2.Coords) (arg1 : Memref sig .tc .vmem S512x1024 .bf16) (harg1 : arg1.IsWhole) (arg2 : Memref sig .tc .vmem S512x1024 .f32) (harg2 : arg2.IsWhole) (arg3 : Memref sig .tc .vmem S512x64 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x64 .f32) (harg6 : arg6.IsWhole) (arg7 : Memref sig .tc .vmem S512 .f32) (harg7 : arg7.IsWhole) (hc0 : ¬cond2_0 i)
    (x0 : Vec F S512x1024 .bf16) (x1 : Vec F S512x1024 .f32) (x2 : Vec F S512x64 .f32) (xo3 : Vec F S1024x1024 .f32) (xo4 : Vec F S1024x1024 .f32) (xo5 : Vec F S1024x64 .f32) :
    out2_B_5 c i arg1 harg1 arg2 harg2 arg3 harg3 arg4 harg4 arg5 harg5 arg6 harg6 arg7 harg7 hc0 x0 x1 x2 xo3 xo4 xo5 = k2_pay7 x0 x2 xo5 := by
  unfold out2_B_5
  rw [View.read_writes_eq_canon _ _ _ (cover2_B_5 c i arg1 harg1 arg2 harg2 arg3 harg3 arg4 harg4 arg5 harg5 arg6 harg6 arg7 harg7 hc0 x0 x1 x2 xo3 xo4 xo5)]
  unfold kernelRun2_B
  dsimp only
  rw [View.canon_unit_zero hz2]
  simp only [View.readAt_eq_ld, harg1.read_unread, harg3.read_unread, harg6.read_unread, View.ld_unit_zero (S := S512x1024) hz2, View.ld_unit_zero (S := S512x64) hz2, View.ld_unit_zero (S := S1024x64) hz2]

/-- and the row-sum buffer, which depends on the first input's block only. -/
theorem out_B_6 (c : Dev nD) (i : grid2.Coords) (arg1 : Memref sig .tc .vmem S512x1024 .bf16) (harg1 : arg1.IsWhole) (arg2 : Memref sig .tc .vmem S512x1024 .f32) (harg2 : arg2.IsWhole) (arg3 : Memref sig .tc .vmem S512x64 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x64 .f32) (harg6 : arg6.IsWhole) (arg7 : Memref sig .tc .vmem S512 .f32) (harg7 : arg7.IsWhole) (hc0 : ¬cond2_0 i)
    (x0 : Vec F S512x1024 .bf16) (x1 : Vec F S512x1024 .f32) (x2 : Vec F S512x64 .f32) (xo3 : Vec F S1024x1024 .f32) (xo4 : Vec F S1024x1024 .f32) (xo5 : Vec F S1024x64 .f32) :
    out2_B_6 c i arg1 harg1 arg2 harg2 arg3 harg3 arg4 harg4 arg5 harg5 arg6 harg6 arg7 harg7 hc0 x0 x1 x2 xo3 xo4 xo5 = k2_pay8 x0 := by
  unfold out2_B_6
  rw [View.read_writes_eq_canon _ _ _ (cover2_B_6 c i arg1 harg1 arg2 harg2 arg3 harg3 arg4 harg4 arg5 harg5 arg6 harg6 arg7 harg7 hc0 x0 x1 x2 xo3 xo4 xo5)]
  unfold kernelRun2_B
  dsimp only
  rw [View.canon_unit_zero hz1]
  simp only [View.readAt_eq_ld, harg1.read_unread, View.ld_unit_zero (S := S512x1024) hz2]

/-- At the first point the body first stores the zero block into the first accumulator's buffer and reads it back, so
    the buffer is left at the sum of the zero block and the product of the two input blocks. -/
theorem out_A_3 (c : Dev nD) (i : grid2.Coords) (arg1 : Memref sig .tc .vmem S512x1024 .bf16) (harg1 : arg1.IsWhole) (arg2 : Memref sig .tc .vmem S512x1024 .f32) (harg2 : arg2.IsWhole) (arg3 : Memref sig .tc .vmem S512x64 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x64 .f32) (harg6 : arg6.IsWhole) (arg7 : Memref sig .tc .vmem S512 .f32) (harg7 : arg7.IsWhole) (hc0 : cond2_0 i)
    (x0 : Vec F S512x1024 .bf16) (x1 : Vec F S512x1024 .f32) (x2 : Vec F S512x64 .f32) :
    out2_A_3 c i arg1 harg1 arg2 harg2 arg3 harg3 arg4 harg4 arg5 harg5 arg6 harg6 arg7 harg7 hc0 x0 x1 x2 = k2_pay5 x0 x1 k2_pay1 := by
  unfold out2_A_3
  rw [View.read_writes_eq_canon _ _ _ (cover2_A_3 c i arg1 harg1 arg2 harg2 arg3 harg3 arg4 harg4 arg5 harg5 arg6 harg6 arg7 harg7 hc0 x0 x1 x2)]
  unfold kernelRun2_A
  dsimp only
  sl_unfold_words
  rw [View.canon_cons_unit_zero (S := S1024x1024) hz2, View.readCov_unit_zero (S := S1024x1024) _ hz2]
  simp only [View.readAt_eq_ld, harg1.read_unread, harg2.read_unread, View.ld_unit_zero (S := S512x1024) hz2]

/-- Likewise the second accumulator's buffer, -/
theorem out_A_4 (c : Dev nD) (i : grid2.Coords) (arg1 : Memref sig .tc .vmem S512x1024 .bf16) (harg1 : arg1.IsWhole) (arg2 : Memref sig .tc .vmem S512x1024 .f32) (harg2 : arg2.IsWhole) (arg3 : Memref sig .tc .vmem S512x64 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x64 .f32) (harg6 : arg6.IsWhole) (arg7 : Memref sig .tc .vmem S512 .f32) (harg7 : arg7.IsWhole) (hc0 : cond2_0 i)
    (x0 : Vec F S512x1024 .bf16) (x1 : Vec F S512x1024 .f32) (x2 : Vec F S512x64 .f32) :
    out2_A_4 c i arg1 harg1 arg2 harg2 arg3 harg3 arg4 harg4 arg5 harg5 arg6 harg6 arg7 harg7 hc0 x0 x1 x2 = k2_pay6 x0 k2_pay2 := by
  unfold out2_A_4
  rw [View.read_writes_eq_canon _ _ _ (cover2_A_4 c i arg1 harg1 arg2 harg2 arg3 harg3 arg4 harg4 arg5 harg5 arg6 harg6 arg7 harg7 hc0 x0 x1 x2)]
  unfold kernelRun2_A
  dsimp only
  sl_unfold_words
  rw [View.canon_cons_unit_zero (S := S1024x1024) hz2, View.readCov_unit_zero (S := S1024x1024) _ hz2]
  simp only [View.readAt_eq_ld, harg1.read_unread, View.ld_unit_zero (S := S512x1024) hz2]

/-- the third accumulator's buffer, -/
theorem out_A_5 (c : Dev nD) (i : grid2.Coords) (arg1 : Memref sig .tc .vmem S512x1024 .bf16) (harg1 : arg1.IsWhole) (arg2 : Memref sig .tc .vmem S512x1024 .f32) (harg2 : arg2.IsWhole) (arg3 : Memref sig .tc .vmem S512x64 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x64 .f32) (harg6 : arg6.IsWhole) (arg7 : Memref sig .tc .vmem S512 .f32) (harg7 : arg7.IsWhole) (hc0 : cond2_0 i)
    (x0 : Vec F S512x1024 .bf16) (x1 : Vec F S512x1024 .f32) (x2 : Vec F S512x64 .f32) :
    out2_A_5 c i arg1 harg1 arg2 harg2 arg3 harg3 arg4 harg4 arg5 harg5 arg6 harg6 arg7 harg7 hc0 x0 x1 x2 = k2_pay7 x0 x2 k2_pay3 := by
  unfold out2_A_5
  rw [View.read_writes_eq_canon _ _ _ (cover2_A_5 c i arg1 harg1 arg2 harg2 arg3 harg3 arg4 harg4 arg5 harg5 arg6 harg6 arg7 harg7 hc0 x0 x1 x2)]
  unfold kernelRun2_A
  dsimp only
  sl_unfold_words
  rw [View.canon_cons_unit_zero (S := S1024x64) hz2, View.readCov_unit_zero (S := S1024x64) _ hz2]
  simp only [View.readAt_eq_ld, harg1.read_unread, harg3.read_unread, View.ld_unit_zero (S := S512x1024) hz2, View.ld_unit_zero (S := S512x64) hz2]

/-- and the row-sum buffer, which has one store at the first point too. -/
theorem out_A_6 (c : Dev nD) (i : grid2.Coords) (arg1 : Memref sig .tc .vmem S512x1024 .bf16) (harg1 : arg1.IsWhole) (arg2 : Memref sig .tc .vmem S512x1024 .f32) (harg2 : arg2.IsWhole) (arg3 : Memref sig .tc .vmem S512x64 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x64 .f32) (harg6 : arg6.IsWhole) (arg7 : Memref sig .tc .vmem S512 .f32) (harg7 : arg7.IsWhole) (hc0 : cond2_0 i)
    (x0 : Vec F S512x1024 .bf16) (x1 : Vec F S512x1024 .f32) (x2 : Vec F S512x64 .f32) :
    out2_A_6 c i arg1 harg1 arg2 harg2 arg3 harg3 arg4 harg4 arg5 harg5 arg6 harg6 arg7 harg7 hc0 x0 x1 x2 = k2_pay8 x0 := by
  unfold out2_A_6
  rw [View.read_writes_eq_canon _ _ _ (cover2_A_6 c i arg1 harg1 arg2 harg2 arg3 harg3 arg4 harg4 arg5 harg5 arg6 harg6 arg7 harg7 hc0 x0 x1 x2)]
  unfold kernelRun2_A
  dsimp only
  rw [View.canon_unit_zero hz1]
  simp only [View.readAt_eq_ld, harg1.read_unread, View.ld_unit_zero (S := S512x1024) hz2]

end Pieces

/-! ## The stored values at an index, over the extended reals -/

section Payloads

/-- The product of two blocks of 512 rows, both contracted on their rows, at entry `(p, q)`. -/
def blockProd {M N : ℕ} (s : Pool.Mat 512 M) (y : Pool.Mat 512 N) (p : Fin M) (q : Fin N) : EReal :=
  ∑ k : Fin 512, s (ix2 k p) * y (ix2 k q)

/-- The body's dimension numbers for a 512×1024 by 512×1024 product: both operands contracted on the leading axis. -/
theorem dims_sq : dot_S512x1024_S512x1024_S1024x1024_0_0_1_1_n_n = TransposedLhsDot.dims 512 1024 1024 := rfl
/-- The same for a 512×1024 by 512×64 product. -/
theorem dims_x : dot_S512x1024_S512x64_S1024x64_0_0_1_1_n_n = TransposedLhsDot.dims 512 1024 64 := rfl

/-- The three zero blocks the first point stores are zero everywhere: the word of +0.0 is the real zero. -/
theorem zero_sq_apply (j : S1024x1024.Idx) : (k2_pay1 (F := Ideal)) j = 0 := Ideal.ofBits_zero_f32
theorem zero_sq'_apply (j : S1024x1024.Idx) : (k2_pay2 (F := Ideal)) j = 0 := Ideal.ofBits_zero_f32
theorem zero_x_apply (j : S1024x64.Idx) : (k2_pay3 (F := Ideal)) j = 0 := Ideal.ofBits_zero_f32

/-- The first accumulator's new contents at `(p, q)`: the old entry plus the product of the blocks of the first and second
    inputs there (the casts to the same shape and the narrowing of the second block are the identity). -/
theorem pay5_apply (v3 : Vec Ideal S512x1024 .bf16) (v5 : Vec Ideal S512x1024 .f32) (v10 : Vec Ideal S1024x1024 .f32)
    (p q : Fin 1024) :
    k2_pay5 v3 v5 v10 (ix2 p q) = v10 (ix2 p q) + blockProd v3 v5 p q := by
  unfold k2_pay5 k2_pay4 blockProd
  rw [shapeCast_self, shapeCast_self, shapeCast_self]
  refine congrArg (v10 (ix2 p q) + ·) ?_
  exact TransposedLhsDot.matmul_zero_apply _ dims_sq none v3 (truncf .bf16 v5 bitsLt_bf16_f32) p q

/-- The second accumulator's: the old entry plus the product of the first input's block with itself. -/
theorem pay6_apply (v3 : Vec Ideal S512x1024 .bf16) (v15 : Vec Ideal S1024x1024 .f32) (p q : Fin 1024) :
    k2_pay6 v3 v15 (ix2 p q) = v15 (ix2 p q) + blockProd v3 v3 p q := by
  unfold k2_pay6 k2_pay4 blockProd
  rw [shapeCast_self, shapeCast_self]
  refine congrArg (v15 (ix2 p q) + ·) ?_
  exact TransposedLhsDot.matmul_zero_apply _ dims_sq none v3 v3 p q

/-- The third accumulator's: the old entry plus the product of the blocks of the first and third inputs. -/
theorem pay7_apply (v3 : Vec Ideal S512x1024 .bf16) (v8 : Vec Ideal S512x64 .f32) (v20 : Vec Ideal S1024x64 .f32)
    (p : Fin 1024) (q : Fin 64) :
    k2_pay7 v3 v8 v20 (ix2 p q) = v20 (ix2 p q) + blockProd v3 v8 p q := by
  unfold k2_pay7 k2_pay4 blockProd
  rw [shapeCast_self, shapeCast_self]
  refine congrArg (v20 (ix2 p q) + ·) ?_
  exact TransposedLhsDot.matmul_zero_apply _ dims_x none v3 (truncf .bf16 v8 bitsLt_bf16_f32) p q

/-- The row-sum block at row `r`: the sum of the squares of row `r` of the first input's block (the widening is the
    identity, and a sum along the second axis at row `r` runs over the entries `(r, k)`). -/
theorem pay8_apply (v3 : Vec Ideal S512x1024 .bf16) (r : Fin 512) :
    k2_pay8 v3 (ix1 r) = Pool.rowSq v3 (ix1 r) := by
  unfold k2_pay8 k2_pay4
  rw [shapeCast_self]
  refine (RowReduce.multiReduction_add_row _ _ _ _ _ r).trans ?_
  exact Finset.sum_congr rfl fun k _ => rfl

end Payloads

/-! ## The accumulators after each point, and the arrays after the last -/

section Blocks
variable (V : (c : Dev nD) → (b : Ref sig .tc) → Buf (Elt Ideal) ((c : Thread nD τ).loc b))

/-- Where the blocks of the three inputs and of the row-sum output sit at point `t`: block row `t`, block column 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_6.index t (0 : Fin 1) = t.val :=
  (by decide +kernel : ∀ t : Fin grid2.N, _)

/-- The first input's block at point `t` reads the array at row `512 t + k`: a block's coordinate is its block index
    times the block's extent plus the coordinate inside the block. -/
theorem blk0_apply (c : Dev nD) (t : Fin cfg2.N) (k : Fin 512) (p : Fin 1024) (r : Fin 8192)
    (hr : r.val = 512 * t.val + k.val) :
    (iblk2 V c 0 t : Vec Ideal S512x1024 .bf16) (ix2 k p) = V c main_call0_v0 (ix2 r p) := by
  obtain ⟨e0, e1, -⟩ := idx_facts t
  unfold iblk2
  rw [View.read_apply]
  show V c main_call0_v0 _ = V c main_call0_v0 _
  refine congrArg (V c main_call0_v0) ?_
  funext a
  apply Fin.ext
  match a with
  | ⟨0, _⟩ => show win2_0.index t (0 : Fin 2) * 512 + 1 * k.val = r.val; omega
  | ⟨1, _⟩ => show win2_0.index t (1 : Fin 2) * 1024 + 1 * p.val = p.val; omega

/-- Likewise the second input's block, -/
theorem blk1_apply (c : Dev nD) (t : Fin cfg2.N) (k : Fin 512) (p : Fin 1024) (r : Fin 8192)
    (hr : r.val = 512 * t.val + k.val) :
    (iblk2 V c 1 t : Vec Ideal S512x1024 .f32) (ix2 k p) = V c main_call0_v1_0 (ix2 r p) := by
  obtain ⟨-, -, e0, e1, -⟩ := idx_facts t
  unfold iblk2
  rw [View.read_apply]
  show V c main_call0_v1_0 _ = V c main_call0_v1_0 _
  refine congrArg (V c main_call0_v1_0) ?_
  funext a
  apply Fin.ext
  match a with
  | ⟨0, _⟩ => show win2_1.index t (0 : Fin 2) * 512 + 1 * k.val = r.val; omega
  | ⟨1, _⟩ => show win2_1.index t (1 : Fin 2) * 1024 + 1 * p.val = p.val; omega

/-- and the third input's. -/
theorem blk2_apply (c : Dev nD) (t : Fin cfg2.N) (k : Fin 512) (p : Fin 64) (r : Fin 8192)
    (hr : r.val = 512 * t.val + k.val) :
    (iblk2 V c 2 t : Vec Ideal S512x64 .f32) (ix2 k p) = V c main_arg0 (ix2 r p) := by
  obtain ⟨-, -, -, -, e0, e1, -⟩ := idx_facts t
  unfold iblk2
  rw [View.read_apply]
  show V c main_arg0 _ = V c main_arg0 _
  refine congrArg (V c main_arg0) ?_
  funext a
  apply Fin.ext
  match a with
  | ⟨0, _⟩ => show win2_2.index t (0 : Fin 2) * 512 + 1 * k.val = r.val; omega
  | ⟨1, _⟩ => show win2_2.index t (1 : Fin 2) * 64 + 1 * p.val = p.val; omega

/-- The rows of an array of 8192 rows, taken as 16 blocks of 512: row `k` of block `b` is row `512 b + k`. -/
theorem sum_rows {α : Type*} [AddCommMonoid α] (f : Fin 8192 → α) :
    ∑ r : Fin 8192, f r = ∑ b : Fin 16, ∑ k : Fin 512, f ⟨512 * b.val + k.val, by omega⟩ :=
  (Pool.sum_blocks 16 512 f).trans (Finset.sum_congr rfl fun b _ => Finset.sum_congr rfl fun k _ =>
    congrArg f (Fin.ext (show k.val + 512 * b.val = 512 * b.val + k.val from Nat.add_comm _ _)))

/-- Block `b` of 512 rows of an array of 8192 rows. -/
def rowBlock {M : ℕ} (s : Pool.Mat 8192 M) (b : Fin 16) : Pool.Mat 512 M := fun j =>
  s (ix2 ⟨512 * b.val + (j 0).val, by have := idx2_lt0 j; omega⟩ (j 1))

/-- A product contracted on 8192 rows is the sum over the 16 blocks of rows of the blocks' products. -/
theorem gram_blocks {M N : ℕ} (s : Pool.Mat 8192 M) (y : Pool.Mat 8192 N) (p : Fin M) (q : Fin N) :
    Pool.gram s y (ix2 p q) = ∑ b : Fin 16, blockProd (rowBlock s b) (rowBlock y b) p q :=
  (Pool.gram_apply s y p q).trans (sum_rows fun r => s (ix2 r p) * y (ix2 r q))

/-- The block of the first input at point `t` is block `t` of its rows. -/
theorem blk0_eq (c : Dev nD) (t : Fin cfg2.N) (b : Fin 16) (hb : b.val = t.val) :
    (iblk2 V c 0 t : Pool.Mat 512 1024) = rowBlock (V c main_call0_v0) b :=
  funext fun j => by
    obtain ⟨k, p, rfl⟩ : ∃ (k : Fin 512) (p : Fin 1024), j = ix2 k p := ⟨j 0, j 1, eq_ix2 j⟩
    exact blk0_apply V c t k p _ (by show 512 * b.val + k.val = _; rw [hb])

/-- Likewise the second input's, -/
theorem blk1_eq (c : Dev nD) (t : Fin cfg2.N) (b : Fin 16) (hb : b.val = t.val) :
    (iblk2 V c 1 t : Pool.Mat 512 1024) = rowBlock (V c main_call0_v1_0) b :=
  funext fun j => by
    obtain ⟨k, p, rfl⟩ : ∃ (k : Fin 512) (p : Fin 1024), j = ix2 k p := ⟨j 0, j 1, eq_ix2 j⟩
    exact blk1_apply V c t k p _ (by show 512 * b.val + k.val = _; rw [hb])

/-- and the third input's. -/
theorem blk2_eq (c : Dev nD) (t : Fin cfg2.N) (b : Fin 16) (hb : b.val = t.val) :
    (iblk2 V c 2 t : Pool.Mat 512 64) = rowBlock (V c main_arg0) b :=
  funext fun j => by
    obtain ⟨k, p, rfl⟩ : ∃ (k : Fin 512) (p : Fin 64), j = ix2 k p := ⟨j 0, j 1, eq_ix2 j⟩
    exact blk2_apply V c t k p _ (by show 512 * b.val + k.val = _; rw [hb])

/-- What point `t` adds to entry `(p, q)` of each accumulated product: the product of the two blocks of rows at `t`. -/
def termA (c : Dev nD) (p q : Fin 1024) (t : ℕ) : EReal :=
  if h : t < cfg2.N then blockProd (iblk2 V c 0 ⟨t, h⟩) (iblk2 V c 1 ⟨t, h⟩) p q else 0
def termS (c : Dev nD) (p q : Fin 1024) (t : ℕ) : EReal :=
  if h : t < cfg2.N then blockProd (iblk2 V c 0 ⟨t, h⟩) (iblk2 V c 0 ⟨t, h⟩) p q else 0
def termX (c : Dev nD) (p : Fin 1024) (q : Fin 64) (t : ℕ) : EReal :=
  if h : t < cfg2.N then blockProd (iblk2 V c 0 ⟨t, h⟩) (iblk2 V c 2 ⟨t, h⟩) p q else 0

/-- After point `n` the first accumulator holds the sum of the block products of points `0 … n`. -/
theorem accA (c : Dev nD) (p q : Fin 1024) : ∀ (n : ℕ) (hn : n < cfg2.N),
    (outsAt2 V c n hn).1 (ix2 p q) = ∑ t ∈ Finset.range (n + 1), termA V c p q t
  | 0, hn => by
    rw [show outsAt2 V c 0 hn = _ from outsAt2_A V c ⟨0, hn⟩ rfl]
    dsimp only
    rw [out_A_3, pay5_apply, zero_sq_apply, zero_add, Finset.sum_range_one, termA, dif_pos hn]
  | n + 1, hn => by
    have hN : cfg2.N = 16 := N_2
    have hB : ¬(⟨n + 1, hn⟩ : Fin cfg2.N).val % 16 = 0 := by dsimp only; omega
    rw [show outsAt2 V c (n + 1) hn = _ from outsAt2_B V c ⟨n + 1, hn⟩ hB]
    dsimp only
    rw [out_B_3, pay5_apply, Finset.sum_range_succ _ (n + 1), termA, dif_pos hn]
    refine congrArg (· + _) ?_
    exact accA c p q n _

/-- Likewise the second accumulator, -/
theorem accS (c : Dev nD) (p q : Fin 1024) : ∀ (n : ℕ) (hn : n < cfg2.N),
    (outsAt2 V c n hn).2.1 (ix2 p q) = ∑ t ∈ Finset.range (n + 1), termS V c p q t
  | 0, hn => by
    rw [show outsAt2 V c 0 hn = _ from outsAt2_A V c ⟨0, hn⟩ rfl]
    dsimp only
    rw [out_A_4, pay6_apply, zero_sq'_apply, zero_add, Finset.sum_range_one, termS, dif_pos hn]
  | n + 1, hn => by
    have hN : cfg2.N = 16 := N_2
    have hB : ¬(⟨n + 1, hn⟩ : Fin cfg2.N).val % 16 = 0 := by dsimp only; omega
    rw [show outsAt2 V c (n + 1) hn = _ from outsAt2_B V c ⟨n + 1, hn⟩ hB]
    dsimp only
    rw [out_B_4, pay6_apply, Finset.sum_range_succ _ (n + 1), termS, dif_pos hn]
    refine congrArg (· + _) ?_
    exact accS c p q n _

/-- and the third. -/
theorem accX (c : Dev nD) (p : Fin 1024) (q : Fin 64) : ∀ (n : ℕ) (hn : n < cfg2.N),
    (outsAt2 V c n hn).2.2.1 (ix2 p q) = ∑ t ∈ Finset.range (n + 1), termX V c p q t
  | 0, hn => by
    rw [show outsAt2 V c 0 hn = _ from outsAt2_A V c ⟨0, hn⟩ rfl]
    dsimp only
    rw [out_A_5, pay7_apply, zero_x_apply, zero_add, Finset.sum_range_one, termX, dif_pos hn]
  | n + 1, hn => by
    have hN : cfg2.N = 16 := N_2
    have hB : ¬(⟨n + 1, hn⟩ : Fin cfg2.N).val % 16 = 0 := by dsimp only; omega
    rw [show outsAt2 V c (n + 1) hn = _ from outsAt2_B V c ⟨n + 1, hn⟩ hB]
    dsimp only
    rw [out_B_5, pay7_apply, Finset.sum_range_succ _ (n + 1), termX, dif_pos hn]
    refine congrArg (· + _) ?_
    exact accX c p q n _

/-- After the last point the first accumulator holds the whole product. -/
theorem lastA (c : Dev nD) (p q : Fin 1024) (h15 : 15 < cfg2.N) :
    (outsAt2 V c 15 h15).1 (ix2 p q) = Pool.gram (V c main_call0_v0) (V c main_call0_v1_0) (ix2 p q) := by
  rw [accA V c p q 15 h15, gram_blocks]
  show ∑ t ∈ Finset.range 16, termA V c p q t = _
  rw [Finset.sum_range]
  exact Finset.sum_congr rfl fun b _ => by
    have hb : b.val < cfg2.N := lt_of_lt_of_eq b.isLt N_2.symm
    rw [termA, dif_pos hb, blk0_eq V c ⟨b.val, hb⟩ b rfl, blk1_eq V c ⟨b.val, hb⟩ b rfl]

/-- Likewise the second, -/
theorem lastS (c : Dev nD) (p q : Fin 1024) (h15 : 15 < cfg2.N) :
    (outsAt2 V c 15 h15).2.1 (ix2 p q) = Pool.gram (V c main_call0_v0) (V c main_call0_v0) (ix2 p q) := by
  rw [accS V c p q 15 h15, gram_blocks]
  show ∑ t ∈ Finset.range 16, termS V c p q t = _
  rw [Finset.sum_range]
  exact Finset.sum_congr rfl fun b _ => by
    have hb : b.val < cfg2.N := lt_of_lt_of_eq b.isLt N_2.symm
    rw [termS, dif_pos hb, blk0_eq V c ⟨b.val, hb⟩ b rfl]

/-- and the third. -/
theorem lastX (c : Dev nD) (p : Fin 1024) (q : Fin 64) (h15 : 15 < cfg2.N) :
    (outsAt2 V c 15 h15).2.2.1 (ix2 p q) = Pool.gram (V c main_call0_v0) (V c main_arg0) (ix2 p q) := by
  rw [accX V c p q 15 h15, gram_blocks]
  show ∑ t ∈ Finset.range 16, termX V c p q t = _
  rw [Finset.sum_range]
  exact Finset.sum_congr rfl fun b _ => by
    have hb : b.val < cfg2.N := lt_of_lt_of_eq b.isLt N_2.symm
    rw [termX, dif_pos hb, blk0_eq V c ⟨b.val, hb⟩ b rfl, blk2_eq V c ⟨b.val, hb⟩ b rfl]

/-- The row-sum output at point `t`: row `r` of its block is the sum of the squares of row `r` of the first input's block. -/
theorem rowsq_point (c : Dev nD) (t : Fin cfg2.N) (r : Fin 512) :
    (outsAt2 V c t.val t.isLt).2.2.2 (ix1 r) = Pool.rowSq (iblk2 V c 0 t : Pool.Mat 512 1024) (ix1 r) := by
  by_cases h0 : t.val % 16 = 0
  · rw [outsAt2_A V c t h0]
    dsimp only
    rw [out_A_6, pay8_apply]
  · rw [outsAt2_B V c t h0]
    dsimp only
    rw [out_B_6, pay8_apply]

/-- So it is the sum of the squares of row `512 t + r` of the whole first input. -/
theorem rowsq_point' (c : Dev nD) (t : Fin cfg2.N) (y : S512.Idx) (i : S8192.Idx)
    (hi : (i 0).val = 512 * t.val + (y 0).val) :
    (outsAt2 V c t.val t.isLt).2.2.2 y = Pool.rowSq (V c main_call0_v0) i := by
  have hN : cfg2.N = 16 := N_2
  obtain ⟨r, rfl⟩ : ∃ r : Fin 512, y = ix1 r := ⟨y 0, eq_ix1 y⟩
  obtain ⟨g, rfl⟩ : ∃ g : Fin 8192, i = ix1 g := ⟨i 0, eq_ix1 i⟩
  rw [rowsq_point V c t r, blk0_eq V c t ⟨t.val, by have := t.isLt; omega⟩ rfl]
  have hlt : 512 * t.val + r.val < 8192 := by have := t.isLt; have := r.isLt; clear hi; omega
  obtain rfl : g = ⟨512 * t.val + r.val, hlt⟩ := Fin.ext hi
  rfl

/-- The first product's output: its one write-back, at the last point, writes the whole product. -/
theorem flushed3_eq (c : Dev nD) (t : Fin cfg2.N) (hf : (cfg2.win 3).flush t = true) :
    (dat2 V c).flushed 3 t
      = ((cfg2.win 3).blk t).view.read (Elt Ideal) (Pool.gram (V c main_call0_v0) (V c main_call0_v1_0)) := by
  have hN : cfg2.N = 16 := N_2
  have h15 : t.val = 15 := by have := (flush2_3 t).mp hf; have := t.isLt; omega
  obtain rfl : t = t2_15 := Fin.ext h15
  show (cfg2.win 3).cut (grid2.coords t2_15) ((dat2 V c).after 3 t2_15) = _
  rw [after2_3]
  have hz' : (fun a => win2_3.index t2_15 a * main_call0_v2_0.ty.shape.size a) = fun _ => 0 :=
    funext fun a => by fin_cases a <;> decide +kernel
  refine Eq.trans ?_ (Memref.read_access_unit_zero (Elt Ideal) main_call0_v2_0 hz'
    (fun a => by rw [congrFun hz' a]; simp) (Pool.gram (V c main_call0_v0) (V c main_call0_v1_0))).symm
  show (outsAt2 V c 15 _).1 = Pool.gram (V c main_call0_v0) (V c main_call0_v1_0)
  funext j
  rw [eq_ix2 j]
  exact lastA V c (j 0) (j 1) _

/-- The first product's array ends holding the product of the first input, contracted on its rows, with the second: the last point's block is the whole array. -/
theorem arec_value (c : Dev nD) : (dat2 (F := Ideal) V c).arrAt 3 cfg2.N = Pool.gram (V c main_call0_v0) (V c main_call0_v1_0) :=
  (dat2 V c).arrAt_eq_of_cover 3 (Pool.gram (V c main_call0_v0) (V c main_call0_v1_0)) (flushed3_eq V c) fun i =>
    ⟨t2_15, (flush2_3 t2_15).mpr rfl, by
      show i ∈ ((View.whole main_call0_v2_0).slice (win2_3.rect t2_15)).set
      rw [View.set_slice_whole, Rect.mem_set_unit]
      intro a
      have h0 : (i 0 : Nat) < 1024 := (i 0).isLt
      have h1 : (i 1 : Nat) < 1024 := (i 1).isLt
      match a with
      | ⟨0, _⟩ => show win2_3.index t2_15 0 * win2_3.size 0 ≤ (i 0 : Nat) ∧ (i 0 : Nat) < win2_3.index t2_15 0 * win2_3.size 0 + win2_3.xsize (grid2.coords t2_15) 0
                  rw [show win2_3.index t2_15 0 * win2_3.size 0 = 0 from by decide +kernel, show win2_3.xsize (grid2.coords t2_15) 0 = 1024 from by decide +kernel]; omega
      | ⟨1, _⟩ => show win2_3.index t2_15 1 * win2_3.size 1 ≤ (i 1 : Nat) ∧ (i 1 : Nat) < win2_3.index t2_15 1 * win2_3.size 1 + win2_3.xsize (grid2.coords t2_15) 1
                  rw [show win2_3.index t2_15 1 * win2_3.size 1 = 0 from by decide +kernel, show win2_3.xsize (grid2.coords t2_15) 1 = 1024 from by decide +kernel]; omega⟩
/-- Likewise the second product's output, -/
theorem flushed4_eq (c : Dev nD) (t : Fin cfg2.N) (hf : (cfg2.win 4).flush t = true) :
    (dat2 V c).flushed 4 t
      = ((cfg2.win 4).blk t).view.read (Elt Ideal) (Pool.gram (V c main_call0_v0) (V c main_call0_v0)) := by
  have hN : cfg2.N = 16 := N_2
  have h15 : t.val = 15 := by have := (flush2_4 t).mp hf; have := t.isLt; omega
  obtain rfl : t = t2_15 := Fin.ext h15
  show (cfg2.win 4).cut (grid2.coords t2_15) ((dat2 V c).after 4 t2_15) = _
  rw [after2_4]
  have hz' : (fun a => win2_4.index t2_15 a * main_call0_v2_1.ty.shape.size a) = fun _ => 0 :=
    funext fun a => by fin_cases a <;> decide +kernel
  refine Eq.trans ?_ (Memref.read_access_unit_zero (Elt Ideal) main_call0_v2_1 hz'
    (fun a => by rw [congrFun hz' a]; simp) (Pool.gram (V c main_call0_v0) (V c main_call0_v0))).symm
  show (outsAt2 V c 15 _).2.1 = Pool.gram (V c main_call0_v0) (V c main_call0_v0)
  funext j
  rw [eq_ix2 j]
  exact lastS V c (j 0) (j 1) _

/-- so its array ends holding the product of the first input with itself, contracted on the rows, -/
theorem ss_value (c : Dev nD) : (dat2 (F := Ideal) V c).arrAt 4 cfg2.N = Pool.gram (V c main_call0_v0) (V c main_call0_v0) :=
  (dat2 V c).arrAt_eq_of_cover 4 (Pool.gram (V c main_call0_v0) (V c main_call0_v0)) (flushed4_eq V c) fun i =>
    ⟨t2_15, (flush2_4 t2_15).mpr rfl, by
      show i ∈ ((View.whole main_call0_v2_1).slice (win2_4.rect t2_15)).set
      rw [View.set_slice_whole, Rect.mem_set_unit]
      intro a
      have h0 : (i 0 : Nat) < 1024 := (i 0).isLt
      have h1 : (i 1 : Nat) < 1024 := (i 1).isLt
      match a with
      | ⟨0, _⟩ => show win2_4.index t2_15 0 * win2_4.size 0 ≤ (i 0 : Nat) ∧ (i 0 : Nat) < win2_4.index t2_15 0 * win2_4.size 0 + win2_4.xsize (grid2.coords t2_15) 0
                  rw [show win2_4.index t2_15 0 * win2_4.size 0 = 0 from by decide +kernel, show win2_4.xsize (grid2.coords t2_15) 0 = 1024 from by decide +kernel]; omega
      | ⟨1, _⟩ => show win2_4.index t2_15 1 * win2_4.size 1 ≤ (i 1 : Nat) ∧ (i 1 : Nat) < win2_4.index t2_15 1 * win2_4.size 1 + win2_4.xsize (grid2.coords t2_15) 1
                  rw [show win2_4.index t2_15 1 * win2_4.size 1 = 0 from by decide +kernel, show win2_4.xsize (grid2.coords t2_15) 1 = 1024 from by decide +kernel]; omega⟩
/-- and the third product's output, -/
theorem flushed5_eq (c : Dev nD) (t : Fin cfg2.N) (hf : (cfg2.win 5).flush t = true) :
    (dat2 V c).flushed 5 t
      = ((cfg2.win 5).blk t).view.read (Elt Ideal) (Pool.gram (V c main_call0_v0) (V c main_arg0)) := by
  have hN : cfg2.N = 16 := N_2
  have h15 : t.val = 15 := by have := (flush2_5 t).mp hf; have := t.isLt; omega
  obtain rfl : t = t2_15 := Fin.ext h15
  show (cfg2.win 5).cut (grid2.coords t2_15) ((dat2 V c).after 5 t2_15) = _
  rw [after2_5]
  have hz' : (fun a => win2_5.index t2_15 a * main_v0_0.ty.shape.size a) = fun _ => 0 :=
    funext fun a => by fin_cases a <;> decide +kernel
  refine Eq.trans ?_ (Memref.read_access_unit_zero (Elt Ideal) main_v0_0 hz'
    (fun a => by rw [congrFun hz' a]; simp) (Pool.gram (V c main_call0_v0) (V c main_arg0))).symm
  show (outsAt2 V c 15 _).2.2.1 = Pool.gram (V c main_call0_v0) (V c main_arg0)
  funext j
  rw [eq_ix2 j]
  exact lastX V c (j 0) (j 1) _

/-- so its array ends holding the product of the first input with the third, contracted on the rows. -/
theorem xrec_value (c : Dev nD) : (dat2 (F := Ideal) V c).arrAt 5 cfg2.N = Pool.gram (V c main_call0_v0) (V c main_arg0) :=
  (dat2 V c).arrAt_eq_of_cover 5 (Pool.gram (V c main_call0_v0) (V c main_arg0)) (flushed5_eq V c) fun i =>
    ⟨t2_15, (flush2_5 t2_15).mpr rfl, by
      show i ∈ ((View.whole main_v0_0).slice (win2_5.rect t2_15)).set
      rw [View.set_slice_whole, Rect.mem_set_unit]
      intro a
      have h0 : (i 0 : Nat) < 1024 := (i 0).isLt
      have h1 : (i 1 : Nat) < 64 := (i 1).isLt
      match a with
      | ⟨0, _⟩ => show win2_5.index t2_15 0 * win2_5.size 0 ≤ (i 0 : Nat) ∧ (i 0 : Nat) < win2_5.index t2_15 0 * win2_5.size 0 + win2_5.xsize (grid2.coords t2_15) 0
                  rw [show win2_5.index t2_15 0 * win2_5.size 0 = 0 from by decide +kernel, show win2_5.xsize (grid2.coords t2_15) 0 = 1024 from by decide +kernel]; omega
      | ⟨1, _⟩ => show win2_5.index t2_15 1 * win2_5.size 1 ≤ (i 1 : Nat) ∧ (i 1 : Nat) < win2_5.index t2_15 1 * win2_5.size 1 + win2_5.xsize (grid2.coords t2_15) 1
                  rw [show win2_5.index t2_15 1 * win2_5.size 1 = 0 from by decide +kernel, show win2_5.xsize (grid2.coords t2_15) 1 = 64 from by decide +kernel]; omega⟩

/-- The row-sum output: what point `t` writes back is block `t` of the row sums of the squares of the whole first input. -/
theorem flushed6_eq (c : Dev nD) (t : Fin cfg2.N) :
    (dat2 V c).flushed 6 t = ((cfg2.win 6).blk t).view.read (Elt Ideal) (Pool.rowSq (V c main_call0_v0)) := by
  obtain ⟨-, -, -, -, -, -, e6⟩ := idx_facts t
  show (cfg2.win 6).cut (grid2.coords t) ((dat2 V c).after 6 t) = _
  rw [after2_6]
  funext j
  show (outsAt2 V c t.val t.isLt).2.2.2 j = Pool.rowSq (V c main_call0_v0) (((cfg2.win 6).blk t).view.emb j)
  refine rowsq_point' V c t j _ ?_
  show win2_6.index t (0 : Fin 1) * 512 + 1 * (j 0).val = 512 * t.val + (j 0).val
  omega

/-- An index of the row-sum array is in point `t`'s block iff it is in the block's range of rows. -/
theorem mem_blk6 (t : Fin cfg2.N) (i : S8192.Idx) :
    i ∈ ((cfg2.win 6).blk t).view.set ↔ ∀ a : Fin 1, win2_6.index t a * S512.size a ≤ (i a).val ∧ (i a).val < win2_6.index t a * S512.size a + S512.size a := by
  show i ∈ ((View.whole main_call0_v2_3).slice (win2_6.rect t)).set ↔ _
  rw [View.set_slice_whole, Rect.mem_set_unit]
  exact Iff.rfl

/-- The row-sum array ends holding the row sums of the squares of the first input: row `r` is written by point `r / 512`. -/
theorem ssrow_value (c : Dev nD) : (dat2 (F := Ideal) V c).arrAt 6 cfg2.N = Pool.rowSq (V c main_call0_v0) :=
  (dat2 V c).arrAt_eq_of_cover 6 (Pool.rowSq (V c main_call0_v0)) (fun t _ => flushed6_eq V c t) fun i => by
    have hi : (i 0).val < 8192 := (i 0).isLt
    have hN : cfg2.N = 16 := N_2
    refine ⟨⟨(i 0).val / 512, by omega⟩, flush2_6 _, ?_⟩
    rw [mem_blk6]
    intro a
    obtain ⟨-, -, -, -, -, -, e6⟩ := idx_facts ⟨(i 0).val / 512, by omega⟩
    match a with
    | ⟨0, _⟩ =>
      show win2_6.index ⟨(i 0).val / 512, _⟩ (0 : Fin 1) * 512 ≤ (i 0).val ∧ (i 0).val < win2_6.index ⟨(i 0).val / 512, _⟩ (0 : Fin 1) * 512 + 512
      rw [e6]
      dsimp only
      omega

end Blocks

end Cert.KernelIdeal.Region2
end
-- ==== Proof.RefRun.lean ====
/-
  The run of the reference program, read back stage by stage.

  The reference is a straight line of array operations: the assignment matrix (a two-layer perceptron followed by a
  softmax along rows), its products with the adjacency matrix and with the features, the cut loss, the orthogonality
  loss, the degree-normalised pooled adjacency and the pooled index. Five of its statements are calls of outlined
  functions (the rectifier, the trace with its selection, the Frobenius norm twice, the floor division with its
  selection); a call executes the callee's body on the operands, so the whole program is one list of operations, the
  callees' operations written at the call sites over the calls' own buffers.

  Every execution ends with each buffer at the fold of that list over the launch contents. Read at the five result
  buffers, the fold is the composition of the named stages (each stage is by definition the composition of the
  operations it covers, in their order), and the seven argument buffers are written by no operation.
-/
import proofs.«116769_j12343736009109_2_alg».proof.ReferenceIdeal
import proofs.«116769_j12343736009109_2_alg».proof.Proof.Gen.ReferenceIdeal
import proofs.«116769_j12343736009109_2_alg».proof.Proof.RefStages
import proofs.«116769_j12343736009109_2_alg».proof.Proof.LibTypedTransport
import proofs.«116769_j12343736009109_2_alg».proof.Proof.LibJoinedPair
import Idealize.ShloMosaic.Lib.StableHlo.Run
import Idealize.ShloMosaic.Lib.Tactic

noncomputable section

open Idealize.ShloMosaic Idealize.ShloMosaic.TcCoe Idealize.SL.Sem Idealize.ShloMosaic.StableHlo

namespace Cert.ReferenceIdeal.RefValue

open Cert.ReferenceIdeal Cert.ReferenceIdeal.Stage
open Facts₀ Facts

variable {F : FTy → Type} [FloatOps F]

/-- The program's operations in order, each call replaced by its callee's operations over that call's buffers:
    the rectifier's three after the first layer's sum; the trace's eleven (the identity pattern, the selection, the
    sum) after the product sᵀ(a s); the norm's four twice; the floor division's thirteen after the two segment sums. -/
abbrev ops : List (HloOp τ sig (Elt F)) :=
  [ StableHlo.binary main_arg0 main_arg3 main_v0 ((fun l r => Host.dotGeneral dot_S8192x64_S64x16_S8192x16_1_0_0_1_n_n none l r) : (⟨S8192x64, .f32⟩ : BufTy).Contents (Elt F) → (⟨S64x16, .f32⟩ : BufTy).Contents (Elt F) → (⟨S8192x16, .f32⟩ : BufTy).Contents (Elt F)),
    StableHlo.unary main_arg4 main_v1 (broadcastInDim S1x16 ![1] bcast_S16_S1x16_1 : (⟨S16, .f32⟩ : BufTy).Contents (Elt F) → (⟨S1x16, .f32⟩ : BufTy).Contents (Elt F)),
    StableHlo.unary main_v1 main_v2 (broadcastInDim S8192x16 ![0, 1] bcast_S1x16_S8192x16_0_1 : (⟨S1x16, .f32⟩ : BufTy).Contents (Elt F) → (⟨S8192x16, .f32⟩ : BufTy).Contents (Elt F)),
    StableHlo.binary main_v0 main_v2 main_v3 (addf : (⟨S8192x16, .f32⟩ : BufTy).Contents (Elt F) → (⟨S8192x16, .f32⟩ : BufTy).Contents (Elt F) → (⟨S8192x16, .f32⟩ : BufTy).Contents (Elt F)),
    StableHlo.TRef.nullary main_call0.cst (constant S_ .f32 0x00000000#32),
    StableHlo.TRef.unary main_call0.cst main_call0.v0 (broadcastInDim S8192x16 ![] bcast_S_S8192x16),
    StableHlo.TRef.binary (.of main_v3) main_call0.v0 main_call0.v1 maximumf,
    StableHlo.binary main_v4 main_arg5 main_v5 ((fun l r => Host.dotGeneral dot_S8192x16_S16x1024_S8192x1024_1_0_0_1_n_n none l r) : (⟨S8192x16, .f32⟩ : BufTy).Contents (Elt F) → (⟨S16x1024, .f32⟩ : BufTy).Contents (Elt F) → (⟨S8192x1024, .f32⟩ : BufTy).Contents (Elt F)),
    StableHlo.unary main_arg6 main_v6 (broadcastInDim S1x1024 ![1] bcast_S1024_S1x1024_1 : (⟨S1024, .f32⟩ : BufTy).Contents (Elt F) → (⟨S1x1024, .f32⟩ : BufTy).Contents (Elt F)),
    StableHlo.unary main_v6 main_v7 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v5 main_v7 main_v8 (addf : (⟨S8192x1024, .f32⟩ : BufTy).Contents (Elt F) → (⟨S8192x1024, .f32⟩ : BufTy).Contents (Elt F) → (⟨S8192x1024, .f32⟩ : BufTy).Contents (Elt F)),
    StableHlo.nullary main_cst (constant S_ .f32 0xFF800000#32),
    StableHlo.binary main_v8 main_cst main_v9 ((fun x v => Host.reduce FloatOps.maximumf x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    StableHlo.nullary main_cst_0 (constant S_ .f32 0xFF800000#32),
    StableHlo.unary main_cst_0 main_v10 (broadcastInDim S8192 ![] bcast_S_S8192 : (⟨S_, .f32⟩ : BufTy).Contents (Elt F) → (⟨S8192, .f32⟩ : BufTy).Contents (Elt F)),
    StableHlo.binary main_v10 main_v9 main_v11 (maximumf : (⟨S8192, .f32⟩ : BufTy).Contents (Elt F) → (⟨S8192, .f32⟩ : BufTy).Contents (Elt F) → (⟨S8192, .f32⟩ : BufTy).Contents (Elt F)),
    StableHlo.unary main_v11 main_v12 (broadcastInDim S8192x1 ![0] bcast_S8192_S8192x1_0 : (⟨S8192, .f32⟩ : BufTy).Contents (Elt F) → (⟨S8192x1, .f32⟩ : BufTy).Contents (Elt F)),
    StableHlo.unary main_v12 main_v13 (broadcastInDim S8192x1024 ![0, 1] bcast_S8192x1_S8192x1024_0_1 : (⟨S8192x1, .f32⟩ : BufTy).Contents (Elt F) → (⟨S8192x1024, .f32⟩ : BufTy).Contents (Elt F)),
    StableHlo.binary main_v8 main_v13 main_v14 (subf : (⟨S8192x1024, .f32⟩ : BufTy).Contents (Elt F) → (⟨S8192x1024, .f32⟩ : BufTy).Contents (Elt F) → (⟨S8192x1024, .f32⟩ : BufTy).Contents (Elt F)),
    StableHlo.unary main_v14 main_v15 (Host.exp : (⟨S8192x1024, .f32⟩ : BufTy).Contents (Elt F) → (⟨S8192x1024, .f32⟩ : BufTy).Contents (Elt F)),
    StableHlo.nullary main_cst_1 (constant S_ .f32 0x00000000#32),
    StableHlo.binary main_v15 main_cst_1 main_v16 ((fun x v => Host.reduceAdd x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    StableHlo.unary main_v16 main_v17 (broadcastInDim S8192x1 ![0] bcast_S8192_S8192x1_0 : (⟨S8192, .f32⟩ : BufTy).Contents (Elt F) → (⟨S8192x1, .f32⟩ : BufTy).Contents (Elt F)),
    StableHlo.unary main_v17 main_v18 (broadcastInDim S8192x1024 ![0, 1] bcast_S8192x1_S8192x1024_0_1 : (⟨S8192x1, .f32⟩ : BufTy).Contents (Elt F) → (⟨S8192x1024, .f32⟩ : BufTy).Contents (Elt F)),
    StableHlo.binary main_v15 main_v18 main_v19 (Host.divf : (⟨S8192x1024, .f32⟩ : BufTy).Contents (Elt F) → (⟨S8192x1024, .f32⟩ : BufTy).Contents (Elt F) → (⟨S8192x1024, .f32⟩ : BufTy).Contents (Elt F)),
    StableHlo.binary main_arg1 main_v19 main_v20 ((fun l r => Host.dotGeneral dot_S8192x8192_S8192x1024_S8192x1024_1_0_0_1_n_n none l r) : (⟨S8192x8192, .f32⟩ : BufTy).Contents (Elt F) → (⟨S8192x1024, .f32⟩ : BufTy).Contents (Elt F) → (⟨S8192x1024, .f32⟩ : BufTy).Contents (Elt F)),
    StableHlo.unary main_v19 main_v21 ((transpose S1024x8192 [1, 0] · transposes_S8192x1024_S1024x8192_1_0) : (⟨S8192x1024, .f32⟩ : BufTy).Contents (Elt F) → (⟨S1024x8192, .f32⟩ : BufTy).Contents (Elt F)),
    StableHlo.binary main_v21 main_v20 main_v22 ((fun l r => Host.dotGeneral dot_S1024x8192_S8192x1024_S1024x1024_1_0_0_1_n_n none l r) : (⟨S1024x8192, .f32⟩ : BufTy).Contents (Elt F) → (⟨S8192x1024, .f32⟩ : BufTy).Contents (Elt F) → (⟨S1024x1024, .f32⟩ : BufTy).Contents (Elt F)),
    StableHlo.TRef.nullary main_call1.v0 (iotaInDim S1024x1024 32 0),
    StableHlo.TRef.nullary main_call1.v1 (iotaInDim S1024x1024 32 1),
    StableHlo.TRef.nullary main_call1.c (constantI S_ 32 0#32),
    StableHlo.TRef.unary main_call1.c main_call1.v2 (broadcastInDim S1024x1024 ![] bcast_S_S1024x1024),
    StableHlo.TRef.binary main_call1.v0 main_call1.v2 main_call1.v3 addi,
    StableHlo.TRef.binary main_call1.v3 main_call1.v1 main_call1.v4 (cmpi .eq),
    StableHlo.TRef.nullary main_call1.cst (constant S_ .f32 0x00000000#32),
    StableHlo.TRef.unary main_call1.cst main_call1.v5 (broadcastInDim S1024x1024 ![] bcast_S_S1024x1024),
    StableHlo.TRef.ternary main_call1.v4 (.of main_v22) main_call1.v5 main_call1.call0.v0 select,
    StableHlo.TRef.nullary main_call1.cst_0 (constant S_ .f32 0x00000000#32),
    StableHlo.TRef.binary main_call1.call0.v0 main_call1.cst_0 main_call1.v7 (fun x v => Host.reduceAdd x v reducesTo_S1024x1024_S_d0_1 h_S_),
    StableHlo.nullary main_cst_2 (constant S_ .f32 0x00000000#32),
    StableHlo.binary main_arg1 main_cst_2 main_v24 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.binary main_v19 main_v19 main_v25 (mulf : (⟨S8192x1024, .f32⟩ : BufTy).Contents (Elt F) → (⟨S8192x1024, .f32⟩ : BufTy).Contents (Elt F) → (⟨S8192x1024, .f32⟩ : BufTy).Contents (Elt F)),
    StableHlo.nullary main_cst_3 (constant S_ .f32 0x00000000#32),
    StableHlo.binary main_v25 main_cst_3 main_v26 ((fun x v => Host.reduceAdd x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    StableHlo.binary main_v24 main_v26 main_v27 (mulf : (⟨S8192, .f32⟩ : BufTy).Contents (Elt F) → (⟨S8192, .f32⟩ : BufTy).Contents (Elt F) → (⟨S8192, .f32⟩ : BufTy).Contents (Elt F)),
    StableHlo.nullary main_cst_4 (constant S_ .f32 0x00000000#32),
    StableHlo.binary main_v27 main_cst_4 main_v28 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_5 (constant S_ .f32 0x33D6BF95#32),
    StableHlo.binary main_v28 main_cst_5 main_v29 (addf : (⟨S_, .f32⟩ : BufTy).Contents (Elt F) → (⟨S_, .f32⟩ : BufTy).Contents (Elt F) → (⟨S_, .f32⟩ : BufTy).Contents (Elt F)),
    StableHlo.binary main_v23 main_v29 main_v30 (Host.divf : (⟨S_, .f32⟩ : BufTy).Contents (Elt F) → (⟨S_, .f32⟩ : BufTy).Contents (Elt F) → (⟨S_, .f32⟩ : BufTy).Contents (Elt F)),
    StableHlo.unary main_v30 main_v31 (Host.negf : (⟨S_, .f32⟩ : BufTy).Contents (Elt F) → (⟨S_, .f32⟩ : BufTy).Contents (Elt F)),
    StableHlo.unary main_v19 main_v32 ((transpose S1024x8192 [1, 0] · transposes_S8192x1024_S1024x8192_1_0) : (⟨S8192x1024, .f32⟩ : BufTy).Contents (Elt F) → (⟨S1024x8192, .f32⟩ : BufTy).Contents (Elt F)),
    StableHlo.binary main_v32 main_v19 main_v33 ((fun l r => Host.dotGeneral dot_S1024x8192_S8192x1024_S1024x1024_1_0_0_1_n_n none l r) : (⟨S1024x8192, .f32⟩ : BufTy).Contents (Elt F) → (⟨S8192x1024, .f32⟩ : BufTy).Contents (Elt F) → (⟨S1024x1024, .f32⟩ : BufTy).Contents (Elt F)),
    StableHlo.nullary main_v34 (iotaInDim S1024x1024 32 0),
    StableHlo.nullary main_v35 (iotaInDim S1024x1024 32 1),
    StableHlo.nullary main_c (constantI S_ 32 0#32),
    StableHlo.unary main_c main_v36 (broadcastInDim S1024x1024 ![] bcast_S_S1024x1024 : (⟨S_, .i32⟩ : BufTy).Contents (Elt F) → (⟨S1024x1024, .i32⟩ : BufTy).Contents (Elt F)),
    StableHlo.binary main_v34 main_v36 main_v37 (addi : (⟨S1024x1024, .i32⟩ : BufTy).Contents (Elt F) → (⟨S1024x1024, .i32⟩ : BufTy).Contents (Elt F) → (⟨S1024x1024, .i32⟩ : BufTy).Contents (Elt F)),
    StableHlo.binary main_v37 main_v35 main_v38 (cmpi .eq : (⟨S1024x1024, .i32⟩ : BufTy).Contents (Elt F) → (⟨S1024x1024, .i32⟩ : BufTy).Contents (Elt F) → (⟨S1024x1024, .i1⟩ : BufTy).Contents (Elt F)),
    StableHlo.unary main_v38 main_v39 (uitofp .f32 : (⟨S1024x1024, .i1⟩ : BufTy).Contents (Elt F) → (⟨S1024x1024, .f32⟩ : BufTy).Contents (Elt F)),
    StableHlo.TRef.binary (.of main_v33) (.of main_v33) main_call2.v0 mulf,
    StableHlo.TRef.nullary main_call2.cst (constant S_ .f32 0x00000000#32),
    StableHlo.TRef.binary main_call2.v0 main_call2.cst main_call2.v1 (fun x v => Host.reduceAdd x v reducesTo_S1024x1024_S_d0_1 h_S_),
    StableHlo.TRef.unary main_call2.v1 main_call2.v2 Host.sqrt,
    StableHlo.unary main_v40 main_v41 (broadcastInDim S1024x1024 ![] bcast_S_S1024x1024 : (⟨S_, .f32⟩ : BufTy).Contents (Elt F) → (⟨S1024x1024, .f32⟩ : BufTy).Contents (Elt F)),
    StableHlo.binary main_v33 main_v41 main_v42 (Host.divf : (⟨S1024x1024, .f32⟩ : BufTy).Contents (Elt F) → (⟨S1024x1024, .f32⟩ : BufTy).Contents (Elt F) → (⟨S1024x1024, .f32⟩ : BufTy).Contents (Elt F)),
    StableHlo.nullary main_cst_6 (constant S_ .f32 0x44800000#32),
    StableHlo.unary main_cst_6 main_v43 (Host.sqrt : (⟨S_, .f32⟩ : BufTy).Contents (Elt F) → (⟨S_, .f32⟩ : BufTy).Contents (Elt F)),
    StableHlo.unary main_v43 main_v44 (broadcastInDim S1024x1024 ![] bcast_S_S1024x1024 : (⟨S_, .f32⟩ : BufTy).Contents (Elt F) → (⟨S1024x1024, .f32⟩ : BufTy).Contents (Elt F)),
    StableHlo.binary main_v39 main_v44 main_v45 (Host.divf : (⟨S1024x1024, .f32⟩ : BufTy).Contents (Elt F) → (⟨S1024x1024, .f32⟩ : BufTy).Contents (Elt F) → (⟨S1024x1024, .f32⟩ : BufTy).Contents (Elt F)),
    StableHlo.binary main_v42 main_v45 main_v46 (subf : (⟨S1024x1024, .f32⟩ : BufTy).Contents (Elt F) → (⟨S1024x1024, .f32⟩ : BufTy).Contents (Elt F) → (⟨S1024x1024, .f32⟩ : BufTy).Contents (Elt F)),
    StableHlo.TRef.binary (.of main_v46) (.of main_v46) main_call3.v0 mulf,
    StableHlo.TRef.nullary main_call3.cst (constant S_ .f32 0x00000000#32),
    StableHlo.TRef.binary main_call3.v0 main_call3.cst main_call3.v1 (fun x v => Host.reduceAdd x v reducesTo_S1024x1024_S_d0_1 h_S_),
    StableHlo.TRef.unary main_call3.v1 main_call3.v2 Host.sqrt,
    StableHlo.unary main_v19 main_v48 ((transpose S1024x8192 [1, 0] · transposes_S8192x1024_S1024x8192_1_0) : (⟨S8192x1024, .f32⟩ : BufTy).Contents (Elt F) → (⟨S1024x8192, .f32⟩ : BufTy).Contents (Elt F)),
    StableHlo.binary main_v48 main_arg0 main_v49 ((fun l r => Host.dotGeneral dot_S1024x8192_S8192x64_S1024x64_1_0_0_1_n_n none l r) : (⟨S1024x8192, .f32⟩ : BufTy).Contents (Elt F) → (⟨S8192x64, .f32⟩ : BufTy).Contents (Elt F) → (⟨S1024x64, .f32⟩ : BufTy).Contents (Elt F)),
    StableHlo.nullary main_cst_7 (constant S_ .f32 0x3F800000#32),
    StableHlo.unary main_cst_7 main_v50 (broadcastInDim S1024x1024 ![] bcast_S_S1024x1024 : (⟨S_, .f32⟩ : BufTy).Contents (Elt F) → (⟨S1024x1024, .f32⟩ : BufTy).Contents (Elt F)),
    StableHlo.binary main_v50 main_v39 main_v51 (subf : (⟨S1024x1024, .f32⟩ : BufTy).Contents (Elt F) → (⟨S1024x1024, .f32⟩ : BufTy).Contents (Elt F) → (⟨S1024x1024, .f32⟩ : BufTy).Contents (Elt F)),
    StableHlo.binary main_v22 main_v51 main_v52 (mulf : (⟨S1024x1024, .f32⟩ : BufTy).Contents (Elt F) → (⟨S1024x1024, .f32⟩ : BufTy).Contents (Elt F) → (⟨S1024x1024, .f32⟩ : BufTy).Contents (Elt F)),
    StableHlo.nullary main_cst_8 (constant S_ .f32 0x00000000#32),
    StableHlo.binary main_v52 main_cst_8 main_v53 ((fun x v => Host.reduceAdd x v reducesTo_S1024x1024_S1024_d1 h_S_) : (⟨S1024x1024, .f32⟩ : BufTy).Contents (Elt F) → (⟨S_, .f32⟩ : BufTy).Contents (Elt F) → (⟨S1024, .f32⟩ : BufTy).Contents (Elt F)),
    StableHlo.nullary main_cst_9 (constant S_ .f32 0xBF000000#32),
    StableHlo.unary main_cst_9 main_v54 (broadcastInDim S1024 ![] bcast_S_S1024 : (⟨S_, .f32⟩ : BufTy).Contents (Elt F) → (⟨S1024, .f32⟩ : BufTy).Contents (Elt F)),
    StableHlo.binary main_v53 main_v54 main_v55 (Host.powf : (⟨S1024, .f32⟩ : BufTy).Contents (Elt F) → (⟨S1024, .f32⟩ : BufTy).Contents (Elt F) → (⟨S1024, .f32⟩ : BufTy).Contents (Elt F)),
    StableHlo.unary main_v55 main_v56 (broadcastInDim S1024x1 ![0] bcast_S1024_S1024x1_0 : (⟨S1024, .f32⟩ : BufTy).Contents (Elt F) → (⟨S1024x1, .f32⟩ : BufTy).Contents (Elt F)),
    StableHlo.unary main_v56 main_v57 (broadcastInDim S1024x1024 ![0, 1] bcast_S1024x1_S1024x1024_0_1 : (⟨S1024x1, .f32⟩ : BufTy).Contents (Elt F) → (⟨S1024x1024, .f32⟩ : BufTy).Contents (Elt F)),
    StableHlo.binary main_v57 main_v52 main_v58 (mulf : (⟨S1024x1024, .f32⟩ : BufTy).Contents (Elt F) → (⟨S1024x1024, .f32⟩ : BufTy).Contents (Elt F) → (⟨S1024x1024, .f32⟩ : BufTy).Contents (Elt F)),
    StableHlo.unary main_v55 main_v59 (broadcastInDim S1x1024 ![1] bcast_S1024_S1x1024_1 : (⟨S1024, .f32⟩ : BufTy).Contents (Elt F) → (⟨S1x1024, .f32⟩ : BufTy).Contents (Elt F)),
    StableHlo.unary main_v59 main_v60 (broadcastInDim S1024x1024 ![0, 1] bcast_S1x1024_S1024x1024_0_1 : (⟨S1x1024, .f32⟩ : BufTy).Contents (Elt F) → (⟨S1024x1024, .f32⟩ : BufTy).Contents (Elt F)),
    StableHlo.binary main_v58 main_v60 main_v61 (mulf : (⟨S1024x1024, .f32⟩ : BufTy).Contents (Elt F) → (⟨S1024x1024, .f32⟩ : BufTy).Contents (Elt F) → (⟨S1024x1024, .f32⟩ : BufTy).Contents (Elt F)),
    StableHlo.nullary main_c_10 (constantI S_ 32 1#32),
    StableHlo.unary main_c_10 main_v62 (broadcastInDim S8192 ![] bcast_S_S8192 : (⟨S_, .i32⟩ : BufTy).Contents (Elt F) → (⟨S8192, .i32⟩ : BufTy).Contents (Elt F)),
    StableHlo.nullary main_c_11 (constantI S_ 32 0#32),
    StableHlo.unary main_c_11 main_v63 (broadcastInDim S1 ![] bcast_S_S1 : (⟨S_, .i32⟩ : BufTy).Contents (Elt F) → (⟨S1, .i32⟩ : BufTy).Contents (Elt F)),
    StableHlo.unary main_arg2 main_v64 (broadcastInDim S8192x1 ![0] bcast_S8192_S8192x1_0 : (⟨S8192, .i32⟩ : BufTy).Contents (Elt F) → (⟨S8192x1, .i32⟩ : BufTy).Contents (Elt F)),
    StableHlo.ternary main_v63 main_v64 main_v62 main_v65 ((fun x i u => Host.scatter scatter_S1_S8192x1_S8192_n_0_0_1 IntOp.addi x i u) : (⟨S1, .i32⟩ : BufTy).Contents (Elt F) → (⟨S8192x1, .i32⟩ : BufTy).Contents (Elt F) → (⟨S8192, .i32⟩ : BufTy).Contents (Elt F) → (⟨S1, .i32⟩ : BufTy).Contents (Elt F)),
    StableHlo.nullary main_c_12 (constantI S_ 32 0#32),
    StableHlo.unary main_c_12 main_v66 (broadcastInDim S1 ![] bcast_S_S1 : (⟨S_, .i32⟩ : BufTy).Contents (Elt F) → (⟨S1, .i32⟩ : BufTy).Contents (Elt F)),
    StableHlo.unary main_arg2 main_v67 (broadcastInDim S8192x1 ![0] bcast_S8192_S8192x1_0 : (⟨S8192, .i32⟩ : BufTy).Contents (Elt F) → (⟨S8192x1, .i32⟩ : BufTy).Contents (Elt F)),
    StableHlo.ternary main_v66 main_v67 main_arg2 main_v68 ((fun x i u => Host.scatter scatter_S1_S8192x1_S8192_n_0_0_1 IntOp.addi x i u) : (⟨S1, .i32⟩ : BufTy).Contents (Elt F) → (⟨S8192x1, .i32⟩ : BufTy).Contents (Elt F) → (⟨S8192, .i32⟩ : BufTy).Contents (Elt F) → (⟨S1, .i32⟩ : BufTy).Contents (Elt F)),
    StableHlo.nullary main_c_13 (constantI S_ 32 1#32),
    StableHlo.unary main_c_13 main_v69 (broadcastInDim S1 ![] bcast_S_S1 : (⟨S_, .i32⟩ : BufTy).Contents (Elt F) → (⟨S1, .i32⟩ : BufTy).Contents (Elt F)),
    StableHlo.binary main_v65 main_v69 main_v70 (maxsi : (⟨S1, .i32⟩ : BufTy).Contents (Elt F) → (⟨S1, .i32⟩ : BufTy).Contents (Elt F) → (⟨S1, .i32⟩ : BufTy).Contents (Elt F)),
    StableHlo.TRef.binary (.of main_v68) (.of main_v70) main_call4.v0 Host.divsi,
    StableHlo.TRef.unary (.of main_v68) main_call4.v1 signi,
    StableHlo.TRef.unary (.of main_v70) main_call4.v2 signi,
    StableHlo.TRef.binary main_call4.v1 main_call4.v2 main_call4.v3 (cmpi .ne),
    StableHlo.TRef.binary (.of main_v68) (.of main_v70) main_call4.v4 Host.remsi,
    StableHlo.TRef.nullary main_call4.c (constantI S_ 32 0#32),
    StableHlo.TRef.unary main_call4.c main_call4.v5 (broadcastInDim S1 ![] bcast_S_S1),
    StableHlo.TRef.binary main_call4.v4 main_call4.v5 main_call4.v6 (cmpi .ne),
    StableHlo.TRef.binary main_call4.v3 main_call4.v6 main_call4.v7 andi,
    StableHlo.TRef.nullary main_call4.c_0 (constantI S_ 32 1#32),
    StableHlo.TRef.unary main_call4.c_0 main_call4.v8 (broadcastInDim S1 ![] bcast_S_S1),
    StableHlo.TRef.binary main_call4.v0 main_call4.v8 main_call4.v9 subi,
    StableHlo.TRef.ternary main_call4.v7 main_call4.v9 main_call4.v0 main_call4.call0.v0 select,
    StableHlo.unary main_v71 main_v72 (broadcastInDim S1x1024 ![0] bcast_S1_S1x1024_0 : (⟨S1, .i32⟩ : BufTy).Contents (Elt F) → (⟨S1x1024, .i32⟩ : BufTy).Contents (Elt F)),
    StableHlo.reshape main_v72 main_v73 rfl shapeCasts_S1x1024_S1024 ]

-- the binds of a hundred and twenty statements are re-associated one under the other
set_option maxRecDepth 8192 in
set_option maxHeartbeats 1600000 in
/-- The program is that straight line: the callees' definitions unfolded at their calls, both sides are one chain of
    operation steps once sequencing is re-associated. -/
theorem main_eq (c : Dev nD) : main (F := F) c = seq ops := by
  simp only [main, main_part0, main_part1, fn_relu.body, fn_trace.body, fn_where.body, fn_norm.body, fn_floor_divide.body,
    fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub .., binary_bufs_sub .., unary_bufs_sub .., binary_bufs_sub .., nullary_bufs_sub .., nullary_bufs_sub ..,
    nullary_bufs_sub .., unary_bufs_sub .., binary_bufs_sub .., binary_bufs_sub .., nullary_bufs_sub .., unary_bufs_sub ..,
    ternary_bufs_sub .., nullary_bufs_sub .., binary_bufs_sub .., nullary_bufs_sub .., binary_bufs_sub .., binary_bufs_sub ..,
    nullary_bufs_sub .., binary_bufs_sub .., binary_bufs_sub .., nullary_bufs_sub .., binary_bufs_sub .., nullary_bufs_sub ..,
    binary_bufs_sub .., binary_bufs_sub .., unary_bufs_sub .., unary_bufs_sub .., binary_bufs_sub .., nullary_bufs_sub ..,
    nullary_bufs_sub .., nullary_bufs_sub .., unary_bufs_sub .., binary_bufs_sub .., binary_bufs_sub .., unary_bufs_sub ..,
    binary_bufs_sub .., nullary_bufs_sub .., binary_bufs_sub .., unary_bufs_sub .., unary_bufs_sub .., binary_bufs_sub ..,
    nullary_bufs_sub .., unary_bufs_sub .., unary_bufs_sub .., binary_bufs_sub .., binary_bufs_sub .., binary_bufs_sub ..,
    nullary_bufs_sub .., binary_bufs_sub .., unary_bufs_sub .., unary_bufs_sub .., binary_bufs_sub .., nullary_bufs_sub ..,
    unary_bufs_sub .., binary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., nullary_bufs_sub .., unary_bufs_sub ..,
    unary_bufs_sub .., ternary_bufs_sub .., nullary_bufs_sub .., unary_bufs_sub .., unary_bufs_sub .., ternary_bufs_sub ..,
    nullary_bufs_sub .., unary_bufs_sub .., binary_bufs_sub .., binary_bufs_sub .., unary_bufs_sub .., unary_bufs_sub ..,
    binary_bufs_sub .., binary_bufs_sub .., nullary_bufs_sub .., unary_bufs_sub .., binary_bufs_sub .., binary_bufs_sub ..,
    nullary_bufs_sub .., unary_bufs_sub .., binary_bufs_sub .., ternary_bufs_sub .., unary_bufs_sub .., reshape_bufs_sub ..⟩

/-- From any memory with zero counters every execution of the program terminates, and every final state has each
    buffer of the device at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.reduceAdd Host.scatter in
set_option maxRecDepth 8192 in
set_option maxHeartbeats 1600000 in
/-- The product sᵀx: the last transpose of the assignment matrix times the features. Read through the fold, every operation's result at its own buffer is its function of its operands'
    contents; what is left is the stages' composition, each stage being the operations it covers in their order. -/
theorem v49_eq (V : Valuation τ sig (Elt Ideal)) :
    after (ops (F := Ideal)) V (main_v49 : DevRef τ sig)
      = Stage.gramNarrow (Stage.assign (V (main_arg0 : DevRef τ sig)) (V (main_arg3 : DevRef τ sig)) (V (main_arg4 : DevRef τ sig)) (V (main_arg5 : DevRef τ sig)) (V (main_arg6 : DevRef τ sig))) (V (main_arg0 : DevRef τ sig)) := by
  read_fold_casts [TRef.ofBuf_toBuf, TRef.toBuf_ofBuf]
  rfl

attribute [local irreducible] Host.reduce Host.reduceAdd Host.scatter in
set_option maxRecDepth 8192 in
set_option maxHeartbeats 1600000 in
/-- The pooled adjacency sᵀ(a s), its diagonal zeroed, scaled on both sides by the inverse square roots of its row sums. Read through the fold, every operation's result at its own buffer is its function of its operands'
    contents; what is left is the stages' composition, each stage being the operations it covers in their order. -/
theorem v61_eq (V : Valuation τ sig (Elt Ideal)) :
    after (ops (F := Ideal)) V (main_v61 : DevRef τ sig)
      = Stage.normalized (Stage.gramWide (Stage.assign (V (main_arg0 : DevRef τ sig)) (V (main_arg3 : DevRef τ sig)) (V (main_arg4 : DevRef τ sig)) (V (main_arg5 : DevRef τ sig)) (V (main_arg6 : DevRef τ sig))) (Stage.aTimes (V (main_arg1 : DevRef τ sig)) (Stage.assign (V (main_arg0 : DevRef τ sig)) (V (main_arg3 : DevRef τ sig)) (V (main_arg4 : DevRef τ sig)) (V (main_arg5 : DevRef τ sig)) (V (main_arg6 : DevRef τ sig))))) := by
  read_fold_casts [TRef.ofBuf_toBuf, TRef.toBuf_ofBuf]
  rfl

attribute [local irreducible] Host.reduce Host.reduceAdd Host.scatter in
set_option maxRecDepth 8192 in
set_option maxHeartbeats 1600000 in
/-- The pooled index: the two segment sums, the floor division with its sign correction, spread over the clusters. Read through the fold, every operation's result at its own buffer is its function of its operands'
    contents; what is left is the stages' composition, each stage being the operations it covers in their order. -/
theorem v73_eq (V : Valuation τ sig (Elt Ideal)) :
    after (ops (F := Ideal)) V (main_v73 : DevRef τ sig)
      = Stage.pooledIndex (V (main_arg2 : DevRef τ sig)) := by
  read_fold_casts [TRef.ofBuf_toBuf, TRef.toBuf_ofBuf]
  rfl

attribute [local irreducible] Host.reduce Host.reduceAdd Host.scatter in
set_option maxRecDepth 8192 in
set_option maxHeartbeats 1600000 in
/-- The cut loss: minus the trace of sᵀ(a s) over the sum of degree times squared row norm, plus the small constant. Read through the fold, every operation's result at its own buffer is its function of its operands'
    contents; what is left is the stages' composition, each stage being the operations it covers in their order. -/
theorem v31_eq (V : Valuation τ sig (Elt Ideal)) :
    after (ops (F := Ideal)) V (main_v31 : DevRef τ sig)
      = Stage.cutLoss (Stage.gramWide (Stage.assign (V (main_arg0 : DevRef τ sig)) (V (main_arg3 : DevRef τ sig)) (V (main_arg4 : DevRef τ sig)) (V (main_arg5 : DevRef τ sig)) (V (main_arg6 : DevRef τ sig))) (Stage.aTimes (V (main_arg1 : DevRef τ sig)) (Stage.assign (V (main_arg0 : DevRef τ sig)) (V (main_arg3 : DevRef τ sig)) (V (main_arg4 : DevRef τ sig)) (V (main_arg5 : DevRef τ sig)) (V (main_arg6 : DevRef τ sig))))) (Stage.degrees (V (main_arg1 : DevRef τ sig))) (Stage.rowSquares (Stage.assign (V (main_arg0 : DevRef τ sig)) (V (main_arg3 : DevRef τ sig)) (V (main_arg4 : DevRef τ sig)) (V (main_arg5 : DevRef τ sig)) (V (main_arg6 : DevRef τ sig)))) := by
  read_fold_casts [TRef.ofBuf_toBuf, TRef.toBuf_ofBuf]
  rfl

attribute [local irreducible] Host.reduce Host.reduceAdd Host.scatter in
set_option maxRecDepth 8192 in
set_option maxHeartbeats 1600000 in
/-- The orthogonality loss: the norm of sᵀs over its norm minus the scaled identity. Read through the fold, every operation's result at its own buffer is its function of its operands'
    contents; what is left is the stages' composition, each stage being the operations it covers in their order. -/
theorem v47_eq (V : Valuation τ sig (Elt Ideal)) :
    after (ops (F := Ideal)) V (main_v47 : DevRef τ sig)
      = Stage.orthoLoss (Stage.gramWide (Stage.assign (V (main_arg0 : DevRef τ sig)) (V (main_arg3 : DevRef τ sig)) (V (main_arg4 : DevRef τ sig)) (V (main_arg5 : DevRef τ sig)) (V (main_arg6 : DevRef τ sig))) (Stage.assign (V (main_arg0 : DevRef τ sig)) (V (main_arg3 : DevRef τ sig)) (V (main_arg4 : DevRef τ sig)) (V (main_arg5 : DevRef τ sig)) (V (main_arg6 : DevRef τ sig)))) := by
  read_fold_casts [TRef.ofBuf_toBuf, TRef.toBuf_ofBuf]
  rfl

set_option maxRecDepth 8192 in
/-- No operation writes argument 0. -/
theorem arg0_eq (V : Valuation τ sig (Elt Ideal)) :
    after (ops (F := Ideal)) V (main_arg0 : DevRef τ sig) = V (main_arg0 : DevRef τ sig) := by
  read_fold_casts [TRef.ofBuf_toBuf, TRef.toBuf_ofBuf]

set_option maxRecDepth 8192 in
/-- No operation writes argument 1. -/
theorem arg1_eq (V : Valuation τ sig (Elt Ideal)) :
    after (ops (F := Ideal)) V (main_arg1 : DevRef τ sig) = V (main_arg1 : DevRef τ sig) := by
  read_fold_casts [TRef.ofBuf_toBuf, TRef.toBuf_ofBuf]

set_option maxRecDepth 8192 in
/-- No operation writes argument 2. -/
theorem arg2_eq (V : Valuation τ sig (Elt Ideal)) :
    after (ops (F := Ideal)) V (main_arg2 : DevRef τ sig) = V (main_arg2 : DevRef τ sig) := by
  read_fold_casts [TRef.ofBuf_toBuf, TRef.toBuf_ofBuf]

set_option maxRecDepth 8192 in
/-- No operation writes argument 3. -/
theorem arg3_eq (V : Valuation τ sig (Elt Ideal)) :
    after (ops (F := Ideal)) V (main_arg3 : DevRef τ sig) = V (main_arg3 : DevRef τ sig) := by
  read_fold_casts [TRef.ofBuf_toBuf, TRef.toBuf_ofBuf]

set_option maxRecDepth 8192 in
/-- No operation writes argument 4. -/
theorem arg4_eq (V : Valuation τ sig (Elt Ideal)) :
    after (ops (F := Ideal)) V (main_arg4 : DevRef τ sig) = V (main_arg4 : DevRef τ sig) := by
  read_fold_casts [TRef.ofBuf_toBuf, TRef.toBuf_ofBuf]

set_option maxRecDepth 8192 in
/-- No operation writes argument 5. -/
theorem arg5_eq (V : Valuation τ sig (Elt Ideal)) :
    after (ops (F := Ideal)) V (main_arg5 : DevRef τ sig) = V (main_arg5 : DevRef τ sig) := by
  read_fold_casts [TRef.ofBuf_toBuf, TRef.toBuf_ofBuf]

set_option maxRecDepth 8192 in
/-- No operation writes argument 6. -/
theorem arg6_eq (V : Valuation τ sig (Elt Ideal)) :
    after (ops (F := Ideal)) V (main_arg6 : DevRef τ sig) = V (main_arg6 : DevRef τ sig) := by
  read_fold_casts [TRef.ofBuf_toBuf, TRef.toBuf_ofBuf]

/-- From any memory with zero counters every execution of the reference terminates; in every final state the five
    results are the stages' compositions of the arguments' launch contents (with s the assignment matrix of the
    features and the four weights): sᵀx, the normalised sᵀ(a s), the pooled index, the cut loss and the orthogonality
    loss; and the seven arguments are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v49) = Stage.gramNarrow (Stage.assign (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg0))
      ∧ r.2.mem ((c.tc : Thread nD τ).loc main_v61) = Stage.normalized (Stage.gramWide (Stage.assign (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) (Stage.aTimes (m ((c.tc : Thread nD τ).loc main_arg1)) (Stage.assign (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)))))
      ∧ r.2.mem ((c.tc : Thread nD τ).loc main_v73) = Stage.pooledIndex (m ((c.tc : Thread nD τ).loc main_arg2))
      ∧ r.2.mem ((c.tc : Thread nD τ).loc main_v31) = Stage.cutLoss (Stage.gramWide (Stage.assign (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) (Stage.aTimes (m ((c.tc : Thread nD τ).loc main_arg1)) (Stage.assign (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))))) (Stage.degrees (m ((c.tc : Thread nD τ).loc main_arg1))) (Stage.rowSquares (Stage.assign (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))))
      ∧ r.2.mem ((c.tc : Thread nD τ).loc main_v47) = Stage.orthoLoss (Stage.gramWide (Stage.assign (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) (Stage.assign (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨(h c main_v49).trans (v49_eq _), (h c main_v61).trans (v61_eq _), (h c main_v73).trans (v73_eq _),
        (h c main_v31).trans (v31_eq _), (h c main_v47).trans (v47_eq _),
        (h c main_arg0).trans (arg0_eq _), (h c main_arg1).trans (arg1_eq _), (h c main_arg2).trans (arg2_eq _), (h c main_arg3).trans (arg3_eq _), (h c main_arg4).trans (arg4_eq _), (h c main_arg5).trans (arg5_eq _), (h c main_arg6).trans (arg6_eq _)⟩)
    (run_main m ρ)

end Cert.ReferenceIdeal.RefValue

end
-- ==== Proof.LibRegionBlockSpread.lean ====
/-
  Keep-dimension columns and rows spread by the host over a matrix, read at an index.

  After a reduction along the rows of an `[a, b]` array the host keeps the result as an `[a, 1]` column and spreads it
  back over the `b` columns, both with `broadcast_in_dim`; a bias is an `[1, b]` row spread over the `a` rows.  Read at
  `(p, q)`, each of these is the value of the row `p`, or of the column `q`, alone:

    * an `[a]` array spread in dimension 0 to an `[a, 1]` column reads at `(p, z)` the array at `p`;
    * an `[a, 1]` column spread in dimensions (0, 1) over `[a, b]` reads at `(p, q)` the column at `(p, 0)`;
    * a `[1, b]` row spread in dimensions (0, 1) over `[a, b]` reads at `(p, q)` the row at `(0, q)`.

  The square root, which a kernel and the host apply entry by entry, is read at an index by definition.
-/
import Idealize.ShloMosaic.PureOps.Ideal
import Idealize.ShloMosaic.Lib.ValueIdx
import Idealize.ShloMosaic.Lib.Pipeline.Value

noncomputable section

namespace Idealize.ShloMosaic.KeepDims

open Idealize.ShloMosaic Idealize.ShloMosaic.ValueIdx

/-! ## The square root at an index -/

section Pointwise
variable {s : Shape} {φ : FTy}

/-- A kernel's square root at an index is the square root of the entry. -/
theorem sqrt_apply (a : FVec Ideal s φ) (i : s.Idx) : sqrt a i = Ideal.sqrt (a i) := rfl
/-- The host's square root at an index is the same function of the entry. -/
theorem hostSqrt_apply (a : FVec Ideal s φ) (i : s.Idx) : Host.sqrt a i = Ideal.sqrt (a i) := rfl

end Pointwise

/-! ## Columns and rows spread over a matrix -/

section Layout
variable {α : Type}

/-- An `[a]` array spread in dimension 0 to an `[a, 1]` column reads, at `(p, z)`, the array at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h x (ix2 p z) = x (ix1 p) :=
  broadcastInDim_apply ![0] h x (ix2 p z) (ix1 p) fun ax => by
    match ax with
    | ⟨0, _⟩ =>
      show p.val = if a = 1 then 0 else p.val
      split
      · have := p.isLt; omega
      · rfl

/-- An `[a, 1]` column spread in dimensions (0, 1) over `[a, b]` reads, at `(p, q)`, the column at `(p, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) :=
  broadcastInDim_apply ![0, 1] h x (ix2 p q) (ix2 p (0 : Fin 1)) fun ax => by
    match ax with
    | ⟨0, _⟩ =>
      show p.val = if a = 1 then 0 else p.val
      split
      · have := p.isLt; omega
      · rfl
    | ⟨1, _⟩ => rfl

/-- A `[1, b]` row spread in dimensions (0, 1) over `[a, b]` reads, at `(p, q)`, the row at `(0, q)`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) :=
  broadcastInDim_apply ![0, 1] h x (ix2 p q) (ix2 (0 : Fin 1) q) fun ax => by
    match ax with
    | ⟨0, _⟩ => rfl
    | ⟨1, _⟩ =>
      show q.val = if b = 1 then 0 else q.val
      split
      · have := q.isLt; omega
      · rfl

end Layout

end Idealize.ShloMosaic.KeepDims

end
-- ==== Proof.RefFront.lean ====
/-
  The reference's stages are the plain formulas.

  Read at an index, each of the reference's first stages is the entry-wise formula of the specification: a plain
  `dot_general` is the sum over the contracted coordinate; a bias spread over the rows adds `b q`; a row maximum
  from minus infinity spread back over its row is the row's shift; a row sum from the zero word is the plain row
  sum (the zero word is the real zero, and `0 + x = x`); a transpose followed by a plain product contracts both
  arrays on their rows.
-/
import proofs.«116769_j12343736009109_2_alg».proof.Proof.RefStages
import proofs.«116769_j12343736009109_2_alg».proof.Proof.Spec
import proofs.«116769_j12343736009109_2_alg».proof.Proof.LibPlainDot
import proofs.«116769_j12343736009109_2_alg».proof.Proof.LibMatProd
import proofs.«116769_j12343736009109_2_alg».proof.Proof.LibRowReduce
import proofs.«116769_j12343736009109_2_alg».proof.Proof.LibRegionBlockSpread
import proofs.«116769_j12343736009109_2_alg».proof.Proof.LibDense
import Idealize.ShloMosaic.Lib.ValueLayout
import Idealize.ShloMosaic.Lib.IdealHost
import Idealize.ShloMosaic.PureOps.Ideal.Laws

noncomputable section

namespace Cert.ReferenceIdeal.Front

open Idealize.ShloMosaic Idealize.ShloMosaic.ValueIdx Cert.ReferenceIdeal Cert.ReferenceIdeal.Stage

variable [Facts]
open Facts₀ Facts

/-- The rank-0 zero word is the real zero. -/
theorem zero_init (hu : 0 < S_.numel) : (constant (F := Ideal) S_ .f32 0x00000000#32) (Shape.Idx.first hu) = 0 :=
  Ideal.ofBits_zero_f32

/-- `a s` is the matrix product. -/
theorem aTimes_eq (a : FVec Ideal S8192x8192 .f32) (s : FVec Ideal S8192x1024 .f32) :
    Stage.aTimes a s = MatProd.matProd a s :=
  MatProd.dotGeneral_eq_matProd _ rfl none .single a s

/-- A transpose followed by a plain product contracts both arrays on their rows. -/
theorem gramWide_eq (s y : FVec Ideal S8192x1024 .f32) : Stage.gramWide s y = Pool.gram s y := by
  funext j
  obtain ⟨p, q, rfl⟩ : ∃ (p : Fin 1024) (q : Fin 1024), j = ix2 p q := ⟨j 0, j 1, eq_ix2 j⟩
  unfold Stage.gramWide
  refine (PlainDot.dotGeneral_apply _ rfl none .single _ y p q).trans ?_
  rw [Pool.gram_apply]
  exact Finset.sum_congr rfl fun k _ => by rw [transpose_ix2_apply]

/-- The same against a `[8192, 64]` array. -/
theorem gramNarrow_eq (s : FVec Ideal S8192x1024 .f32) (x : FVec Ideal S8192x64 .f32) :
    Stage.gramNarrow s x = Pool.gram s x := by
  funext j
  obtain ⟨p, q, rfl⟩ : ∃ (p : Fin 1024) (q : Fin 64), j = ix2 p q := ⟨j 0, j 1, eq_ix2 j⟩
  unfold Stage.gramNarrow
  refine (PlainDot.dotGeneral_apply _ rfl none .single _ x p q).trans ?_
  rw [Pool.gram_apply]
  exact Finset.sum_congr rfl fun k _ => by rw [transpose_ix2_apply]

/-- The host's row sums of `a` from the zero word are the plain row sums. -/
theorem degrees_eq (a : FVec Ideal S8192x8192 .f32) : Stage.degrees a = Pool.rowSum a := by
  funext j
  obtain ⟨p, rfl⟩ : ∃ p : Fin 8192, j = ix1 p := ⟨j 0, eq_ix1 j⟩
  unfold Stage.degrees
  refine (RowReduce.hostReduceAdd_row a _ reducesTo_S8192x8192_S8192_d1 (by decide) h_S_ p).trans ?_
  rw [zero_init, zero_add, Pool.rowSum_apply]

/-- The host's row sums of the squares of `s`. -/
theorem rowSquares_eq (s : FVec Ideal S8192x1024 .f32) : Stage.rowSquares s = Pool.rowSq s := by
  funext j
  obtain ⟨p, rfl⟩ : ∃ p : Fin 8192, j = ix1 p := ⟨j 0, eq_ix1 j⟩
  unfold Stage.rowSquares
  refine (RowReduce.hostReduceAdd_row _ _ reducesTo_S8192x1024_S8192_d1 (by decide) h_S_ p).trans ?_
  rw [zero_init, zero_add, Pool.rowSq_apply]
  rfl

/-- The hidden layer at an entry. -/
theorem hidden_apply (x : FVec Ideal S8192x64 .f32) (w1 : FVec Ideal S64x16 .f32) (b1 : FVec Ideal S16 .f32)
    (p : Fin 8192) (j : Fin 16) :
    Stage.hidden x w1 b1 (ix2 p j) = max (∑ k : Fin 64, x (ix2 p k) * w1 (ix2 k j) + b1 (ix1 j)) DenseLayer.zeroWord := by
  unfold Stage.hidden
  rw [maximumf_apply, addf_apply, DenseLayer.inDimRow_apply, broadcastInDim_scalar_apply, constant_apply]
  exact congrArg (fun t => max (t + b1 (ix1 j)) DenseLayer.zeroWord) (PlainDot.dotGeneral_apply _ rfl none .single x w1 p j)

/-- The logits at an entry. -/
theorem logits_apply (h : FVec Ideal S8192x16 .f32) (w2 : FVec Ideal S16x1024 .f32) (b2 : FVec Ideal S1024 .f32)
    (p : Fin 8192) (q : Fin 1024) :
    Stage.logits h w2 b2 (ix2 p q) = ∑ j : Fin 16, h (ix2 p j) * w2 (ix2 j q) + b2 (ix1 q) := by
  unfold Stage.logits
  rw [addf_apply, DenseLayer.inDimRow_apply]
  exact congrArg (fun t => t + b2 (ix1 q)) (PlainDot.dotGeneral_apply _ rfl none .single h w2 p q)

/-- The logits of the hidden layer are the specification's. -/
theorem logits_hidden_eq (x : FVec Ideal S8192x64 .f32) (w1 : FVec Ideal S64x16 .f32) (b1 : FVec Ideal S16 .f32)
    (w2 : FVec Ideal S16x1024 .f32) (b2 : FVec Ideal S1024 .f32) :
    Stage.logits (Stage.hidden x w1 b1) w2 b2 = DenseLayer.mlpPre x w1 b1 w2 b2 := by
  funext i
  obtain ⟨p, q, rfl⟩ : ∃ (p : Fin 8192) (q : Fin 1024), i = ix2 p q := ⟨i 0, i 1, eq_ix2 i⟩
  rw [logits_apply, DenseLayer.mlpPre_apply]
  exact congrArg (fun t => t + b2 (ix1 q)) (Finset.sum_congr rfl fun j _ => by rw [hidden_apply])

/-- A vector of row values spread back over the rows reads the row's value. -/
theorem spreadRows_apply (v : FVec Ideal S8192 .f32) (p : Fin 8192) (q : Fin 1024) :
    Stage.spreadRows v (ix2 p q) = v (ix1 p) := by
  unfold Stage.spreadRows
  rw [KeepDims.broadcastInDim_a1_ab_apply, KeepDims.broadcastInDim_a_a1_apply]

/-- The shifted exponential at an entry. -/
theorem shiftedExp_apply (z : FVec Ideal S8192x1024 .f32) (p : Fin 8192) (q : Fin 1024) :
    Stage.shiftedExp z (ix2 p q) = Ideal.exp (z (ix2 p q) - Pool.rowShift z p) := by
  unfold Stage.shiftedExp
  show Ideal.exp (subf (F := Ideal) z _ (ix2 p q)) = _
  rw [subf_apply, spreadRows_apply, maximumf_apply, broadcastInDim_scalar_apply, constant_apply]
  refine congrArg (fun t => Ideal.exp (z (ix2 p q) - max Pool.negInfWord t)) ?_
  exact RowReduce.hostReduce_maximumf_row z _ reducesTo_S8192x1024_S8192_d1 (by decide) h_S_ p

/-- The host's softmax along rows is the specification's. -/
theorem softmax_eq (z : FVec Ideal S8192x1024 .f32) : Stage.softmax z = Pool.softmaxRows z := by
  funext i
  obtain ⟨p, q, rfl⟩ : ∃ (p : Fin 8192) (q : Fin 1024), i = ix2 p q := ⟨i 0, i 1, eq_ix2 i⟩
  unfold Stage.softmax
  show Ideal.div (Stage.shiftedExp z (ix2 p q)) (Stage.spreadRows _ (ix2 p q)) = _
  rw [spreadRows_apply, shiftedExp_apply, Pool.softmaxRows_apply]
  refine congrArg (Ideal.div _) ?_
  refine (RowReduce.hostReduceAdd_row _ _ reducesTo_S8192x1024_S8192_d1 (by decide) h_S_ p).trans ?_
  rw [zero_init, zero_add]
  exact Finset.sum_congr rfl fun k _ => shiftedExp_apply z p k

/-- The host's assignment matrix is the specification's. -/
theorem assign_eq (x : FVec Ideal S8192x64 .f32) (w1 : FVec Ideal S64x16 .f32) (b1 : FVec Ideal S16 .f32)
    (w2 : FVec Ideal S16x1024 .f32) (b2 : FVec Ideal S1024 .f32) :
    Stage.assign x w1 b1 w2 b2 = Pool.assign x w1 b1 w2 b2 := by
  unfold Stage.assign Pool.assign
  rw [softmax_eq, logits_hidden_eq]

end Cert.ReferenceIdeal.Front

end
-- ==== Proof.lean ====
/-
  The certificate of a three-stage graph-pooling kernel against its plain reference.

  The kernel computes the assignment matrix `S = softmax (relu (X W1 + b1) W2 + b2)` block of rows by block of rows,
  then `A S` and the row sums of `A` accumulated over column blocks of `A`, then `Sᵀ (A S)`, `Sᵀ S`, `Sᵀ X`
  accumulated over row blocks and the row sums of the squares of `S`; the reference computes the same quantities
  with whole-array operations; both finish with the same small host stages (trace, cut loss, orthogonality loss,
  degree normalisation, pooled index). Over the extended reals a change of float format is the identity and
  addition is commutative and associative, so a product or a row sum accumulated block by block is the whole
  product or row sum: the two programs' results are equal functions of the arguments, with no finiteness needed.

  The frames of the two kernel programs are the generated ones; the reference's frame is its run with the results
  dropped. The ideal pass rewrote nothing, so there is nothing to preserve. The algebraic claim puts the kernel's
  run (the regions' values chained through the boundaries, then the last host stretch) beside the reference's run
  (its stages read as the specification's formulas) at arguments that agree.
-/
import proofs.«116769_j12343736009109_2_alg».proof.Defs
import proofs.«116769_j12343736009109_2_alg».proof.Proof.Gen.Kernel
import proofs.«116769_j12343736009109_2_alg».proof.Proof.Gen.Kernel.Skeleton
import proofs.«116769_j12343736009109_2_alg».proof.Proof.Gen.Kernel.Launch
import proofs.«116769_j12343736009109_2_alg».proof.Proof.Gen.Kernel.Points
import proofs.«116769_j12343736009109_2_alg».proof.Proof.Gen.Kernel.Frame
import proofs.«116769_j12343736009109_2_alg».proof.Proof.Gen.KernelIdeal
import proofs.«116769_j12343736009109_2_alg».proof.Proof.Gen.KernelIdeal.Skeleton
import proofs.«116769_j12343736009109_2_alg».proof.Proof.Gen.KernelIdeal.Launch
import proofs.«116769_j12343736009109_2_alg».proof.Proof.Gen.KernelIdeal.Points
import proofs.«116769_j12343736009109_2_alg».proof.Proof.Gen.KernelIdeal.Frame
import proofs.«116769_j12343736009109_2_alg».proof.Proof.Gen.ReferenceIdeal
import proofs.«116769_j12343736009109_2_alg».proof.Proof.Gen.Pre_finite_inputs
import proofs.«116769_j12343736009109_2_alg».proof.Proof.KValue
import proofs.«116769_j12343736009109_2_alg».proof.Proof.Region0
import proofs.«116769_j12343736009109_2_alg».proof.Proof.Region1
import proofs.«116769_j12343736009109_2_alg».proof.Proof.Region2
import proofs.«116769_j12343736009109_2_alg».proof.Proof.RefRun
import proofs.«116769_j12343736009109_2_alg».proof.Proof.RefFront
import Idealize.ShloMosaic.Adequacy
import Idealize.ShloMosaic.Init

set_option maxRecDepth 16384

noncomputable section

namespace Cert.Proof

open Idealize.ShloMosaic Idealize.SL.Sem

/-- The word-level kernel runs and leaves its arguments. -/
theorem frame_k : Cert.frame_Kernel := fun m ρ _ => Cert.Kernel.Gen.frame m ρ

/-- The idealized kernel runs and leaves its arguments. -/
theorem frame_ki : Cert.frame_KernelIdeal := fun m ρ _ => Cert.KernelIdeal.Gen.frame m ρ

/-- The reference runs and leaves its arguments: its run with the results dropped. -/
theorem frame_ri : Cert.frame_ReferenceIdeal := fun m ρ _ =>
  (θ_run Cert.ReferenceIdeal.defs _ _).mono (fun _ h c => (h c).2.2.2.2.2) (Cert.ReferenceIdeal.RefValue.run m ρ)

/-- The ideal pass rewrote no operation. -/
theorem preserves : Cert.preserves_Kernel_KernelIdeal := trivial

/-- What the three regions leave, each proved in its own module. -/
theorem regions : Cert.KernelIdeal.KValue.RegionValues :=
  ⟨Cert.KernelIdeal.Region0.s_value, Cert.KernelIdeal.Region1.as_value, Cert.KernelIdeal.Region1.deg_value,
    Cert.KernelIdeal.Region2.arec_value, Cert.KernelIdeal.Region2.ss_value, Cert.KernelIdeal.Region2.xrec_value,
    Cert.KernelIdeal.Region2.ssrow_value⟩

/-- At arguments that agree the two programs end with the same five results: the kernel's regions leave `S`, `A S`,
    the row sums and the three contractions as whole-array formulas, the reference's stages are the same formulas,
    and the last stages are shared. -/
theorem algebraic : Cert.algebraic_KernelIdeal_ReferenceIdeal := by
  intro m ρ m' ρ' _ hagree
  refine ⟨_, _, _, _, _, Cert.KernelIdeal.KValue.run m ρ regions, ?_⟩
  refine (θ_run Cert.ReferenceIdeal.defs _ _).mono (fun _ h c => ?_) (Cert.ReferenceIdeal.RefValue.run m' ρ')
  obtain ⟨h49, h61, h73, h31, h47, hargs⟩ := h c
  obtain ⟨a0, a1, a2, a3, a4, a5, a6⟩ := hagree c
  refine ⟨h49.trans ?_, h61.trans ?_, h73.trans ?_, h31.trans ?_, h47.trans ?_, hargs⟩
  · rw [a0, a3, a4, a5, a6, Cert.ReferenceIdeal.Front.assign_eq, Cert.ReferenceIdeal.Front.gramNarrow_eq]; rfl
  · rw [a0, a1, a3, a4, a5, a6, Cert.ReferenceIdeal.Front.assign_eq, Cert.ReferenceIdeal.Front.aTimes_eq,
      Cert.ReferenceIdeal.Front.gramWide_eq]; rfl
  · rw [a2]
  · rw [a0, a1, a3, a4, a5, a6, Cert.ReferenceIdeal.Front.assign_eq, Cert.ReferenceIdeal.Front.aTimes_eq,
      Cert.ReferenceIdeal.Front.gramWide_eq, Cert.ReferenceIdeal.Front.degrees_eq, Cert.ReferenceIdeal.Front.rowSquares_eq]; rfl
  · rw [a0, a3, a4, a5, a6, Cert.ReferenceIdeal.Front.assign_eq, Cert.ReferenceIdeal.Front.gramWide_eq]; rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
